-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8x2048x1024 .f32) (main_arg1 : FVec F S1024x1024 .f32) (main_arg2 : FVec F S1024x1024 .f32) (main_arg3 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8x2048x1024 : Shape := ⟨3, ![8, 2048, 1024]⟩
abbrev S1024x1024 : Shape := ⟨2, ![1024, 1024]⟩
abbrev S16384x1024 : Shape := ⟨2, ![16384, 1024]⟩
abbrev S1024x3072 : Shape := ⟨2, ![1024, 3072]⟩
abbrev S16384x3072 : Shape := ⟨2, ![16384, 3072]⟩
abbrev S512x1024 : Shape := ⟨2, ![512, 1024]⟩
abbrev S512x3072 : Shape := ⟨2, ![512, 3072]⟩
abbrev S8x2048x3072 : Shape := ⟨3, ![8, 2048, 3072]⟩
abbrev S1x1024x1024 : Shape := ⟨3, ![1, 1024, 1024]⟩
abbrev S1x512x1024 : Shape := ⟨3, ![1, 512, 1024]⟩
abbrev S1024x1 : Shape := ⟨2, ![1024, 1]⟩
abbrev S1024x512 : Shape := ⟨2, ![1024, 512]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S16384x1024, .f32⟩
  | .hbm, ⟨5, _⟩ => ⟨S1024x3072, .f32⟩
  | .hbm, ⟨6, _⟩ => ⟨S1024x3072, .bf16⟩
  | .hbm, ⟨7, _⟩ => ⟨S16384x3072, .bf16⟩
  | .hbm, ⟨8, _⟩ => ⟨S8x2048x3072, .bf16⟩
  | .hbm, ⟨9, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S1024x1, .f32⟩
  | .local _ .vmem, ⟨14, _⟩ => ⟨S1024x1, .f32⟩
  | .local _ .vmem, ⟨15, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_27 : BitVec 32 := 0#32
  let v44 : BitVec 1 := Scalar.cmpi .ne v43 c0_i32_27
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg2.toNat, c2_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8x2048x1024_S16384x1024 : S8x2048x1024.ShapeCasts S16384x1024
  concatenates_S1024x1024_S1024x1024_S1024x1024_S1024x3072_d1 : Shape.Concatenates [S1024x1024, S1024x1024, S1024x1024] S1024x3072 1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S16384x3072_S8x2048x3072 : S16384x3072.ShapeCasts S8x2048x3072
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x3072_S512x3072_1_0_0_1_n_n_wf : DotDims.WF S512x1024 S1024x3072 S512x3072 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S16384x3072.size a
  hwx0_2 : ∀ i : grid0.Coords, EltTy.bits .bf16 = 32 ∨ (Rect.block (s := S16384x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x2048x3072.size a
  hwx1_0 : ∀ i : grid1.Coords, EltTy.bits .bf16 = 32 ∨ (Rect.block (s := S8x2048x3072) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x3072.size a
  hwx1_1 : ∀ i : grid1.Coords, EltTy.bits .bf16 = 32 ∨ (Rect.block (s := S8x2048x3072) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x2048x3072.size a
  hwx1_2 : ∀ i : grid1.Coords, EltTy.bits .bf16 = 32 ∨ (Rect.block (s := S8x2048x3072) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S8x2048x1024.size a
  hwx1_3 : ∀ i : grid1.Coords, EltTy.bits .f32 = 32 ∨ (Rect.block (s := S8x2048x1024) S1x1024x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S_, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Region0B.lean ====
/- The frame half of REGION 0 of the word-level kernel program: the projection kernel, a [512,1024] block of the
   activations times the whole [1024,3072] weight panel into a [512,3072] block, over a grid of 32 points.
   Everything is stated at a PARAMETER V, the contents of the TensorCore's buffers when the region is entered, and at
   any float model F: each window's block at a point, what the body leaves in the output window's buffer, the body's
   triple, the pipeline's proof data and the body obligation. One value lemma closes the file: the output buffer after
   the body is the kernel's payload of the two input blocks. -/
import proofs.«153811_j15212774163203_2_alg».proof.Proof.Gen.Kernel.Launch
import proofs.«153811_j15212774163203_2_alg».proof.Proof.Gen.Kernel.Skeleton
import proofs.«153811_j15212774163203_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- what the TensorCore's buffers hold on entry to the region
variable (V : (c : Dev nD) → (b : Ref sig .tc) → Buf (Elt F) ((c : Thread nD τ).loc b))

/-! ## The blocks of the three windows -/

/-- The block of window w at grid point t: the restriction of the window's array, as V has it, to the block's
    rectangle. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window (window 0) holds its block before the body at every point: it is fetched at each point.
    Stated for any proof data whose array is V's and whose body returns the block unchanged. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight panel's window (window 1) is fetched at the first point only, its block index being the same at every
    point; since the body returns the block unchanged, the buffer holds that block at the later points too. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through: each is its whole buffer -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

/-- The offsets of those rectangles are zero on both axes. -/
theorem zero_off0 : (![0, 0] : Fin 2 → Nat) = fun _ => 0 := funext fun a => by fin_cases a <;> rfl

/-! ## The output window's buffer after the body -/

/-- The buffer of window 2 after the body, as a function of the two input blocks: the one store, whose payload is the
    product of what the two loads read. -/
def out0_2 (x0 : Vec F S512x1024 .f32) (x1 : Vec F S1024x3072 .bf16) : Vec F S512x3072 .bf16 :=
  View.canon [⟨r0_2, k0_pay1 (View.ld x0 r0_0) (View.ld x1 r0_1)⟩]

/-- That one store reaches every index of the buffer: its rectangle is the whole shape. -/
theorem cover0_2 (p0 : Vec F S512x3072 .bf16) (y : S512x3072.Idx) :
    ∃ pc ∈ ([⟨r0_2, p0⟩] : List (View.Piece (Elt F) S512x3072 .bf16)), y ∈ pc.1.set :=
  ⟨_, List.mem_singleton_self _, View.mem_set_unit_zero zero_off0 inb_S512x3072_S512x3072_0_0 y⟩

/-! ## The body's triple -/

set_option maxHeartbeats 1000000 in
/-- From the two input buffers at contents x0 and x1 and the output buffer at anything, the body runs to the input
    buffers unchanged and the output buffer at out0_2 x0 x1: two loads, a load whose value is unused, one store. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- The proof data on core c: the arrays are V's; after the body each input's buffer still holds its block and the
    output's holds out0_2 of the two input blocks; the invariant is the untouched rest (the other scoped buffers and
    the generator register); every share is full and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves in each window's buffer, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Before the body at any point, each input's buffer holds its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a point -/

/-- The resources the body is entered with at point t: the invariant, the core's debts, and the three windows'
    current buffers at what they hold before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- The resources it returns: the same, the buffers at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at a point: the inputs' buffers hold their blocks, the output's holds something, so the body's triple
    applies; the invariant and the debts are carried across unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

/-! ## The value of the output buffer -/

/-- The single store covers the buffer and each load reads its whole buffer, so what the body leaves in the output
    buffer is the kernel's payload of the two input blocks. -/
theorem out0_2_eq (x0 : Vec F S512x1024 .f32) (x1 : Vec F S1024x3072 .bf16) : out0_2 x0 x1 = k0_pay1 x0 x1 := by
  unfold out0_2
  rw [View.canon_unit_zero zero_off0]
  simp only [View.ld_unit_zero (S := S512x1024) zero_off0, View.ld_unit_zero (S := S1024x3072) zero_off0]

end Region0

end Cert.Kernel.Gen

end
-- ==== Proof.Region1RunsB.lean ====
/-
  The second region (the attention kernel over the grid 8 × 2 × 4: batch, query tile, key tile): what its three
  control cases share. The key-tile coordinate is the point's number modulo 4. At key tile 0 the three scratch
  buffers (running maximum, running denominator, running numerator) are reset before the tile is accumulated; at
  key tile 3 the quotient numerator / denominator is stored into the output block, which is idle at every other
  point and written back at key tile 3 only.
-/
import proofs.«153811_j15212774163203_2_alg».proof.Proof.Gen.Kernel.Launch
import proofs.«153811_j15212774163203_2_alg».proof.Proof.Gen.Kernel.Skeleton
import proofs.«153811_j15212774163203_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's two conditions, from the grid coordinates -/

/-- "This is key tile 0." -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is key tile 3." -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three scratch operands: the running maximum, denominator and numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The class invariant with the scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Gen

end
-- ==== Proof.Region1RunAB.lean ====
/- The attention kernel's body at key tile 0 (the scratch buffers reset, then one tile accumulated; the output block
   untouched): its run, the pieces each scratch buffer ends with found by the run. -/
import proofs.«153811_j15212774163203_2_alg».proof.Proof.Region1RunsB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) :
    Σ' (L3 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Gen

end
-- ==== Proof.Region1RunBB.lean ====
/- The attention kernel's body at key tiles 1 and 2 (one more tile accumulated onto what the scratch buffers carry; the
   output block untouched): its run. -/
import proofs.«153811_j15212774163203_2_alg».proof.Proof.Region1RunAB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Gen

end
-- ==== Proof.Region1RunCB.lean ====
/- The attention kernel's body at key tile 3 (the last tile accumulated, then numerator / denominator stored into the
   output block): its run. -/
import proofs.«153811_j15212774163203_2_alg».proof.Proof.Region1RunBB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, ?_, fun E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Gen

end
-- ==== Proof.Region1B.lean ====
/- The second region's proof data: what the output block and the three scratch buffers (running maximum, denominator,
   numerator) hold after every grid point, the region invariant carrying the scratch buffers from one point to the next,
   and the body obligation at every point by cases on the key tile. -/
import proofs.«153811_j15212774163203_2_alg».proof.Proof.Region1RunCB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output block: a placeholder nothing consults. -/
def out1_A_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1x1024x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Case A's stores into scratch 0 cover it. -/
theorem scover1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y

/-- What case A leaves in scratch 0. -/
def sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- Case A's stores into scratch 1 cover it. -/
theorem scover1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y

/-- What case A leaves in scratch 1. -/
def sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- Case A's stores into scratch 2 cover it. -/
theorem scover1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x1024.size (by sl_kernel_rfl) y

/-- What case A leaves in scratch 2. -/
def sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- Case B stores nothing into the output block: a placeholder nothing consults. -/
def out1_B_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- Case B's stores into scratch 0 cover it. -/
theorem scover1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y

/-- What case B leaves in scratch 0. -/
def sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- Case B's stores into scratch 1 cover it. -/
theorem scover1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y

/-- What case B leaves in scratch 1. -/
def sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- Case B's stores into scratch 2 cover it. -/
theorem scover1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x1024.size (by sl_kernel_rfl) y

/-- What case B leaves in scratch 2. -/
def sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- Case C's one store covers the output block. -/
theorem cover1_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x1024x1024.size (by sl_kernel_rfl) y

/-- What case C leaves in the output block. -/
def out1_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- Case C's stores into scratch 0 cover it. -/
theorem scover1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1024x1.size (by sl_kernel_rfl) y

/-- What case C leaves in scratch 0. -/
def sout1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- Case C's stores into scratch 1 cover it. -/
theorem scover1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1024x1.size (by sl_kernel_rfl) y

/-- What case C leaves in scratch 1. -/
def sout1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- Case C's stores into scratch 2 cover it. -/
theorem scover1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1024x1024.size (by sl_kernel_rfl) y

/-- What case C leaves in scratch 2. -/
def sout1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

section
variable (V : (c : Dev nD) → (b : Ref sig .tc) → Buf (Elt F) ((c : Thread nD τ).loc b))

/-- What the output block and the three scratch buffers hold after the body at position `n`: the case the position's key
    tile selects, run on the point's blocks and, from key tile 1 on, on what the position before left in the scratch
    buffers. -/
def outsAt1 (c : Dev nD) : (n : ℕ) → n < cfg1.N → Vec F S1x1024x1024 .f32 × Vec F S1024x1 .f32 × Vec F S1024x1 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch buffer at anything);
    afterwards the three scratch buffers at what the position before left in them. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

/-- The share of the fused projection array each window holds: the three input windows read one array, so they split
    it; the output window's array is its own. -/
def q1 : Fin cfg1.W → PosShare TreeShare
  | ⟨0, _⟩ => fullShare.left
  | ⟨1, _⟩ => fullShare.right.left
  | ⟨2, _⟩ => fullShare.right.right
  | _ => fullShare

/-- The proof data of the second region on core `c`: the arrays as the region finds them; after the body each input's
    buffer at its block and the output's at `outsAt1`; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the key tile says which case the point is in; the invariant hands the body the three scratch
    buffers at what the point before left (at anything before the first point, and at key tile 0 they are reset first)
    and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 4 = 0
  · by_cases h1 : t.val % 4 = 3
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨HE0, HE1, HE2, HE3, HE4, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HE0 HE1 HE2 HE3 HE4 HS0 HS1 HS2 Hg]
        · isplitr [Hg]
          swap; · iexact Hg
          isplitl [HE0]; · iexact HE0
          isplitl [HE1]; · iexact HE1
          isplitl [HE2]; · iexact HE2
          isplitl [HE3]; · iexact HE3
          isplitl [HE4]; · iexact HE4
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HE0, HE1, HE2, HE3, HE4, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HE0 HE1 HE2 HE3 HE4 HS0 HS1 HS2 Hg]
        · isplitr [Hg]
          swap; · iexact Hg
          isplitl [HE0]; · iexact HE0
          isplitl [HE1]; · iexact HE1
          isplitl [HE2]; · iexact HE2
          isplitl [HE3]; · iexact HE3
          isplitl [HE4]; · iexact HE4
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      rw [PhiS1_castSucc V c t, PhiS1_pos V c _ _ hz]
      iintro ⟨⟨⟨HE0, HE1, HE2, HE3, HE4, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HE0 HE1 HE2 HE3 HE4 HS0 HS1 HS2 Hg]
      · isplitr [Hg]
        swap; · iexact Hg
        isplitl [HE0]; · iexact HE0
        isplitl [HE1]; · iexact HE1
        isplitl [HE2]; · iexact HE2
        isplitl [HE3]; · iexact HE3
        isplitl [HE4]; · iexact HE4
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        unfold owns; iexists _; isplitr
        swap; · iexact HS2
        ipureintro; exact View.read_writes_of_cover _ _ _ _ _ (scover1_C_2 c _ _ _ _ _ _ _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      rw [PhiS1_castSucc V c t, PhiS1_pos V c _ _ hz]
      iintro ⟨⟨⟨HE0, HE1, HE2, HE3, HE4, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HE0 HE1 HE2 HE3 HE4 HS0 HS1 HS2 Hg]
      · isplitr [Hg]
        swap; · iexact Hg
        isplitl [HE0]; · iexact HE0
        isplitl [HE1]; · iexact HE1
        isplitl [HE2]; · iexact HE2
        isplitl [HE3]; · iexact HE3
        isplitl [HE4]; · iexact HE4
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        unfold owns; iexists _; isplitr
        swap; · iexact HS2
        ipureintro; exact View.read_writes_of_cover _ _ _ _ _ (scover1_B_2 c _ _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch buffers' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HE0, HE1, HE2, HE3, HE4, HS0, HS1, HS2⟩, Hg⟩
  isplitr [Hg]
  swap; · iexact Hg
  isplitl [HE0]; · iexact HE0
  isplitl [HE1]; · iexact HE1
  isplitl [HE2]; · iexact HE2
  isplitl [HE3]; · iexact HE3
  isplitl [HE4]; · iexact HE4
  isplitl [HS0]; · iexists _; iexact HS0
  isplitl [HS1]; · iexists _; iexact HS1
  iexists _; iexact HS2

end

end Cert.Kernel.Gen

end
-- ==== Proof.RunAllB.lean ====
/- THE RUN of the word-level kernel program from launch to return, at any float model F: a stretch of host operations
   (the activations reshaped, the three weight matrices packed side by side and rounded to bf16), REGION 0 (the fused
   projection), one host operation (a reshape), and REGION 1 (the attention). The contents of the TensorCore's buffers
   are followed from boundary to boundary; each region is entered with every unscoped buffer at the boundary's contents,
   its windows' arrays are taken out, run through the pipeline, and put back. Region 1's three input windows read ONE
   array, so its buffer is split into three shares, which the final state is read through without rejoining them.
   Conclusions: in every final state the output array is the fold of region 1's write-backs and the four argument
   arrays are as launched. -/
import proofs.«153811_j15212774163203_2_alg».proof.Proof.Region0B
import proofs.«153811_j15212774163203_2_alg».proof.Proof.Region1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's arrays: three windows read one array -/

/-- The arrays of region 1's four windows: the fused projection (windows 0, 1, 2) and the output (window 3). -/
theorem arrRef1_image : Finset.univ.image (Pipeline.arrRef spec1) = ({main_v4, main_v5} : Finset (Ref sig .tc)) := by decide

theorem arrRef1_sub : Finset.univ.image (Pipeline.arrRef spec1) ⊆ Finset.univ.filter fun b : Ref sig .tc => ¬ b.isScoped := by decide

/-- The arrays of region 1 at contents F, each a whole buffer at the window's share. -/
theorem arrays1_eq {c : Dev nD} (dat : Dat τ (Elt F) Unit ℕ (UR sig nD τ) ℕ cfg1 c)
    (G : (w : Fin cfg1.W) → Buf (Elt F) ((cfg1.win w).arr.view.loc (c : Thread nD τ))) :
    (dat.arrays G : sProp 𝕄) = bigSep Finset.univ fun w : Fin cfg1.W =>
      (((c : Thread nD τ).loc (Pipeline.arrRef spec1 w)) ↦{dat.share w} G w : sProp 𝕄) := by
  unfold Dat.arrays
  exact bigSep_congr fun w _ => by rw [(arr_whole1 w).set_eq_univ]

/-- ENTRY of region 1. -/
theorem arrays1_of_unscopedBufs {c : Dev nD} (dat : Dat τ (Elt F) Unit ℕ (UR sig nD τ) ℕ cfg1 c)
    (hq0 : dat.q 0 = fullShare.left) (hq1 : dat.q 1 = fullShare.right.left) (hq2 : dat.q 2 = fullShare.right.right)
    (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  classical
  have s0 : dat.share 0 = fullShare.left := by unfold Dat.share; rw [if_neg (by decide)]; exact hq0
  have s1 : dat.share 1 = fullShare.right.left := by unfold Dat.share; rw [if_neg (by decide)]; exact hq1
  have s2 : dat.share 2 = fullShare.right.right := by unfold Dat.share; rw [if_neg (by decide)]; exact hq2
  have s3 : dat.share 3 = fullShare := by unfold Dat.share; rw [if_pos (by decide)]
  rw [arrays1_eq, bigSep_W1, s0, s1, s2, s3]
  rw [show dat.arrAt 0 0 = V (Pipeline.arrRef spec1 0) from hA 0, show dat.arrAt 1 0 = V (Pipeline.arrRef spec1 1) from hA 1,
    show dat.arrAt 2 0 = V (Pipeline.arrRef spec1 2) from hA 2, show dat.arrAt 3 0 = V (Pipeline.arrRef spec1 3) from hA 3]
  have hsplit : (unscopedBufs c V : sProp 𝕄)
      = iprop((bigSep ({main_v4, main_v5} : Finset (Ref sig .tc)) fun b => (((c : Thread nD τ).loc b) ↦{fullShare} V b : sProp 𝕄))
          ∗ Pipeline.unscopedRest spec1 c V) := by
    unfold unscopedBufs Pipeline.unscopedRest
    rw [bigSep_sdiff_split arrRef1_sub, arrRef1_image]
    rfl
  rw [hsplit, bigSep_insert (by decide), bigSep_singleton]
  refine (show iprop(((((c : Thread nD τ).loc main_v4) ↦{fullShare} V main_v4) ∗ (((c : Thread nD τ).loc main_v5) ↦{fullShare} V main_v5))
      ∗ Pipeline.unscopedRest (Ix := Unit) (Name := ℕ) (U := UR sig nD τ) (Lvl := ℕ) spec1 c V) ⊢ _ from ?_)
  iintro ⟨⟨H4, H5⟩, Hrest⟩
  ihave H4' := (pointsTo_share (PosShare.mem_left_op_right fullShare)).1 $$ H4
  icases H4' with ⟨H4a, H4r⟩
  ihave H4r' := (pointsTo_share (PosShare.mem_left_op_right fullShare.right)).1 $$ H4r
  icases H4r' with ⟨H4b, H4c⟩
  isplitr [Hrest]
  swap; · iexact Hrest
  isplitl [H4a]; · iexact H4a
  isplitl [H4b]; · iexact H4b
  isplitl [H4c]; · iexact H4c
  iexact H5

/-- The end of the run: region 1's arrays, held at any shares beside the state interpretation of a state, say what
    the state's memory holds at each. -/
theorem arrays1_read {c : Dev nD} (dat : Dat τ (Elt F) Unit ℕ (UR sig nD τ) ℕ cfg1 c)
    (G : (w : Fin cfg1.W) → Buf (Elt F) ((cfg1.win w).arr.view.loc (c : Thread nD τ))) (s' : Phys nD τ sig (Elt F)) :
    iprop((dat.arrays G : sProp 𝕄) ∗ SI s')
      ⊢ iprop(⌜∀ w, s'.mem.mem ((c : Thread nD τ).loc (Pipeline.arrRef spec1 w)) = G w⌝ ∗ SI s') := by
  rw [arrays1_eq]
  iintro ⟨Ha, HSI⟩
  ihave Hr := (pointsTo_read_all' Finset.univ (fun w => (c : Thread nD τ).loc (Pipeline.arrRef spec1 w)) G s' dat.share) $$ [Ha HSI]
  · isplitl [Ha] <;> iassumption
  icases Hr with ⟨%ha, HSI⟩
  isplitr; · ipureintro; exact fun w => ha w (Finset.mem_univ w)
  iexact HSI

variable (m : (ℓ : Loc nD τ sig) → Buf (Elt F) ℓ) (ρ : Dev nD → PrngReg)

/-! # The run of the whole program: host operations, region 0, a host operation, region 1

## The buffer contents at each boundary between segments -/

/-- The buffers of core c at launch. -/
abbrev W0 : Dev nD → Valuation τ sig (Elt F) := fun c b => (s₀ m ρ).mem ((c : Dev nD), b)
/-- After the first stretch of host operations: what region 0 is entered with. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- When region 0 is left: its three arrays at what the pipeline's write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- At region 0's exit each of its arrays holds what the pipeline leaves, and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what region 1 is entered with. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b

/-! ### The four arguments are never written

No host operation writes an argument, and no region has one among its arrays: region 0's arrays are the reshaped
activations, the packed weights and its result, region 1's are the fused projection and the output. So the contents
at region 1's entry, read at an argument, walk back to the launch memory. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.unary_writes, StableHlo.reshape_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.reshape_writes, StableHlo.nary_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.unary_writes, StableHlo.reshape_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.reshape_writes, StableHlo.nary_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.unary_writes, StableHlo.reshape_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.reshape_writes, StableHlo.nary_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.unary_writes, StableHlo.reshape_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.unary_writes, StableHlo.reshape_writes, StableHlo.nary_writes, Finset.mem_singleton]
          repeat' apply And.intro
          all_goals exact StableHlo.devRef_ne_of_ne (by decide)))
    _ = m ((c : Thread nD τ).loc main_arg3) := rfl

/-! ## The proof data of both pipelines and what rides beside the buffers -/

/-- No pipeline has a prefetched table. -/
abbrev adm : (p : Fin 2) → (pcfgs (F := F) p).Adm := fun p => (cfgs p).toPCfg_adm
/-- The proof data of each pipeline at the contents its region is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything, so no level is assigned. -/
abbrev L : GSem nD τ sig → Finset Unit := fun _ => ∅
abbrev lv : GSem nD τ sig → Unit → ℕ := fun _ _ => 0
/-- Beside the buffers, through every segment: the core's generator register at some state, and that it owes nothing. -/
abbrev R (c : Dev nD) : sProp 𝕄 := iprop((∃ r, prngReg c r) ∗ ∃ W, owes (c : Thread nD τ) (0 : CellTallies nD τ sig Unit) W)
/-- A stretch of host operations as a segment, from the contents W of the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The last thread state, the debts apart: region 1's arrays as the pipeline leaves them, each at its window's
    share (the three shares of the fused projection are not put back together), the other unscoped buffers as region 1
    was entered with them, and the generator register at some state. -/
abbrev Tₙ (c : Dev nD) : sProp 𝕄 :=
  iprop((dat1 (V3 m ρ) c).arrays ((dat1 (V3 m ρ) c).arrAt · cfg1.N) ∗ Pipeline.unscopedRest spec1 c (V3 m ρ c) ∗ ∃ r, prngReg c r)

/-! ## The two regions as segments -/

set_option backward.isDefEq.respectTransparency.types false in
/-- REGION 0: entered with every unscoped buffer at W1, left with them at W2. Its arrays are taken out of the unscoped
    buffers and put back at their exit contents; the generator register goes into the invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered with every unscoped buffer at W3. Three of its windows read ONE array, the fused projection, so
    that array's buffer is split into three shares, one per window; the output's array is held whole. At the exit the
    shares are kept apart: the last thread state holds the arrays as the pipeline leaves them. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays1_of_unscopedBufs (dat1 (V3 m ρ) c) rfl rfl rfl (V3 m ρ c) (fun w => A_eq1 (V3 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    iintro ⟨Ha, HO, HY, Hrest⟩
    imodintro
    isplitr [HO]
    · isplitl [Ha]; · iexact Ha
      isplitl [Hrest]; · iexact Hrest
      iexact HY
    unfold Pipeline.Dat.owesAt Pipeline.owesWithin
    icases HO with ⟨%W, -, HO⟩; iexists W; iexact HO

/-! ## The program as its four segments, and the launch -/

/-- The four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (segs m ρ) := (main_chain c).trans (by chain_rfl)

set_option backward.isDefEq.respectTransparency.types false in
/-- THE RUN. From any memory with zero counters, every weakly fair execution of the program on the TensorCores
    terminates without fault, and in every final state the output array holds what region 1's pipeline leaves in it
    (the fold of its write-backs, over the contents region 1 was entered with) and the four argument arrays hold what
    they held at launch. -/
theorem run_all : θ_run defs (onTc (τ := τ) (main (F := F))) ⟨m, fun _ => 0, ρ⟩ (fun r => ∀ c : Dev nD,
      r.2.mem ((c.tc : Thread nD τ).loc main_v5) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => (∀ w : Fin cfg1.W, s.mem ((c.tc : Thread nD τ).loc (Pipeline.arrRef spec1 w)) = (dat1 (V3 m ρ) c).arrAt w cfg1.N)
      ∧ ∀ b ∈ ((Finset.univ.filter fun b : Ref sig .tc => ¬ b.isScoped) \ Finset.univ.image (Pipeline.arrRef spec1)),
          s.mem ((c.tc : Thread nD τ).loc b) = V3 m ρ c b)
    (hfin := fun c s' => by
      iintro ⟨⟨Ha, Hrest, -⟩, HSI⟩
      imodintro
      ihave Hr := (arrays1_read (dat1 (V3 m ρ) c) ((dat1 (V3 m ρ) c).arrAt · cfg1.N) s') $$ [Ha HSI]
      · isplitl [Ha] <;> iassumption
      icases Hr with ⟨%ha, HSI⟩
      unfold Pipeline.unscopedRest
      ihave Hr2 := (pointsTo_read_all ((Finset.univ.filter fun b : Ref sig .tc => ¬ b.isScoped) \ Finset.univ.image (Pipeline.arrRef spec1))
          (fun b => (c.tc : Thread nD τ).loc b) (V3 m ρ c) s') $$ [Hrest HSI]
      · isplitl [Hrest] <;> iassumption
      icases Hr2 with ⟨%hb, HSI⟩
      isplitr; · ipureintro; exact ⟨ha, hb⟩
      iexact HSI)
    (hQ := fun s h c =>
      ⟨(h c).1 3,
        ((h c).2 main_arg0 (by decide)).trans (W3_main_arg0 m ρ c),
        ((h c).2 main_arg1 (by decide)).trans (W3_main_arg1 m ρ c),
        ((h c).2 main_arg2 (by decide)).trans (W3_main_arg2 m ρ c),
        ((h c).2 main_arg3 (by decide)).trans (W3_main_arg3 m ρ c)⟩)

/-- THE FRAME: the same run, keeping only that the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_all m ρ)

end Cert.Kernel.Gen

end
-- ==== Proof.Region0.lean ====
/- The frame half of REGION 0 of the idealized kernel program: the projection kernel, a [512,1024] block of the
   activations times the whole [1024,3072] weight panel into a [512,3072] block, over a grid of 32 points.
   Everything is stated at a PARAMETER V, the contents of the TensorCore's buffers when the region is entered, and at
   any float model F: each window's block at a point, what the body leaves in the output window's buffer, the body's
   triple, the pipeline's proof data and the body obligation. One value lemma closes the file: the output buffer after
   the body is the kernel's payload of the two input blocks. -/
import proofs.«153811_j15212774163203_2_alg».proof.Proof.Gen.KernelIdeal.Launch
import proofs.«153811_j15212774163203_2_alg».proof.Proof.Gen.KernelIdeal.Skeleton
import proofs.«153811_j15212774163203_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- what the TensorCore's buffers hold on entry to the region
variable (V : (c : Dev nD) → (b : Ref sig .tc) → Buf (Elt F) ((c : Thread nD τ).loc b))

/-! ## The blocks of the three windows -/

/-- The block of window w at grid point t: the restriction of the window's array, as V has it, to the block's
    rectangle. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window (window 0) holds its block before the body at every point: it is fetched at each point.
    Stated for any proof data whose array is V's and whose body returns the block unchanged. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight panel's window (window 1) is fetched at the first point only, its block index being the same at every
    point; since the body returns the block unchanged, the buffer holds that block at the later points too. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through: each is its whole buffer -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

/-- The offsets of those rectangles are zero on both axes. -/
theorem zero_off0 : (![0, 0] : Fin 2 → Nat) = fun _ => 0 := funext fun a => by fin_cases a <;> rfl

/-! ## The output window's buffer after the body -/

/-- The buffer of window 2 after the body, as a function of the two input blocks: the one store, whose payload is the
    product of what the two loads read. -/
def out0_2 (x0 : Vec F S512x1024 .f32) (x1 : Vec F S1024x3072 .bf16) : Vec F S512x3072 .bf16 :=
  View.canon [⟨r0_2, k0_pay1 (View.ld x0 r0_0) (View.ld x1 r0_1)⟩]

/-- That one store reaches every index of the buffer: its rectangle is the whole shape. -/
theorem cover0_2 (p0 : Vec F S512x3072 .bf16) (y : S512x3072.Idx) :
    ∃ pc ∈ ([⟨r0_2, p0⟩] : List (View.Piece (Elt F) S512x3072 .bf16)), y ∈ pc.1.set :=
  ⟨_, List.mem_singleton_self _, View.mem_set_unit_zero zero_off0 inb_S512x3072_S512x3072_0_0 y⟩

/-! ## The body's triple -/

set_option maxHeartbeats 1000000 in
/-- From the two input buffers at contents x0 and x1 and the output buffer at anything, the body runs to the input
    buffers unchanged and the output buffer at out0_2 x0 x1: two loads, a load whose value is unused, one store. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- The proof data on core c: the arrays are V's; after the body each input's buffer still holds its block and the
    output's holds out0_2 of the two input blocks; the invariant is the untouched rest (the other scoped buffers and
    the generator register); every share is full and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves in each window's buffer, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Before the body at any point, each input's buffer holds its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a point -/

/-- The resources the body is entered with at point t: the invariant, the core's debts, and the three windows'
    current buffers at what they hold before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- The resources it returns: the same, the buffers at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at a point: the inputs' buffers hold their blocks, the output's holds something, so the body's triple
    applies; the invariant and the debts are carried across unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

/-! ## The value of the output buffer -/

/-- The single store covers the buffer and each load reads its whole buffer, so what the body leaves in the output
    buffer is the kernel's payload of the two input blocks. -/
theorem out0_2_eq (x0 : Vec F S512x1024 .f32) (x1 : Vec F S1024x3072 .bf16) : out0_2 x0 x1 = k0_pay1 x0 x1 := by
  unfold out0_2
  rw [View.canon_unit_zero zero_off0]
  simp only [View.ld_unit_zero (S := S512x1024) zero_off0, View.ld_unit_zero (S := S1024x3072) zero_off0]

end Region0

end Cert.KernelIdeal.Gen

end
-- ==== Proof.Region1Runs.lean ====
/-
  The second region (the attention kernel over the grid 8 × 2 × 4: batch, query tile, key tile): what its three
  control cases share. The key-tile coordinate is the point's number modulo 4. At key tile 0 the three scratch
  buffers (running maximum, running denominator, running numerator) are reset before the tile is accumulated; at
  key tile 3 the quotient numerator / denominator is stored into the output block, which is idle at every other
  point and written back at key tile 3 only.
-/
import proofs.«153811_j15212774163203_2_alg».proof.Proof.Gen.KernelIdeal.Launch
import proofs.«153811_j15212774163203_2_alg».proof.Proof.Gen.KernelIdeal.Skeleton
import proofs.«153811_j15212774163203_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's two conditions, from the grid coordinates -/

/-- "This is key tile 0." -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is key tile 3." -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three scratch operands: the running maximum, denominator and numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The class invariant with the scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Gen

end
-- ==== Proof.Region1RunA.lean ====
/- The attention kernel's body at key tile 0 (the scratch buffers reset, then one tile accumulated; the output block
   untouched): its run, the pieces each scratch buffer ends with found by the run. -/
import proofs.«153811_j15212774163203_2_alg».proof.Proof.Region1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) :
    Σ' (L3 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Gen

end
-- ==== Proof.Region1RunB.lean ====
/- The attention kernel's body at key tiles 1 and 2 (one more tile accumulated onto what the scratch buffers carry; the
   output block untouched): its run. -/
import proofs.«153811_j15212774163203_2_alg».proof.Proof.Region1RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Gen

end
-- ==== Proof.Region1RunC.lean ====
/- The attention kernel's body at key tile 3 (the last tile accumulated, then numerator / denominator stored into the
   output block): its run. -/
import proofs.«153811_j15212774163203_2_alg».proof.Proof.Region1RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, ?_, fun E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Gen

end
-- ==== Proof.Region1.lean ====
/- The second region's proof data: what the output block and the three scratch buffers (running maximum, denominator,
   numerator) hold after every grid point, the region invariant carrying the scratch buffers from one point to the next,
   and the body obligation at every point by cases on the key tile. -/
import proofs.«153811_j15212774163203_2_alg».proof.Proof.Region1RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output block: a placeholder nothing consults. -/
def out1_A_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1x1024x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Case A's stores into scratch 0 cover it. -/
theorem scover1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y

/-- What case A leaves in scratch 0. -/
def sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- Case A's stores into scratch 1 cover it. -/
theorem scover1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y

/-- What case A leaves in scratch 1. -/
def sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- Case A's stores into scratch 2 cover it. -/
theorem scover1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x1024.size (by sl_kernel_rfl) y

/-- What case A leaves in scratch 2. -/
def sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- Case B stores nothing into the output block: a placeholder nothing consults. -/
def out1_B_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- Case B's stores into scratch 0 cover it. -/
theorem scover1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y

/-- What case B leaves in scratch 0. -/
def sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- Case B's stores into scratch 1 cover it. -/
theorem scover1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y

/-- What case B leaves in scratch 1. -/
def sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- Case B's stores into scratch 2 cover it. -/
theorem scover1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x1024.size (by sl_kernel_rfl) y

/-- What case B leaves in scratch 2. -/
def sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- Case C's one store covers the output block. -/
theorem cover1_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x1024x1024.size (by sl_kernel_rfl) y

/-- What case C leaves in the output block. -/
def out1_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- Case C's stores into scratch 0 cover it. -/
theorem scover1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1024x1.size (by sl_kernel_rfl) y

/-- What case C leaves in scratch 0. -/
def sout1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- Case C's stores into scratch 1 cover it. -/
theorem scover1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1024x1.size (by sl_kernel_rfl) y

/-- What case C leaves in scratch 1. -/
def sout1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- Case C's stores into scratch 2 cover it. -/
theorem scover1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1024x1024.size (by sl_kernel_rfl) y

/-- What case C leaves in scratch 2. -/
def sout1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

section
variable (V : (c : Dev nD) → (b : Ref sig .tc) → Buf (Elt F) ((c : Thread nD τ).loc b))

/-- What the output block and the three scratch buffers hold after the body at position `n`: the case the position's key
    tile selects, run on the point's blocks and, from key tile 1 on, on what the position before left in the scratch
    buffers. -/
def outsAt1 (c : Dev nD) : (n : ℕ) → n < cfg1.N → Vec F S1x1024x1024 .f32 × Vec F S1024x1 .f32 × Vec F S1024x1 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch buffer at anything);
    afterwards the three scratch buffers at what the position before left in them. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

/-- The share of the fused projection array each window holds: the three input windows read one array, so they split
    it; the output window's array is its own. -/
def q1 : Fin cfg1.W → PosShare TreeShare
  | ⟨0, _⟩ => fullShare.left
  | ⟨1, _⟩ => fullShare.right.left
  | ⟨2, _⟩ => fullShare.right.right
  | _ => fullShare

/-- The proof data of the second region on core `c`: the arrays as the region finds them; after the body each input's
    buffer at its block and the output's at `outsAt1`; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the key tile says which case the point is in; the invariant hands the body the three scratch
    buffers at what the point before left (at anything before the first point, and at key tile 0 they are reset first)
    and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 4 = 0
  · by_cases h1 : t.val % 4 = 3
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨HE0, HE1, HE2, HE3, HE4, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HE0 HE1 HE2 HE3 HE4 HS0 HS1 HS2 Hg]
        · isplitr [Hg]
          swap; · iexact Hg
          isplitl [HE0]; · iexact HE0
          isplitl [HE1]; · iexact HE1
          isplitl [HE2]; · iexact HE2
          isplitl [HE3]; · iexact HE3
          isplitl [HE4]; · iexact HE4
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HE0, HE1, HE2, HE3, HE4, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HE0 HE1 HE2 HE3 HE4 HS0 HS1 HS2 Hg]
        · isplitr [Hg]
          swap; · iexact Hg
          isplitl [HE0]; · iexact HE0
          isplitl [HE1]; · iexact HE1
          isplitl [HE2]; · iexact HE2
          isplitl [HE3]; · iexact HE3
          isplitl [HE4]; · iexact HE4
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      rw [PhiS1_castSucc V c t, PhiS1_pos V c _ _ hz]
      iintro ⟨⟨⟨HE0, HE1, HE2, HE3, HE4, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HE0 HE1 HE2 HE3 HE4 HS0 HS1 HS2 Hg]
      · isplitr [Hg]
        swap; · iexact Hg
        isplitl [HE0]; · iexact HE0
        isplitl [HE1]; · iexact HE1
        isplitl [HE2]; · iexact HE2
        isplitl [HE3]; · iexact HE3
        isplitl [HE4]; · iexact HE4
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        unfold owns; iexists _; isplitr
        swap; · iexact HS2
        ipureintro; exact View.read_writes_of_cover _ _ _ _ _ (scover1_C_2 c _ _ _ _ _ _ _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      rw [PhiS1_castSucc V c t, PhiS1_pos V c _ _ hz]
      iintro ⟨⟨⟨HE0, HE1, HE2, HE3, HE4, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HE0 HE1 HE2 HE3 HE4 HS0 HS1 HS2 Hg]
      · isplitr [Hg]
        swap; · iexact Hg
        isplitl [HE0]; · iexact HE0
        isplitl [HE1]; · iexact HE1
        isplitl [HE2]; · iexact HE2
        isplitl [HE3]; · iexact HE3
        isplitl [HE4]; · iexact HE4
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        unfold owns; iexists _; isplitr
        swap; · iexact HS2
        ipureintro; exact View.read_writes_of_cover _ _ _ _ _ (scover1_B_2 c _ _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch buffers' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HE0, HE1, HE2, HE3, HE4, HS0, HS1, HS2⟩, Hg⟩
  isplitr [Hg]
  swap; · iexact Hg
  isplitl [HE0]; · iexact HE0
  isplitl [HE1]; · iexact HE1
  isplitl [HE2]; · iexact HE2
  isplitl [HE3]; · iexact HE3
  isplitl [HE4]; · iexact HE4
  isplitl [HS0]; · iexists _; iexact HS0
  isplitl [HS1]; · iexists _; iexact HS1
  iexists _; iexact HS2

end

end Cert.KernelIdeal.Gen

end
-- ==== Proof.RunAll.lean ====
/- THE RUN of the idealized kernel program from launch to return, at any float model F: a stretch of host operations
   (the activations reshaped, the three weight matrices packed side by side and rounded to bf16), REGION 0 (the fused
   projection), one host operation (a reshape), and REGION 1 (the attention). The contents of the TensorCore's buffers
   are followed from boundary to boundary; each region is entered with every unscoped buffer at the boundary's contents,
   its windows' arrays are taken out, run through the pipeline, and put back. Region 1's three input windows read ONE
   array, so its buffer is split into three shares, which the final state is read through without rejoining them.
   Conclusions: in every final state the output array is the fold of region 1's write-backs and the four argument
   arrays are as launched. -/
import proofs.«153811_j15212774163203_2_alg».proof.Proof.Region0
import proofs.«153811_j15212774163203_2_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's arrays: three windows read one array -/

/-- The arrays of region 1's four windows: the fused projection (windows 0, 1, 2) and the output (window 3). -/
theorem arrRef1_image : Finset.univ.image (Pipeline.arrRef spec1) = ({main_v4, main_v5} : Finset (Ref sig .tc)) := by decide

theorem arrRef1_sub : Finset.univ.image (Pipeline.arrRef spec1) ⊆ Finset.univ.filter fun b : Ref sig .tc => ¬ b.isScoped := by decide

/-- The arrays of region 1 at contents F, each a whole buffer at the window's share. -/
theorem arrays1_eq {c : Dev nD} (dat : Dat τ (Elt F) Unit ℕ (UR sig nD τ) ℕ cfg1 c)
    (G : (w : Fin cfg1.W) → Buf (Elt F) ((cfg1.win w).arr.view.loc (c : Thread nD τ))) :
    (dat.arrays G : sProp 𝕄) = bigSep Finset.univ fun w : Fin cfg1.W =>
      (((c : Thread nD τ).loc (Pipeline.arrRef spec1 w)) ↦{dat.share w} G w : sProp 𝕄) := by
  unfold Dat.arrays
  exact bigSep_congr fun w _ => by rw [(arr_whole1 w).set_eq_univ]

/-- ENTRY of region 1. -/
theorem arrays1_of_unscopedBufs {c : Dev nD} (dat : Dat τ (Elt F) Unit ℕ (UR sig nD τ) ℕ cfg1 c)
    (hq0 : dat.q 0 = fullShare.left) (hq1 : dat.q 1 = fullShare.right.left) (hq2 : dat.q 2 = fullShare.right.right)
    (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  classical
  have s0 : dat.share 0 = fullShare.left := by unfold Dat.share; rw [if_neg (by decide)]; exact hq0
  have s1 : dat.share 1 = fullShare.right.left := by unfold Dat.share; rw [if_neg (by decide)]; exact hq1
  have s2 : dat.share 2 = fullShare.right.right := by unfold Dat.share; rw [if_neg (by decide)]; exact hq2
  have s3 : dat.share 3 = fullShare := by unfold Dat.share; rw [if_pos (by decide)]
  rw [arrays1_eq, bigSep_W1, s0, s1, s2, s3]
  rw [show dat.arrAt 0 0 = V (Pipeline.arrRef spec1 0) from hA 0, show dat.arrAt 1 0 = V (Pipeline.arrRef spec1 1) from hA 1,
    show dat.arrAt 2 0 = V (Pipeline.arrRef spec1 2) from hA 2, show dat.arrAt 3 0 = V (Pipeline.arrRef spec1 3) from hA 3]
  have hsplit : (unscopedBufs c V : sProp 𝕄)
      = iprop((bigSep ({main_v4, main_v5} : Finset (Ref sig .tc)) fun b => (((c : Thread nD τ).loc b) ↦{fullShare} V b : sProp 𝕄))
          ∗ Pipeline.unscopedRest spec1 c V) := by
    unfold unscopedBufs Pipeline.unscopedRest
    rw [bigSep_sdiff_split arrRef1_sub, arrRef1_image]
    rfl
  rw [hsplit, bigSep_insert (by decide), bigSep_singleton]
  refine (show iprop(((((c : Thread nD τ).loc main_v4) ↦{fullShare} V main_v4) ∗ (((c : Thread nD τ).loc main_v5) ↦{fullShare} V main_v5))
      ∗ Pipeline.unscopedRest (Ix := Unit) (Name := ℕ) (U := UR sig nD τ) (Lvl := ℕ) spec1 c V) ⊢ _ from ?_)
  iintro ⟨⟨H4, H5⟩, Hrest⟩
  ihave H4' := (pointsTo_share (PosShare.mem_left_op_right fullShare)).1 $$ H4
  icases H4' with ⟨H4a, H4r⟩
  ihave H4r' := (pointsTo_share (PosShare.mem_left_op_right fullShare.right)).1 $$ H4r
  icases H4r' with ⟨H4b, H4c⟩
  isplitr [Hrest]
  swap; · iexact Hrest
  isplitl [H4a]; · iexact H4a
  isplitl [H4b]; · iexact H4b
  isplitl [H4c]; · iexact H4c
  iexact H5

/-- The end of the run: region 1's arrays, held at any shares beside the state interpretation of a state, say what
    the state's memory holds at each. -/
theorem arrays1_read {c : Dev nD} (dat : Dat τ (Elt F) Unit ℕ (UR sig nD τ) ℕ cfg1 c)
    (G : (w : Fin cfg1.W) → Buf (Elt F) ((cfg1.win w).arr.view.loc (c : Thread nD τ))) (s' : Phys nD τ sig (Elt F)) :
    iprop((dat.arrays G : sProp 𝕄) ∗ SI s')
      ⊢ iprop(⌜∀ w, s'.mem.mem ((c : Thread nD τ).loc (Pipeline.arrRef spec1 w)) = G w⌝ ∗ SI s') := by
  rw [arrays1_eq]
  iintro ⟨Ha, HSI⟩
  ihave Hr := (pointsTo_read_all' Finset.univ (fun w => (c : Thread nD τ).loc (Pipeline.arrRef spec1 w)) G s' dat.share) $$ [Ha HSI]
  · isplitl [Ha] <;> iassumption
  icases Hr with ⟨%ha, HSI⟩
  isplitr; · ipureintro; exact fun w => ha w (Finset.mem_univ w)
  iexact HSI

variable (m : (ℓ : Loc nD τ sig) → Buf (Elt F) ℓ) (ρ : Dev nD → PrngReg)

/-! # The run of the whole program: host operations, region 0, a host operation, region 1

## The buffer contents at each boundary between segments -/

/-- The buffers of core c at launch. -/
abbrev W0 : Dev nD → Valuation τ sig (Elt F) := fun c b => (s₀ m ρ).mem ((c : Dev nD), b)
/-- After the first stretch of host operations: what region 0 is entered with. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- When region 0 is left: its three arrays at what the pipeline's write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- At region 0's exit each of its arrays holds what the pipeline leaves, and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what region 1 is entered with. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b

/-! ### The four arguments are never written

No host operation writes an argument, and no region has one among its arrays: region 0's arrays are the reshaped
activations, the packed weights and its result, region 1's are the fused projection and the output. So the contents
at region 1's entry, read at an argument, walk back to the launch memory. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.unary_writes, StableHlo.reshape_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.reshape_writes, StableHlo.nary_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.unary_writes, StableHlo.reshape_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.reshape_writes, StableHlo.nary_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.unary_writes, StableHlo.reshape_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.reshape_writes, StableHlo.nary_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.unary_writes, StableHlo.reshape_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.unary_writes, StableHlo.reshape_writes, StableHlo.nary_writes, Finset.mem_singleton]
          repeat' apply And.intro
          all_goals exact StableHlo.devRef_ne_of_ne (by decide)))
    _ = m ((c : Thread nD τ).loc main_arg3) := rfl

/-! ## The proof data of both pipelines and what rides beside the buffers -/

/-- No pipeline has a prefetched table. -/
abbrev adm : (p : Fin 2) → (pcfgs (F := F) p).Adm := fun p => (cfgs p).toPCfg_adm
/-- The proof data of each pipeline at the contents its region is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything, so no level is assigned. -/
abbrev L : GSem nD τ sig → Finset Unit := fun _ => ∅
abbrev lv : GSem nD τ sig → Unit → ℕ := fun _ _ => 0
/-- Beside the buffers, through every segment: the core's generator register at some state, and that it owes nothing. -/
abbrev R (c : Dev nD) : sProp 𝕄 := iprop((∃ r, prngReg c r) ∗ ∃ W, owes (c : Thread nD τ) (0 : CellTallies nD τ sig Unit) W)
/-- A stretch of host operations as a segment, from the contents W of the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The last thread state, the debts apart: region 1's arrays as the pipeline leaves them, each at its window's
    share (the three shares of the fused projection are not put back together), the other unscoped buffers as region 1
    was entered with them, and the generator register at some state. -/
abbrev Tₙ (c : Dev nD) : sProp 𝕄 :=
  iprop((dat1 (V3 m ρ) c).arrays ((dat1 (V3 m ρ) c).arrAt · cfg1.N) ∗ Pipeline.unscopedRest spec1 c (V3 m ρ c) ∗ ∃ r, prngReg c r)

/-! ## The two regions as segments -/

set_option backward.isDefEq.respectTransparency.types false in
/-- REGION 0: entered with every unscoped buffer at W1, left with them at W2. Its arrays are taken out of the unscoped
    buffers and put back at their exit contents; the generator register goes into the invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered with every unscoped buffer at W3. Three of its windows read ONE array, the fused projection, so
    that array's buffer is split into three shares, one per window; the output's array is held whole. At the exit the
    shares are kept apart: the last thread state holds the arrays as the pipeline leaves them. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays1_of_unscopedBufs (dat1 (V3 m ρ) c) rfl rfl rfl (V3 m ρ c) (fun w => A_eq1 (V3 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    iintro ⟨Ha, HO, HY, Hrest⟩
    imodintro
    isplitr [HO]
    · isplitl [Ha]; · iexact Ha
      isplitl [Hrest]; · iexact Hrest
      iexact HY
    unfold Pipeline.Dat.owesAt Pipeline.owesWithin
    icases HO with ⟨%W, -, HO⟩; iexists W; iexact HO

/-! ## The program as its four segments, and the launch -/

/-- The four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (segs m ρ) := (main_chain c).trans (by chain_rfl)

set_option backward.isDefEq.respectTransparency.types false in
/-- THE RUN. From any memory with zero counters, every weakly fair execution of the program on the TensorCores
    terminates without fault, and in every final state the output array holds what region 1's pipeline leaves in it
    (the fold of its write-backs, over the contents region 1 was entered with) and the four argument arrays hold what
    they held at launch. -/
theorem run_all : θ_run defs (onTc (τ := τ) (main (F := F))) ⟨m, fun _ => 0, ρ⟩ (fun r => ∀ c : Dev nD,
      r.2.mem ((c.tc : Thread nD τ).loc main_v5) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => (∀ w : Fin cfg1.W, s.mem ((c.tc : Thread nD τ).loc (Pipeline.arrRef spec1 w)) = (dat1 (V3 m ρ) c).arrAt w cfg1.N)
      ∧ ∀ b ∈ ((Finset.univ.filter fun b : Ref sig .tc => ¬ b.isScoped) \ Finset.univ.image (Pipeline.arrRef spec1)),
          s.mem ((c.tc : Thread nD τ).loc b) = V3 m ρ c b)
    (hfin := fun c s' => by
      iintro ⟨⟨Ha, Hrest, -⟩, HSI⟩
      imodintro
      ihave Hr := (arrays1_read (dat1 (V3 m ρ) c) ((dat1 (V3 m ρ) c).arrAt · cfg1.N) s') $$ [Ha HSI]
      · isplitl [Ha] <;> iassumption
      icases Hr with ⟨%ha, HSI⟩
      unfold Pipeline.unscopedRest
      ihave Hr2 := (pointsTo_read_all ((Finset.univ.filter fun b : Ref sig .tc => ¬ b.isScoped) \ Finset.univ.image (Pipeline.arrRef spec1))
          (fun b => (c.tc : Thread nD τ).loc b) (V3 m ρ c) s') $$ [Hrest HSI]
      · isplitl [Hrest] <;> iassumption
      icases Hr2 with ⟨%hb, HSI⟩
      isplitr; · ipureintro; exact ⟨ha, hb⟩
      iexact HSI)
    (hQ := fun s h c =>
      ⟨(h c).1 3,
        ((h c).2 main_arg0 (by decide)).trans (W3_main_arg0 m ρ c),
        ((h c).2 main_arg1 (by decide)).trans (W3_main_arg1 m ρ c),
        ((h c).2 main_arg2 (by decide)).trans (W3_main_arg2 m ρ c),
        ((h c).2 main_arg3 (by decide)).trans (W3_main_arg3 m ρ c)⟩)

/-- THE FRAME: the same run, keeping only that the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_all m ρ)

end Cert.KernelIdeal.Gen

end
-- ==== Proof.Region0Value.lean ====
/-
  What the projection kernel leaves in its output array.

  The projection kernel runs over 32 grid points. At point t it reads rows 512·t … 512·t + 511 of the activations
  A : [16384, 1024] and the whole weight panel W : [1024, 3072], and writes rows 512·t … 512·t + 511 of the output
  [16384, 3072]: entry (r, j) of that block is the inner product of row r of the activations' block with column j of
  the panel. Row i of the output lies in block i / 512, so the 32 blocks cover the output, and the array ends holding
  the full product  (i, j) ↦ Σ_k A(i, k) · W(k, j)  (`final0`).
-/
import proofs.«153811_j15212774163203_2_alg».proof.Proof.Region0
import Idealize.ShloMosaic.PureOps.Ideal.Laws
import Idealize.ShloMosaic.Lib.Pipeline.Value
import Idealize.ShloMosaic.Lib.ValueIdx

noncomputable section

open scoped BigOperators

namespace Cert.KernelIdeal.R0Value

open Cert.KernelIdeal Cert.KernelIdeal.Gen Idealize.ShloMosaic Idealize.ShloMosaic.TcCoe Idealize.SL.Sem
  Idealize.ShloMosaic.ValueIdx
open Idealize.ShloMosaic.Pipeline (Dat)

/-! ## The body's payload at an index -/

/-- The left operand's index of the body's matrix product keeps the output's row. -/
theorem lhs0_row (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl

/-- The right operand's index keeps the output's column. -/
theorem rhs0_col (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- Entry (r, j) of the body's payload: row r of the activations' block against column j of the weight panel. A change
    of float format is the identity on the extended reals, a cast to the same shape is the identity, and the matrix
    product into the zero accumulator is the sum over the one contracted axis. -/
theorem pay0_at (v0 : Vec Ideal S512x1024 .f32) (w : Vec Ideal S1024x3072 .bf16) (r : Fin 512) (j : Fin 3072) :
    k0_pay1 v0 w (ix2 r j) = ∑ k : Fin 1024, v0 (ix2 r k) * w (ix2 k j) := by
  unfold k0_pay1
  show FloatOps.matmul dot_S512x1024_S1024x3072_S512x3072_1_0_0_1_n_n none
      (truncf .bf16 (shapeCast S512x1024 v0 shapeCasts_S512x1024_S512x1024) bitsLt_bf16_f32)
      (shapeCast S1024x3072 w shapeCasts_S1024x3072_S1024x3072)
      (constant (F := Ideal) S512x3072 .f32 0x00000000#32) (ix2 r j) = _
  rw [Ideal.matmul_constant_zero_apply,
    ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 r j)
      ((contrEquiv1 dot_S512x1024_S1024x3072_S512x3072_1_0_0_1_n_n 1024 rfl rfl).symm k) = ix2 r k :=
    funext fun a => Fin.ext (by
      match a with
      | ⟨0, _⟩ => exact lhs0_row _ _
      | ⟨1, _⟩ => exact (dot_S512x1024_S1024x3072_S512x3072_1_0_0_1_n_n.lhsIdx_val_of_single rfl _ _).trans hk)
  have er : dot_S512x1024_S1024x3072_S512x3072_1_0_0_1_n_n.rhsIdx (ix2 r j)
      ((contrEquiv1 dot_S512x1024_S1024x3072_S512x3072_1_0_0_1_n_n 1024 rfl rfl).symm k) = ix2 k j :=
    funext fun a => Fin.ext (by
      match a with
      | ⟨0, _⟩ => exact (dot_S512x1024_S1024x3072_S512x3072_1_0_0_1_n_n.rhsIdx_val_of_single rfl _ _).trans hk
      | ⟨1, _⟩ => exact rhs0_col _ _)
  rw [el, er, shapeCast_self, shapeCast_self]
  rfl

/-! ## From the blocks to the array -/

/-- The full product of the activations and the weight panel, entry by entry. -/
def prod0 (a : S16384x1024.Idx → EReal) (w : S1024x3072.Idx → EReal) : S16384x3072.Idx → EReal := fun i =>
  ∑ k : Fin 1024, a (ix2 ⟨(i 0).val, (i 0).isLt⟩ k) * w (ix2 k ⟨(i 1).val, (i 1).isLt⟩)

theorem prod0_apply (a : S16384x1024.Idx → EReal) (w : S1024x3072.Idx → EReal) (i : S16384x3072.Idx) :
    prod0 a w i = ∑ k : Fin 1024, a (ix2 ⟨(i 0).val, (i 0).isLt⟩ k) * w (ix2 k ⟨(i 1).val, (i 1).isLt⟩) := rfl

/-- Entry (r, j) of the full product. -/
theorem prod0_ix2 (a : S16384x1024.Idx → EReal) (w : S1024x3072.Idx → EReal) (r : Fin 16384) (j : Fin 3072) :
    prod0 a w (ix2 r j) = ∑ k : Fin 1024, a (ix2 r k) * w (ix2 k j) := rfl

/-- The index maps over the grid: at point t the activations' and the output's blocks are block row t, the weight
    panel's block is the whole panel. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- Entry (r, k) of the activations' block at point t is entry (512·t + r, k) of the activations. -/
theorem ablk_apply (c : Dev nD) (t : Fin cfg0.N) (r : Fin 512) (k : Fin 1024) (i : S16384x1024.Idx)
    (h0 : (i 0).val = t.val * 512 + r.val) (h1 : (i 1).val = k.val) :
    (iblk0 (F := Ideal) V c 0 t : Vec Ideal S512x1024 .f32) (ix2 r k) = (V c main_v0 : S16384x1024.Idx → EReal) i := by
  obtain ⟨e00, e01, -, -, -, -⟩ := idx_facts0 t
  show V c main_v0 (((cfg0.win 0).blk t).view.emb (ix2 r k)) = V c main_v0 i
  refine congrArg (V c main_v0) (funext fun a => Fin.ext ?_)
  match a with
  | ⟨0, _⟩ => show win0_0.index t (0 : Fin 2) * 512 + 1 * r.val = (i 0).val; omega
  | ⟨1, _⟩ => show win0_0.index t (1 : Fin 2) * 1024 + 1 * k.val = (i 1).val; omega

/-- The weight panel's block at any point is the panel. -/
theorem wblk_apply (c : Dev nD) (t : Fin cfg0.N) (k : Fin 1024) (j : Fin 3072) :
    (iblk0 (F := Ideal) V c 1 t : Vec Ideal S1024x3072 .bf16) (ix2 k j) = (V c main_v2 : S1024x3072.Idx → EReal) (ix2 k j) := by
  obtain ⟨-, -, e10, e11, -, -⟩ := idx_facts0 t
  show V c main_v2 (((cfg0.win 1).blk t).view.emb (ix2 k j)) = V c main_v2 (ix2 k j)
  refine congrArg (V c main_v2) (funext fun a => Fin.ext ?_)
  match a with
  | ⟨0, _⟩ => show win0_1.index t (0 : Fin 2) * 1024 + 1 * k.val = k.val; omega
  | ⟨1, _⟩ => show win0_1.index t (1 : Fin 2) * 3072 + 1 * j.val = j.val; omega

/-- What point t writes back is block t of the full product. -/
theorem flushed0_eq (c : Dev nD) (t : Fin cfg0.N) :
    (dat0 (F := Ideal) V c).flushed 2 t
      = ((cfg0.win 2).blk t).view.read (Elt Ideal) (prod0 (V c main_v0) (V c main_v2)) := by
  show (cfg0.win 2).cut (grid0.coords t) ((dat0 (F := Ideal) V c).after 2 t) = _
  rw [after0_2, out0_2_eq]
  obtain ⟨-, -, -, -, e20, e21⟩ := idx_facts0 t
  funext y
  have hy0 : (y 0).val < 512 := (y 0).isLt
  have hy1 : (y 1).val < 3072 := (y 1).isLt
  show k0_pay1 (iblk0 (F := Ideal) V c 0 t) (iblk0 (F := Ideal) V c 1 t) (ix2 (⟨(y 0).val, hy0⟩ : Fin 512) (⟨(y 1).val, hy1⟩ : Fin 3072))
      = prod0 (V c main_v0) (V c main_v2) (((cfg0.win 2).blk t).view.emb y)
  refine (pay0_at _ _ _ _).trans ?_
  unfold prod0
  refine Finset.sum_congr rfl fun k _ => ?_
  refine congrArg₂ (· * ·) (ablk_apply V c t _ k _ ?_ rfl) ((wblk_apply V c t k _).trans (congrArg (V c main_v2) ?_))
  · show (((cfg0.win 2).blk t).view.emb y 0).val = t.val * 512 + (y 0).val
    show win0_2.index t (0 : Fin 2) * 512 + 1 * (y 0).val = _
    omega
  · refine funext fun a => Fin.ext ?_
    match a with
    | ⟨0, _⟩ => rfl
    | ⟨1, _⟩ => show (y 1).val = win0_2.index t (1 : Fin 2) * 3072 + 1 * (y 1).val; omega

/-- An index of the output is in point t's block iff each coordinate is in the block's range on its axis. -/
theorem mem_blk0 (t : Fin cfg0.N) (i : S16384x3072.Idx) :
    i ∈ ((cfg0.win 2).blk t).view.set ↔ ∀ a : Fin 2, win0_2.index t a * S512x3072.size a ≤ (i a).val
      ∧ (i a).val < win0_2.index t a * S512x3072.size a + S512x3072.size a := by
  show i ∈ ((View.whole main_v3).slice (win0_2.rect t)).set ↔ _
  rw [View.set_slice_whole, Rect.mem_set_unit]
  exact Iff.rfl

/-- Row i of the output is in the block of point i / 512. -/
theorem cover0 (i : S16384x3072.Idx) :
    ∃ t : Fin cfg0.N, (cfg0.win 2).flush t = true ∧ i ∈ ((cfg0.win 2).blk t).view.set := by
  have hi0 : (i 0).val < 16384 := (i 0).isLt
  have hi1 : (i 1).val < 3072 := (i 1).isLt
  have hN : cfg0.N = 32 := N_0
  have hN' : grid0.N = 32 := N_0
  obtain ⟨t, ht⟩ : ∃ t : Fin cfg0.N, t.val = (i 0).val / 512 := ⟨⟨(i 0).val / 512, by omega⟩, rfl⟩
  obtain ⟨-, -, -, -, e20, e21⟩ := idx_facts0 t
  refine ⟨t, flush0_2 t, ?_⟩
  rw [mem_blk0]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 3072 ≤ (i 1).val ∧ (i 1).val < win0_2.index t (1 : Fin 2) * 3072 + 3072
    omega

/-- After the region the output array holds the full product of the activations and the weight panel. -/
theorem final0 (c : Dev nD) :
    (dat0 (F := Ideal) V c).arrAt 2 cfg0.N = prod0 (V c main_v0) (V c main_v2) :=
  (dat0 (F := Ideal) V c).arrAt_eq_of_cover 2 (prod0 (V c main_v0) (V c main_v2))
    (fun t _ => flushed0_eq V c t) cover0

/-- The same with the product written out entry by entry. -/
theorem final0_entries (c : Dev nD) :
    (dat0 (F := Ideal) V c).arrAt 2 cfg0.N = fun i : S16384x3072.Idx =>
      ∑ k : Fin 1024, (show S16384x1024.Idx → EReal from V c main_v0) (ix2 ⟨(i 0).val, (i 0).isLt⟩ k)
        * (show S1024x3072.Idx → EReal from V c main_v2) (ix2 k ⟨(i 1).val, (i 1).isLt⟩) :=
  final0 V c

end

end Cert.KernelIdeal.R0Value

end
-- ==== Proof.Region1Pieces.lean ====
/- What each case of the attention kernel's body leaves in the scratch buffers and the output block, as the body's own
   arithmetic: the new running maximum (`stepM`), denominator (`stepL`) and numerator (`stepA`) from the point's three
   blocks and the old ones, and at key tile 3 the quotient of the new numerator by the new denominator. At key tile 0
   the old ones are the reset values. -/
import proofs.«153811_j15212774163203_2_alg».proof.Proof.Region1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

/-- The new running maximum from the query and key blocks and the old maximum. -/
def stepM (x0 : Vec F S1x1024x1024 .bf16) (x1 : Vec F S1x512x1024 .bf16) (m : Vec F S1024x1 .f32) : Vec F S1024x1 .f32 :=
  k1_pay2 (k1_pay9 x0 x1 m)
/-- The new running denominator. -/
def stepL (x0 : Vec F S1x1024x1024 .bf16) (x1 : Vec F S1x512x1024 .bf16) (m l : Vec F S1024x1 .f32) : Vec F S1024x1 .f32 :=
  k1_pay12 x0 x1 m m l
/-- The new running numerator. -/
def stepA (x0 : Vec F S1x1024x1024 .bf16) (x1 x2 : Vec F S1x512x1024 .bf16) (m : Vec F S1024x1 .f32) (a : Vec F S1024x1024 .f32) : Vec F S1024x1024 .f32 :=
  k1_pay1 (k1_pay7 x2) (k1_pay10 x0 x1 m m) (k1_pay13 x0 x1 m) (constant S1024x1024 .f32 0x00000000#32) a

set_option maxHeartbeats 1000000 in
theorem sout1_A_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : sout1_A_0 c i arg3 harg3 arg4 harg4 arg5 harg5 arg6 harg6 arg7 harg7 arg8 harg8 arg9 harg9 hc0 hc1 x0 x1 x2 = stepM x0 x1 k1_pay4 := by
  unfold sout1_A_0 stepM
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  have e3 : View.readAt (Elt F) arg3.view (Rect.unit ![0, 0, 0] S1x1024x1024.size inb_S1x1024x1024_S1x1024x1024_0_0_0).toLoadRect (harg3.unread x0) = x0 := by
    rw [View.readAt_eq_ld, harg3.read_unread, View.ld_unit_zero (S := S1x1024x1024) hz3]
  have e4 : View.readAt (Elt F) arg4.view (Rect.unit ![0, 0, 0] S1x512x1024.size inb_S1x512x1024_S1x512x1024_0_0_0).toLoadRect (harg4.unread x1) = x1 := by
    rw [View.readAt_eq_ld, harg4.read_unread, View.ld_unit_zero (S := S1x512x1024) hz3]
  have e5 : View.readAt (Elt F) arg5.view (Rect.unit ![0, 0, 0] S1x512x1024.size inb_S1x512x1024_S1x512x1024_0_0_0).toLoadRect (harg5.unread x2) = x2 := by
    rw [View.readAt_eq_ld, harg5.read_unread, View.ld_unit_zero (S := S1x512x1024) hz3]
  simp only [e3, e4, e5]
  simp only [View.readCov_unit_zero (S := S1024x1) _ hz2, View.readCov_unit_zero (S := S1024x1024) _ hz2,
    View.canon_cons_unit_zero (S := S1024x1) hz2, View.canon_cons_unit_zero (S := S1024x1024) hz2, View.canon_cons_unit_zero (S := S1x1024x1024) hz3]

set_option maxHeartbeats 1000000 in
theorem sout1_A_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : sout1_A_1 c i arg3 harg3 arg4 harg4 arg5 harg5 arg6 harg6 arg7 harg7 arg8 harg8 arg9 harg9 hc0 hc1 x0 x1 x2 = stepL x0 x1 k1_pay4 k1_pay5 := by
  unfold sout1_A_1 stepL
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  have e3 : View.readAt (Elt F) arg3.view (Rect.unit ![0, 0, 0] S1x1024x1024.size inb_S1x1024x1024_S1x1024x1024_0_0_0).toLoadRect (harg3.unread x0) = x0 := by
    rw [View.readAt_eq_ld, harg3.read_unread, View.ld_unit_zero (S := S1x1024x1024) hz3]
  have e4 : View.readAt (Elt F) arg4.view (Rect.unit ![0, 0, 0] S1x512x1024.size inb_S1x512x1024_S1x512x1024_0_0_0).toLoadRect (harg4.unread x1) = x1 := by
    rw [View.readAt_eq_ld, harg4.read_unread, View.ld_unit_zero (S := S1x512x1024) hz3]
  have e5 : View.readAt (Elt F) arg5.view (Rect.unit ![0, 0, 0] S1x512x1024.size inb_S1x512x1024_S1x512x1024_0_0_0).toLoadRect (harg5.unread x2) = x2 := by
    rw [View.readAt_eq_ld, harg5.read_unread, View.ld_unit_zero (S := S1x512x1024) hz3]
  simp only [e3, e4, e5]
  simp only [View.readCov_unit_zero (S := S1024x1) _ hz2, View.readCov_unit_zero (S := S1024x1024) _ hz2,
    View.canon_cons_unit_zero (S := S1024x1) hz2, View.canon_cons_unit_zero (S := S1024x1024) hz2, View.canon_cons_unit_zero (S := S1x1024x1024) hz3]

set_option maxHeartbeats 1000000 in
theorem sout1_A_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : sout1_A_2 c i arg3 harg3 arg4 harg4 arg5 harg5 arg6 harg6 arg7 harg7 arg8 harg8 arg9 harg9 hc0 hc1 x0 x1 x2 = stepA x0 x1 x2 k1_pay4 k1_pay6 := by
  unfold sout1_A_2 stepA
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  have e3 : View.readAt (Elt F) arg3.view (Rect.unit ![0, 0, 0] S1x1024x1024.size inb_S1x1024x1024_S1x1024x1024_0_0_0).toLoadRect (harg3.unread x0) = x0 := by
    rw [View.readAt_eq_ld, harg3.read_unread, View.ld_unit_zero (S := S1x1024x1024) hz3]
  have e4 : View.readAt (Elt F) arg4.view (Rect.unit ![0, 0, 0] S1x512x1024.size inb_S1x512x1024_S1x512x1024_0_0_0).toLoadRect (harg4.unread x1) = x1 := by
    rw [View.readAt_eq_ld, harg4.read_unread, View.ld_unit_zero (S := S1x512x1024) hz3]
  have e5 : View.readAt (Elt F) arg5.view (Rect.unit ![0, 0, 0] S1x512x1024.size inb_S1x512x1024_S1x512x1024_0_0_0).toLoadRect (harg5.unread x2) = x2 := by
    rw [View.readAt_eq_ld, harg5.read_unread, View.ld_unit_zero (S := S1x512x1024) hz3]
  simp only [e3, e4, e5]
  simp only [View.readCov_unit_zero (S := S1024x1) _ hz2, View.readCov_unit_zero (S := S1024x1024) _ hz2,
    View.canon_cons_unit_zero (S := S1024x1) hz2, View.canon_cons_unit_zero (S := S1024x1024) hz2, View.canon_cons_unit_zero (S := S1x1024x1024) hz3]

set_option maxHeartbeats 1000000 in
theorem sout1_B_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : sout1_B_0 c i arg3 harg3 arg4 harg4 arg5 harg5 arg6 harg6 arg7 harg7 arg8 harg8 arg9 harg9 hc0 hc1 x0 x1 x2 xs0 xs1 xs2 = stepM x0 x1 xs0 := by
  unfold sout1_B_0 stepM
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  sl_unfold_words
  have e3 : View.readAt (Elt F) arg3.view (Rect.unit ![0, 0, 0] S1x1024x1024.size inb_S1x1024x1024_S1x1024x1024_0_0_0).toLoadRect (harg3.unread x0) = x0 := by
    rw [View.readAt_eq_ld, harg3.read_unread, View.ld_unit_zero (S := S1x1024x1024) hz3]
  have e4 : View.readAt (Elt F) arg4.view (Rect.unit ![0, 0, 0] S1x512x1024.size inb_S1x512x1024_S1x512x1024_0_0_0).toLoadRect (harg4.unread x1) = x1 := by
    rw [View.readAt_eq_ld, harg4.read_unread, View.ld_unit_zero (S := S1x512x1024) hz3]
  have e5 : View.readAt (Elt F) arg5.view (Rect.unit ![0, 0, 0] S1x512x1024.size inb_S1x512x1024_S1x512x1024_0_0_0).toLoadRect (harg5.unread x2) = x2 := by
    rw [View.readAt_eq_ld, harg5.read_unread, View.ld_unit_zero (S := S1x512x1024) hz3]
  have r7 : View.readAt (Elt F) arg7.view (Rect.unit ![0, 0] S1024x1.size inb_S1024x1_S1024x1_0_0).toLoadRect (harg7.unread xs0) = xs0 := by
    rw [View.readAt_eq_ld, harg7.read_unread, View.ld_unit_zero (S := S1024x1) hz2]
  have r8 : View.readAt (Elt F) arg8.view (Rect.unit ![0, 0] S1024x1.size inb_S1024x1_S1024x1_0_0).toLoadRect (harg8.unread xs1) = xs1 := by
    rw [View.readAt_eq_ld, harg8.read_unread, View.ld_unit_zero (S := S1024x1) hz2]
  have r9 : View.readAt (Elt F) arg9.view (Rect.unit ![0, 0] S1024x1024.size inb_S1024x1024_S1024x1024_0_0).toLoadRect (harg9.unread xs2) = xs2 := by
    rw [View.readAt_eq_ld, harg9.read_unread, View.ld_unit_zero (S := S1024x1024) hz2]
  simp only [e3, e4, e5, r7, r8, r9]
  simp only [View.readCov_unit_zero (S := S1024x1) _ hz2, View.readCov_unit_zero (S := S1024x1024) _ hz2,
    View.canon_cons_unit_zero (S := S1024x1) hz2, View.canon_cons_unit_zero (S := S1024x1024) hz2, View.canon_cons_unit_zero (S := S1x1024x1024) hz3]

set_option maxHeartbeats 1000000 in
theorem sout1_B_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : sout1_B_1 c i arg3 harg3 arg4 harg4 arg5 harg5 arg6 harg6 arg7 harg7 arg8 harg8 arg9 harg9 hc0 hc1 x0 x1 x2 xs0 xs1 xs2 = stepL x0 x1 xs0 xs1 := by
  unfold sout1_B_1 stepL
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  sl_unfold_words
  have e3 : View.readAt (Elt F) arg3.view (Rect.unit ![0, 0, 0] S1x1024x1024.size inb_S1x1024x1024_S1x1024x1024_0_0_0).toLoadRect (harg3.unread x0) = x0 := by
    rw [View.readAt_eq_ld, harg3.read_unread, View.ld_unit_zero (S := S1x1024x1024) hz3]
  have e4 : View.readAt (Elt F) arg4.view (Rect.unit ![0, 0, 0] S1x512x1024.size inb_S1x512x1024_S1x512x1024_0_0_0).toLoadRect (harg4.unread x1) = x1 := by
    rw [View.readAt_eq_ld, harg4.read_unread, View.ld_unit_zero (S := S1x512x1024) hz3]
  have e5 : View.readAt (Elt F) arg5.view (Rect.unit ![0, 0, 0] S1x512x1024.size inb_S1x512x1024_S1x512x1024_0_0_0).toLoadRect (harg5.unread x2) = x2 := by
    rw [View.readAt_eq_ld, harg5.read_unread, View.ld_unit_zero (S := S1x512x1024) hz3]
  have r7 : View.readAt (Elt F) arg7.view (Rect.unit ![0, 0] S1024x1.size inb_S1024x1_S1024x1_0_0).toLoadRect (harg7.unread xs0) = xs0 := by
    rw [View.readAt_eq_ld, harg7.read_unread, View.ld_unit_zero (S := S1024x1) hz2]
  have r8 : View.readAt (Elt F) arg8.view (Rect.unit ![0, 0] S1024x1.size inb_S1024x1_S1024x1_0_0).toLoadRect (harg8.unread xs1) = xs1 := by
    rw [View.readAt_eq_ld, harg8.read_unread, View.ld_unit_zero (S := S1024x1) hz2]
  have r9 : View.readAt (Elt F) arg9.view (Rect.unit ![0, 0] S1024x1024.size inb_S1024x1024_S1024x1024_0_0).toLoadRect (harg9.unread xs2) = xs2 := by
    rw [View.readAt_eq_ld, harg9.read_unread, View.ld_unit_zero (S := S1024x1024) hz2]
  simp only [e3, e4, e5, r7, r8, r9]
  simp only [View.readCov_unit_zero (S := S1024x1) _ hz2, View.readCov_unit_zero (S := S1024x1024) _ hz2,
    View.canon_cons_unit_zero (S := S1024x1) hz2, View.canon_cons_unit_zero (S := S1024x1024) hz2, View.canon_cons_unit_zero (S := S1x1024x1024) hz3]

set_option maxHeartbeats 1000000 in
theorem sout1_B_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : sout1_B_2 c i arg3 harg3 arg4 harg4 arg5 harg5 arg6 harg6 arg7 harg7 arg8 harg8 arg9 harg9 hc0 hc1 x0 x1 x2 xs0 xs1 xs2 = stepA x0 x1 x2 xs0 xs2 := by
  unfold sout1_B_2 stepA
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  sl_unfold_words
  have e3 : View.readAt (Elt F) arg3.view (Rect.unit ![0, 0, 0] S1x1024x1024.size inb_S1x1024x1024_S1x1024x1024_0_0_0).toLoadRect (harg3.unread x0) = x0 := by
    rw [View.readAt_eq_ld, harg3.read_unread, View.ld_unit_zero (S := S1x1024x1024) hz3]
  have e4 : View.readAt (Elt F) arg4.view (Rect.unit ![0, 0, 0] S1x512x1024.size inb_S1x512x1024_S1x512x1024_0_0_0).toLoadRect (harg4.unread x1) = x1 := by
    rw [View.readAt_eq_ld, harg4.read_unread, View.ld_unit_zero (S := S1x512x1024) hz3]
  have e5 : View.readAt (Elt F) arg5.view (Rect.unit ![0, 0, 0] S1x512x1024.size inb_S1x512x1024_S1x512x1024_0_0_0).toLoadRect (harg5.unread x2) = x2 := by
    rw [View.readAt_eq_ld, harg5.read_unread, View.ld_unit_zero (S := S1x512x1024) hz3]
  have r7 : View.readAt (Elt F) arg7.view (Rect.unit ![0, 0] S1024x1.size inb_S1024x1_S1024x1_0_0).toLoadRect (harg7.unread xs0) = xs0 := by
    rw [View.readAt_eq_ld, harg7.read_unread, View.ld_unit_zero (S := S1024x1) hz2]
  have r8 : View.readAt (Elt F) arg8.view (Rect.unit ![0, 0] S1024x1.size inb_S1024x1_S1024x1_0_0).toLoadRect (harg8.unread xs1) = xs1 := by
    rw [View.readAt_eq_ld, harg8.read_unread, View.ld_unit_zero (S := S1024x1) hz2]
  have r9 : View.readAt (Elt F) arg9.view (Rect.unit ![0, 0] S1024x1024.size inb_S1024x1024_S1024x1024_0_0).toLoadRect (harg9.unread xs2) = xs2 := by
    rw [View.readAt_eq_ld, harg9.read_unread, View.ld_unit_zero (S := S1024x1024) hz2]
  simp only [e3, e4, e5, r7, r8, r9]
  simp only [View.readCov_unit_zero (S := S1024x1) _ hz2, View.readCov_unit_zero (S := S1024x1024) _ hz2,
    View.canon_cons_unit_zero (S := S1024x1) hz2, View.canon_cons_unit_zero (S := S1024x1024) hz2, View.canon_cons_unit_zero (S := S1x1024x1024) hz3]

set_option maxHeartbeats 1000000 in
theorem sout1_C_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : sout1_C_0 c i arg3 harg3 arg4 harg4 arg5 harg5 arg6 harg6 arg7 harg7 arg8 harg8 arg9 harg9 hc0 hc1 x0 x1 x2 xs0 xs1 xs2 = stepM x0 x1 xs0 := by
  unfold sout1_C_0 stepM
  rw [View.read_writes_eq_canon _ _ _ (scover1_C_0 c i arg3 harg3 arg4 harg4 arg5 harg5 arg6 harg6 arg7 harg7 arg8 harg8 arg9 harg9 hc0 hc1 x0 x1 x2 xs0 xs1 xs2)]
  unfold kernelRun1_C
  dsimp only
  sl_unfold_words
  have e3 : View.readAt (Elt F) arg3.view (Rect.unit ![0, 0, 0] S1x1024x1024.size inb_S1x1024x1024_S1x1024x1024_0_0_0).toLoadRect (harg3.unread x0) = x0 := by
    rw [View.readAt_eq_ld, harg3.read_unread, View.ld_unit_zero (S := S1x1024x1024) hz3]
  have e4 : View.readAt (Elt F) arg4.view (Rect.unit ![0, 0, 0] S1x512x1024.size inb_S1x512x1024_S1x512x1024_0_0_0).toLoadRect (harg4.unread x1) = x1 := by
    rw [View.readAt_eq_ld, harg4.read_unread, View.ld_unit_zero (S := S1x512x1024) hz3]
  have e5 : View.readAt (Elt F) arg5.view (Rect.unit ![0, 0, 0] S1x512x1024.size inb_S1x512x1024_S1x512x1024_0_0_0).toLoadRect (harg5.unread x2) = x2 := by
    rw [View.readAt_eq_ld, harg5.read_unread, View.ld_unit_zero (S := S1x512x1024) hz3]
  have r7 : View.readAt (Elt F) arg7.view (Rect.unit ![0, 0] S1024x1.size inb_S1024x1_S1024x1_0_0).toLoadRect (harg7.unread xs0) = xs0 := by
    rw [View.readAt_eq_ld, harg7.read_unread, View.ld_unit_zero (S := S1024x1) hz2]
  have r8 : View.readAt (Elt F) arg8.view (Rect.unit ![0, 0] S1024x1.size inb_S1024x1_S1024x1_0_0).toLoadRect (harg8.unread xs1) = xs1 := by
    rw [View.readAt_eq_ld, harg8.read_unread, View.ld_unit_zero (S := S1024x1) hz2]
  have r9 : View.readAt (Elt F) arg9.view (Rect.unit ![0, 0] S1024x1024.size inb_S1024x1024_S1024x1024_0_0).toLoadRect (harg9.unread xs2) = xs2 := by
    rw [View.readAt_eq_ld, harg9.read_unread, View.ld_unit_zero (S := S1024x1024) hz2]
  simp only [e3, e4, e5, r7, r8, r9]
  simp only [View.readCov_unit_zero (S := S1024x1) _ hz2, View.readCov_unit_zero (S := S1024x1024) _ hz2,
    View.canon_cons_unit_zero (S := S1024x1) hz2, View.canon_cons_unit_zero (S := S1024x1024) hz2, View.canon_cons_unit_zero (S := S1x1024x1024) hz3]

set_option maxHeartbeats 1000000 in
theorem sout1_C_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : sout1_C_1 c i arg3 harg3 arg4 harg4 arg5 harg5 arg6 harg6 arg7 harg7 arg8 harg8 arg9 harg9 hc0 hc1 x0 x1 x2 xs0 xs1 xs2 = stepL x0 x1 xs0 xs1 := by
  unfold sout1_C_1 stepL
  rw [View.read_writes_eq_canon _ _ _ (scover1_C_1 c i arg3 harg3 arg4 harg4 arg5 harg5 arg6 harg6 arg7 harg7 arg8 harg8 arg9 harg9 hc0 hc1 x0 x1 x2 xs0 xs1 xs2)]
  unfold kernelRun1_C
  dsimp only
  sl_unfold_words
  have e3 : View.readAt (Elt F) arg3.view (Rect.unit ![0, 0, 0] S1x1024x1024.size inb_S1x1024x1024_S1x1024x1024_0_0_0).toLoadRect (harg3.unread x0) = x0 := by
    rw [View.readAt_eq_ld, harg3.read_unread, View.ld_unit_zero (S := S1x1024x1024) hz3]
  have e4 : View.readAt (Elt F) arg4.view (Rect.unit ![0, 0, 0] S1x512x1024.size inb_S1x512x1024_S1x512x1024_0_0_0).toLoadRect (harg4.unread x1) = x1 := by
    rw [View.readAt_eq_ld, harg4.read_unread, View.ld_unit_zero (S := S1x512x1024) hz3]
  have e5 : View.readAt (Elt F) arg5.view (Rect.unit ![0, 0, 0] S1x512x1024.size inb_S1x512x1024_S1x512x1024_0_0_0).toLoadRect (harg5.unread x2) = x2 := by
    rw [View.readAt_eq_ld, harg5.read_unread, View.ld_unit_zero (S := S1x512x1024) hz3]
  have r7 : View.readAt (Elt F) arg7.view (Rect.unit ![0, 0] S1024x1.size inb_S1024x1_S1024x1_0_0).toLoadRect (harg7.unread xs0) = xs0 := by
    rw [View.readAt_eq_ld, harg7.read_unread, View.ld_unit_zero (S := S1024x1) hz2]
  have r8 : View.readAt (Elt F) arg8.view (Rect.unit ![0, 0] S1024x1.size inb_S1024x1_S1024x1_0_0).toLoadRect (harg8.unread xs1) = xs1 := by
    rw [View.readAt_eq_ld, harg8.read_unread, View.ld_unit_zero (S := S1024x1) hz2]
  have r9 : View.readAt (Elt F) arg9.view (Rect.unit ![0, 0] S1024x1024.size inb_S1024x1024_S1024x1024_0_0).toLoadRect (harg9.unread xs2) = xs2 := by
    rw [View.readAt_eq_ld, harg9.read_unread, View.ld_unit_zero (S := S1024x1024) hz2]
  simp only [e3, e4, e5, r7, r8, r9]
  simp only [View.readCov_unit_zero (S := S1024x1) _ hz2, View.readCov_unit_zero (S := S1024x1024) _ hz2,
    View.canon_cons_unit_zero (S := S1024x1) hz2, View.canon_cons_unit_zero (S := S1024x1024) hz2, View.canon_cons_unit_zero (S := S1x1024x1024) hz3]

set_option maxHeartbeats 1000000 in
theorem sout1_C_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : sout1_C_2 c i arg3 harg3 arg4 harg4 arg5 harg5 arg6 harg6 arg7 harg7 arg8 harg8 arg9 harg9 hc0 hc1 x0 x1 x2 xs0 xs1 xs2 = stepA x0 x1 x2 xs0 xs2 := by
  unfold sout1_C_2 stepA
  rw [View.read_writes_eq_canon _ _ _ (scover1_C_2 c i arg3 harg3 arg4 harg4 arg5 harg5 arg6 harg6 arg7 harg7 arg8 harg8 arg9 harg9 hc0 hc1 x0 x1 x2 xs0 xs1 xs2)]
  unfold kernelRun1_C
  dsimp only
  sl_unfold_words
  have e3 : View.readAt (Elt F) arg3.view (Rect.unit ![0, 0, 0] S1x1024x1024.size inb_S1x1024x1024_S1x1024x1024_0_0_0).toLoadRect (harg3.unread x0) = x0 := by
    rw [View.readAt_eq_ld, harg3.read_unread, View.ld_unit_zero (S := S1x1024x1024) hz3]
  have e4 : View.readAt (Elt F) arg4.view (Rect.unit ![0, 0, 0] S1x512x1024.size inb_S1x512x1024_S1x512x1024_0_0_0).toLoadRect (harg4.unread x1) = x1 := by
    rw [View.readAt_eq_ld, harg4.read_unread, View.ld_unit_zero (S := S1x512x1024) hz3]
  have e5 : View.readAt (Elt F) arg5.view (Rect.unit ![0, 0, 0] S1x512x1024.size inb_S1x512x1024_S1x512x1024_0_0_0).toLoadRect (harg5.unread x2) = x2 := by
    rw [View.readAt_eq_ld, harg5.read_unread, View.ld_unit_zero (S := S1x512x1024) hz3]
  have r7 : View.readAt (Elt F) arg7.view (Rect.unit ![0, 0] S1024x1.size inb_S1024x1_S1024x1_0_0).toLoadRect (harg7.unread xs0) = xs0 := by
    rw [View.readAt_eq_ld, harg7.read_unread, View.ld_unit_zero (S := S1024x1) hz2]
  have r8 : View.readAt (Elt F) arg8.view (Rect.unit ![0, 0] S1024x1.size inb_S1024x1_S1024x1_0_0).toLoadRect (harg8.unread xs1) = xs1 := by
    rw [View.readAt_eq_ld, harg8.read_unread, View.ld_unit_zero (S := S1024x1) hz2]
  have r9 : View.readAt (Elt F) arg9.view (Rect.unit ![0, 0] S1024x1024.size inb_S1024x1024_S1024x1024_0_0).toLoadRect (harg9.unread xs2) = xs2 := by
    rw [View.readAt_eq_ld, harg9.read_unread, View.ld_unit_zero (S := S1024x1024) hz2]
  simp only [e3, e4, e5, r7, r8, r9]
  simp only [View.readCov_unit_zero (S := S1024x1) _ hz2, View.readCov_unit_zero (S := S1024x1024) _ hz2,
    View.canon_cons_unit_zero (S := S1024x1) hz2, View.canon_cons_unit_zero (S := S1024x1024) hz2, View.canon_cons_unit_zero (S := S1x1024x1024) hz3]

set_option maxHeartbeats 1000000 in
theorem out1_C_3_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : out1_C_3 c i arg3 harg3 arg4 harg4 arg5 harg5 arg6 harg6 arg7 harg7 arg8 harg8 arg9 harg9 hc0 hc1 x0 x1 x2 xs0 xs1 xs2 = k1_pay3 (stepA x0 x1 x2 xs0 xs2) (stepL x0 x1 xs0 xs1) := by
  unfold out1_C_3 stepA stepL
  rw [View.read_writes_eq_canon _ _ _ (cover1_C_3 c i arg3 harg3 arg4 harg4 arg5 harg5 arg6 harg6 arg7 harg7 arg8 harg8 arg9 harg9 hc0 hc1 x0 x1 x2 xs0 xs1 xs2)]
  unfold kernelRun1_C
  dsimp only
  sl_unfold_words
  have e3 : View.readAt (Elt F) arg3.view (Rect.unit ![0, 0, 0] S1x1024x1024.size inb_S1x1024x1024_S1x1024x1024_0_0_0).toLoadRect (harg3.unread x0) = x0 := by
    rw [View.readAt_eq_ld, harg3.read_unread, View.ld_unit_zero (S := S1x1024x1024) hz3]
  have e4 : View.readAt (Elt F) arg4.view (Rect.unit ![0, 0, 0] S1x512x1024.size inb_S1x512x1024_S1x512x1024_0_0_0).toLoadRect (harg4.unread x1) = x1 := by
    rw [View.readAt_eq_ld, harg4.read_unread, View.ld_unit_zero (S := S1x512x1024) hz3]
  have e5 : View.readAt (Elt F) arg5.view (Rect.unit ![0, 0, 0] S1x512x1024.size inb_S1x512x1024_S1x512x1024_0_0_0).toLoadRect (harg5.unread x2) = x2 := by
    rw [View.readAt_eq_ld, harg5.read_unread, View.ld_unit_zero (S := S1x512x1024) hz3]
  have r7 : View.readAt (Elt F) arg7.view (Rect.unit ![0, 0] S1024x1.size inb_S1024x1_S1024x1_0_0).toLoadRect (harg7.unread xs0) = xs0 := by
    rw [View.readAt_eq_ld, harg7.read_unread, View.ld_unit_zero (S := S1024x1) hz2]
  have r8 : View.readAt (Elt F) arg8.view (Rect.unit ![0, 0] S1024x1.size inb_S1024x1_S1024x1_0_0).toLoadRect (harg8.unread xs1) = xs1 := by
    rw [View.readAt_eq_ld, harg8.read_unread, View.ld_unit_zero (S := S1024x1) hz2]
  have r9 : View.readAt (Elt F) arg9.view (Rect.unit ![0, 0] S1024x1024.size inb_S1024x1024_S1024x1024_0_0).toLoadRect (harg9.unread xs2) = xs2 := by
    rw [View.readAt_eq_ld, harg9.read_unread, View.ld_unit_zero (S := S1024x1024) hz2]
  simp only [e3, e4, e5, r7, r8, r9]
  simp only [View.readCov_unit_zero (S := S1024x1) _ hz2, View.readCov_unit_zero (S := S1024x1024) _ hz2,
    View.canon_cons_unit_zero (S := S1024x1) hz2, View.canon_cons_unit_zero (S := S1024x1024) hz2, View.canon_cons_unit_zero (S := S1x1024x1024) hz3]

end Cert.KernelIdeal.Gen

end
-- ==== Proof.Region1State.lean ====
/- The scratch buffers after each grid point of the attention kernel, in closed form: at key tile 0 one accumulation
   step from the reset values, at a later key tile one step from what the point before left; at key tile 3 the output
   block is the quotient of the new numerator by the new denominator. -/
import proofs.«153811_j15212774163203_2_alg».proof.Proof.Region1Pieces

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 1000000 in
/-- After a point at key tile 0. -/
theorem outsAt1_first (c : Dev nD) (t : Fin cfg1.N) (h0 : t.val % 4 = 0) :
    (outsAt1 V c t.val t.isLt).2.1 = stepM (iblk1 V c 0 t) (iblk1 V c 1 t) k1_pay4
    ∧ (outsAt1 V c t.val t.isLt).2.2.1 = stepL (iblk1 V c 0 t) (iblk1 V c 1 t) k1_pay4 k1_pay5
    ∧ (outsAt1 V c t.val t.isLt).2.2.2 = stepA (iblk1 V c 0 t) (iblk1 V c 1 t) (iblk1 V c 2 t) k1_pay4 k1_pay6 := by
  have h1 : ¬t.val % 4 = 3 := by omega
  rw [outsAt1_A V c t h0 h1]
  dsimp only
  exact ⟨sout1_A_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
    sout1_A_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
    sout1_A_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)⟩

set_option maxHeartbeats 1000000 in
/-- After a point at a later key tile: one step from what the point before left. -/
theorem outsAt1_next (c : Dev nD) (t : Fin cfg1.N) (h0 : ¬t.val % 4 = 0) :
    (outsAt1 V c t.val t.isLt).2.1 = stepM (iblk1 V c 0 t) (iblk1 V c 1 t) (outsAt1 V c (t.val - 1) (Nat.lt_of_le_of_lt (Nat.sub_le _ _) t.isLt)).2.1
    ∧ (outsAt1 V c t.val t.isLt).2.2.1 = stepL (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1
    ∧ (outsAt1 V c t.val t.isLt).2.2.2 = stepA (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.2 := by
  by_cases h1 : t.val % 4 = 3
  · rw [outsAt1_C V c t h0 h1]
    dsimp only
    exact ⟨sout1_C_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2⟩
  · rw [outsAt1_B V c t h0 h1]
    dsimp only
    exact ⟨sout1_B_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2⟩

set_option maxHeartbeats 1000000 in
/-- At key tile 3 the output block is the new numerator over the new denominator. -/
theorem outsAt1_out (c : Dev nD) (t : Fin cfg1.N) (h1 : t.val % 4 = 3) :
    (outsAt1 V c t.val t.isLt).1 = k1_pay3 (outsAt1 V c t.val t.isLt).2.2.2 (outsAt1 V c t.val t.isLt).2.2.1 := by
  have h0 : ¬t.val % 4 = 0 := by omega
  obtain ⟨-, e1, e2⟩ := outsAt1_next V c t h0
  rw [e1, e2, outsAt1_C V c t h0 h1]
  dsimp only
  exact out1_C_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

end

end Cert.KernelIdeal.Gen

end
-- ==== Proof.Region1Blocks.lean ====
/-
  The windows of the attention kernel, read at an index.

  The attention kernel runs over 8 × 2 × 4 = 64 grid points: point t is batch b = t / 8, query half qi = t / 4 % 2 and
  key tile ki = t % 4. Its three input windows read ONE array Y : [8, 2048, 3072], whose columns 0 … 1023 are the
  queries, 1024 … 2047 the keys and 2048 … 3071 the values: the query block at point t is rows 1024·qi … 1024·qi + 1023
  of batch b in the query columns, the key and value blocks are rows 512·ki … 512·ki + 511 of batch b in the key and
  value columns. The output window writes rows 1024·qi … 1024·qi + 1023 of batch b of the result [8, 2048, 1024], at the
  last key tile only (ki = 3). Row r of batch b of the result lies in the block of the point (b, r / 1024, 3), so those
  16 blocks cover the result, and the result array ends holding any function G that each of them is a block of
  (`final1_of`).
-/
import proofs.«153811_j15212774163203_2_alg».proof.Proof.Region1
import Idealize.ShloMosaic.Lib.Pipeline.Value
import Idealize.ShloMosaic.Lib.ValueIdx

noncomputable section

namespace Cert.KernelIdeal.R1Blocks

open Cert.KernelIdeal Cert.KernelIdeal.Gen Idealize.ShloMosaic Idealize.ShloMosaic.TcCoe Idealize.SL.Sem
  Idealize.ShloMosaic.ValueIdx
open Idealize.ShloMosaic.Pipeline (Dat)

/-- The index maps over the grid: at point t the query and output blocks are block (t / 8, t / 4 % 2, 0), the key
    block is (t / 8, t % 4, 1) and the value block is (t / 8, t % 4, 2). -/
theorem idx_facts1 : ∀ t : Fin cfg1.N,
    win1_0.index t (0 : Fin 3) = t.val / 8 ∧ win1_0.index t (1 : Fin 3) = t.val / 4 % 2 ∧ win1_0.index t (2 : Fin 3) = 0
    ∧ win1_1.index t (0 : Fin 3) = t.val / 8 ∧ win1_1.index t (1 : Fin 3) = t.val % 4 ∧ win1_1.index t (2 : Fin 3) = 1
    ∧ win1_2.index t (0 : Fin 3) = t.val / 8 ∧ win1_2.index t (1 : Fin 3) = t.val % 4 ∧ win1_2.index t (2 : Fin 3) = 2
    ∧ win1_3.index t (0 : Fin 3) = t.val / 8 ∧ win1_3.index t (1 : Fin 3) = t.val / 4 % 2 ∧ win1_3.index t (2 : Fin 3) = 0 :=
  (by decide +kernel : ∀ t : Fin grid1.N, _)

section
variable (V : (c : Dev nD) → (b : Ref sig .tc) → Buf (Elt Ideal) ((c : Thread nD τ).loc b))

/-! ## The three input blocks -/

/-- Entry (p, e) of the query block at point t is entry (t / 8, 1024·(t / 4 % 2) + p, e) of the array. -/
theorem qblk_apply (c : Dev nD) (t : Fin cfg1.N) (p e : Fin 1024) (i : S8x2048x3072.Idx)
    (h0 : (i 0).val = t.val / 8) (h1 : (i 1).val = t.val / 4 % 2 * 1024 + p.val) (h2 : (i 2).val = e.val) :
    (iblk1 (F := Ideal) V c 0 t : Vec Ideal S1x1024x1024 .bf16) (ix3 (0 : Fin 1) p e)
      = (V c main_v4 : S8x2048x3072.Idx → EReal) i := by
  obtain ⟨e0, e1, e2, -⟩ := idx_facts1 t
  show V c main_v4 (((cfg1.win 0).blk t).view.emb (ix3 (0 : Fin 1) p e)) = V c main_v4 i
  refine congrArg (V c main_v4) (funext fun a => Fin.ext ?_)
  match a with
  | ⟨0, _⟩ => show win1_0.index t (0 : Fin 3) * 1 + 1 * 0 = (i 0).val; omega
  | ⟨1, _⟩ => show win1_0.index t (1 : Fin 3) * 1024 + 1 * p.val = (i 1).val; omega
  | ⟨2, _⟩ => show win1_0.index t (2 : Fin 3) * 1024 + 1 * e.val = (i 2).val; omega

/-- Entry (cc, e) of the key block at point t is entry (t / 8, 512·(t % 4) + cc, 1024 + e) of the array. -/
theorem kblk_apply (c : Dev nD) (t : Fin cfg1.N) (cc : Fin 512) (e : Fin 1024) (i : S8x2048x3072.Idx)
    (h0 : (i 0).val = t.val / 8) (h1 : (i 1).val = t.val % 4 * 512 + cc.val) (h2 : (i 2).val = 1024 + e.val) :
    (iblk1 (F := Ideal) V c 1 t : Vec Ideal S1x512x1024 .bf16) (ix3 (0 : Fin 1) cc e)
      = (V c main_v4 : S8x2048x3072.Idx → EReal) i := by
  obtain ⟨-, -, -, e0, e1, e2, -⟩ := idx_facts1 t
  show V c main_v4 (((cfg1.win 1).blk t).view.emb (ix3 (0 : Fin 1) cc e)) = V c main_v4 i
  refine congrArg (V c main_v4) (funext fun a => Fin.ext ?_)
  match a with
  | ⟨0, _⟩ => show win1_1.index t (0 : Fin 3) * 1 + 1 * 0 = (i 0).val; omega
  | ⟨1, _⟩ => show win1_1.index t (1 : Fin 3) * 512 + 1 * cc.val = (i 1).val; omega
  | ⟨2, _⟩ => show win1_1.index t (2 : Fin 3) * 1024 + 1 * e.val = (i 2).val; omega

/-- Entry (cc, d) of the value block at point t is entry (t / 8, 512·(t % 4) + cc, 2048 + d) of the array. -/
theorem vblk_apply (c : Dev nD) (t : Fin cfg1.N) (cc : Fin 512) (d : Fin 1024) (i : S8x2048x3072.Idx)
    (h0 : (i 0).val = t.val / 8) (h1 : (i 1).val = t.val % 4 * 512 + cc.val) (h2 : (i 2).val = 2048 + d.val) :
    (iblk1 (F := Ideal) V c 2 t : Vec Ideal S1x512x1024 .bf16) (ix3 (0 : Fin 1) cc d)
      = (V c main_v4 : S8x2048x3072.Idx → EReal) i := by
  obtain ⟨-, -, -, -, -, -, e0, e1, e2, -⟩ := idx_facts1 t
  show V c main_v4 (((cfg1.win 2).blk t).view.emb (ix3 (0 : Fin 1) cc d)) = V c main_v4 i
  refine congrArg (V c main_v4) (funext fun a => Fin.ext ?_)
  match a with
  | ⟨0, _⟩ => show win1_2.index t (0 : Fin 3) * 1 + 1 * 0 = (i 0).val; omega
  | ⟨1, _⟩ => show win1_2.index t (1 : Fin 3) * 512 + 1 * cc.val = (i 1).val; omega
  | ⟨2, _⟩ => show win1_2.index t (2 : Fin 3) * 1024 + 1 * d.val = (i 2).val; omega

/-! ## The output block -/

/-- Entry j of the output block at point t sits at (t / 8, 1024·(t / 4 % 2) + j₁, j₂) of the result. -/
theorem emb3_val (t : Fin cfg1.N) (j : S1x1024x1024.Idx) :
    ((((cfg1.win 3).blk t).view.emb j) 0).val = t.val / 8
      ∧ ((((cfg1.win 3).blk t).view.emb j) 1).val = t.val / 4 % 2 * 1024 + (j 1).val
      ∧ ((((cfg1.win 3).blk t).view.emb j) 2).val = (j 2).val := by
  obtain ⟨-, -, -, -, -, -, -, -, -, e0, e1, e2⟩ := idx_facts1 t
  have hj0 : (j 0).val < 1 := (j 0).isLt
  refine ⟨?_, ?_, ?_⟩
  · show win1_3.index t (0 : Fin 3) * 1 + 1 * (j 0).val = _; omega
  · show win1_3.index t (1 : Fin 3) * 1024 + 1 * (j 1).val = _; omega
  · show win1_3.index t (2 : Fin 3) * 1024 + 1 * (j 2).val = _; omega

/-- An index of the result is in point t's block iff each coordinate is in the block's range on its axis. -/
theorem mem_blk3 (t : Fin cfg1.N) (i : S8x2048x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v5).slice (win1_3.rect t)).set ↔ _
  rw [View.set_slice_whole, Rect.mem_set_unit]
  exact Iff.rfl

/-- Row r of batch b of the result is in the block of the point (b, r / 1024, 3), which writes back. -/
theorem cover3 (i : S8x2048x1024.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 1024 := (i 2).isLt
  have hN : cfg1.N = 64 := N_1
  have hN' : grid1.N = 64 := N_1
  obtain ⟨t, ht⟩ : ∃ t : Fin cfg1.N, t.val = ((i 0).val * 2 + (i 1).val / 1024) * 4 + 3 :=
    ⟨⟨((i 0).val * 2 + (i 1).val / 1024) * 4 + 3, by omega⟩, rfl⟩
  obtain ⟨-, -, -, -, -, -, -, -, -, e0, e1, e2⟩ := idx_facts1 t
  refine ⟨t, (flush1_3 t).mpr (by omega), ?_⟩
  rw [mem_blk3]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 1024 ≤ (i 2).val ∧ (i 2).val < win1_3.index t (2 : Fin 3) * 1024 + 1024
    omega

/-! ## From the blocks to the array -/

/-- If at every point of the last key tile the output buffer holds the point's block of G, the result array ends
    holding G. -/
theorem final1_of (c : Dev nD) (G : S8x2048x1024.Idx → EReal)
    (hG : ∀ t : Fin cfg1.N, t.val % 4 = 3 → ∀ j : S1x1024x1024.Idx,
      (show Vec Ideal S1x1024x1024 .f32 from (dat1 (F := Ideal) V c).after 3 t) j
        = G (((cfg1.win 3).blk t).view.emb j)) :
    (dat1 (F := Ideal) V c).arrAt 3 cfg1.N = G :=
  (dat1 (F := Ideal) V c).arrAt_eq_of_cover 3 G (fun t hf => by
    show (cfg1.win 3).cut (grid1.coords t) ((dat1 (F := Ideal) V c).after 3 t) = _
    funext j
    exact hG t ((flush1_3 t).mp hf) j) cover3

end

end Cert.KernelIdeal.R1Blocks

end
-- ==== Proof.LibLastAxisSoftmax.lean ====
/-
  Softmax along the last axis, read at an index, on the extended reals.

  A row of extended reals `f : Fin c → EReal` has the softmax
  `exp (f l - M) / ∑ k, exp (f k - M)`, with `M` the row's maximum taken from the word of minus
  infinity upward (`softmaxAt`). Two programs compute it, each along the LAST axis of an array:
  * a vector program on a rank-3 array [a, b, c]: the maximum and the sum are lane reductions to
    [a, b], each kept as a unit axis [a, b, 1] and broadcast back to [a, b, c] (`vecSoftmax3`);
  * a host program on a rank-4 array [a, b, g, c]: the maximum and the sum are reductions over
    axis 3 to [a, b, g], the maximum joined once more with minus infinity (which changes nothing),
    each broadcast back through [a, b, g, 1] (`hostSoftmax4`).
  Read at an index both are `softmaxAt` of the row through that index
  (`vecSoftmax3_apply`, `hostSoftmax4_apply`): no law of arithmetic is used beyond
  `max b (fold max b f) = fold max b f` and `0 + s = s`.
-/
import Idealize.ShloMosaic.PureOps.Ideal.Laws
import Idealize.ShloMosaic.Lib.ValueIdx
import Idealize.ShloMosaic.Lib.Pipeline.Value

noncomputable section

open scoped BigOperators

namespace Idealize.ShloMosaic.LastAxisSoftmax

open Idealize.ShloMosaic Idealize.ShloMosaic.ValueIdx

/-- The extended real that the f32 word of minus infinity denotes; it is only ever compared with itself. -/
abbrev negInf : EReal := Ideal.ofBits .f32 0xFF800000#32

/-- The softmax of the row `f` at its member `l`: the maximum is folded from `negInf`. -/
def softmaxAt {c : Nat} (f : Fin c → EReal) (l : Fin c) : EReal :=
  Ideal.div (Ideal.exp (f l - (Finset.univ : Finset (Fin c)).fold max negInf f))
    (∑ k : Fin c, Ideal.exp (f k - (Finset.univ : Finset (Fin c)).fold max negInf f))

/-! ## The vector program, rank 3 -/

section Vec
variable {n0 n1 n2 : Nat}

/-- A reduced array [a, b], given a unit last axis and broadcast along it to [a, b, c], reads at
    (p, g, l) what it held at (p, g). -/
theorem keepdims3_apply {α : Type} (v : (⟨2, ![n0, n1]⟩ : Shape).Idx → α)
    (hc : (⟨2, ![n0, n1]⟩ : Shape).ShapeCasts ⟨3, ![n0, n1, 1]⟩)
    (hb : (⟨3, ![n0, n1, 1]⟩ : Shape).Broadcasts ⟨3, ![n0, n1, n2]⟩)
    (p : Fin n0) (g : Fin n1) (l : Fin n2) :
    broadcastTo ⟨3, ![n0, n1, n2]⟩ (shapeCast ⟨3, ![n0, n1, 1]⟩ v hc) hb (ix3 p g l) = v (ix2 p g) := by
  rw [broadcastTo_apply _ hb (ix3 p g l) (ix3 p g (⟨0, Nat.one_pos⟩ : Fin 1)) (fun a => by
    match a with
    | ⟨0, _⟩ =>
      show p.val = if n0 = 1 then 0 else p.val
      split
      · have := p.isLt; omega
      · rfl
    | ⟨1, _⟩ =>
      show g.val = if n1 = 1 then 0 else g.val
      split
      · have := g.isLt; omega
      · rfl
    | ⟨2, _⟩ =>
      show 0 = if (1 : Nat) = 1 then 0 else l.val
      rw [if_pos rfl])]
  exact shapeCast_apply v hc _ (ix2 p g) (by
    rw [Shape.rowMajor_val_two, Shape.rowMajor_val_three]
    show p.val * n1 + g.val = (p.val * n1 + g.val) * 1 + 0
    omega)

/-- The index of [a, b, c] over (p, g) of [a, b] with `k` on the reduced last axis is (p, g, k). -/
theorem lift3 (hr : (⟨3, ![n0, n1, n2]⟩ : Shape).Reduces [2] ⟨2, ![n0, n1]⟩) (p : Fin n0) (g : Fin n1) (k : Fin n2) :
    hr.lift (ix2 p g) k = ix3 p g k := by
  funext a
  apply Fin.ext
  match a with
  | ⟨0, _⟩ => rfl
  | ⟨1, _⟩ => rfl
  | ⟨2, _⟩ => rfl

variable {F : FTy → Type} [FloatOps F]

/-- The vector program: subtract the lane maximum, exponentiate, divide by the lane sum. -/
def vecSoftmax3 (X : FVec F ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) : FVec F ⟨3, ![n0, n1, n2]⟩ .f32 :=
  divf
    (exp (subf X (broadcastTo ⟨3, ![n0, n1, n2]⟩ (shapeCast ⟨3, ![n0, n1, 1]⟩
      (multiReduction .maximumf [2] ⟨2, ![n0, n1]⟩ X 0xFF800000#32 hr hφ hmax) hc) hb)))
    (broadcastTo ⟨3, ![n0, n1, n2]⟩ (shapeCast ⟨3, ![n0, n1, 1]⟩
      (multiReduction .add [2] ⟨2, ![n0, n1]⟩
        (exp (subf X (broadcastTo ⟨3, ![n0, n1, n2]⟩ (shapeCast ⟨3, ![n0, n1, 1]⟩
          (multiReduction .maximumf [2] ⟨2, ![n0, n1]⟩ X 0xFF800000#32 hr hφ hmax) hc) hb)))
        0x00000000#32 hr hφ hadd) hc) hb)

end Vec

/-- Read at (p, g, l), the vector program is the softmax of row (p, g, ·) at `l`. -/
theorem vecSoftmax3_apply {n0 n1 n2 : Nat} (X : FVec Ideal ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) (p : Fin n0) (g : Fin n1) (l : Fin n2) :
    vecSoftmax3 (F := Ideal) X hr hc hb hφ hmax hadd (ix3 p g l) = softmaxAt (fun k : Fin n2 => X (ix3 p g k)) l := by
  -- the lane maximum at (p, g): the fold of `max` over the row
  have hM : multiReduction .maximumf [2] ⟨2, ![n0, n1]⟩ X 0xFF800000#32 hr hφ hmax (ix2 p g)
      = (Finset.univ : Finset (Fin n2)).fold max negInf (fun k : Fin n2 => X (ix3 p g k)) := by
    rw [Ideal.multiReduction_maximumf_single]
    exact congrArg (fun f : Fin n2 → EReal => (Finset.univ : Finset (Fin n2)).fold max negInf f)
      (funext fun k => congrArg X (lift3 hr p g k))
  -- the exponentials at (p, g, k)
  have hE : ∀ k : Fin n2,
      exp (subf X (broadcastTo ⟨3, ![n0, n1, n2]⟩ (shapeCast ⟨3, ![n0, n1, 1]⟩
        (multiReduction .maximumf [2] ⟨2, ![n0, n1]⟩ X 0xFF800000#32 hr hφ hmax) hc) hb)) (ix3 p g k)
      = Ideal.exp (X (ix3 p g k) - (Finset.univ : Finset (Fin n2)).fold max negInf (fun k : Fin n2 => X (ix3 p g k))) := by
    intro k
    show Ideal.exp (X (ix3 p g k) - broadcastTo ⟨3, ![n0, n1, n2]⟩ (shapeCast ⟨3, ![n0, n1, 1]⟩
        (multiReduction .maximumf [2] ⟨2, ![n0, n1]⟩ X 0xFF800000#32 hr hφ hmax) hc) hb (ix3 p g k)) = _
    rw [keepdims3_apply, hM]
  unfold vecSoftmax3 softmaxAt
  show Ideal.div _ _ = _
  rw [hE l, keepdims3_apply, Ideal.multiReduction_add_single]
  refine congrArg (Ideal.div _) ?_
  exact Finset.sum_congr rfl fun k _ => by rw [lift3 hr p g k, hE k]

/-! ## The host program, rank 4 -/

section Host
variable {n0 n1 n2 n3 : Nat}

/-- A reduced array [a, b, g], broadcast to [a, b, g, 1] and then along the unit axis to [a, b, g, c],
    reads at (a, b, g, l) what it held at (a, b, g). -/
theorem keepdims4_apply {α : Type} (v : (⟨3, ![n0, n1, n2]⟩ : Shape).Idx → α)
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    broadcastInDim ⟨4, ![n0, n1, n2, n3]⟩ ![0, 1, 2, 3] h2 (broadcastInDim ⟨4, ![n0, n1, n2, 1]⟩ ![0, 1, 2] h1 v) (ix4 a b g l)
      = v (ix3 a b g) := by
  rw [broadcastInDim_apply _ h2 _ (ix4 a b g l) (ix4 a b g (⟨0, Nat.one_pos⟩ : Fin 1)) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl
    | ⟨3, _⟩ =>
      show 0 = if (1 : Nat) = 1 then 0 else l.val
      rw [if_pos rfl])]
  exact broadcastInDim_apply _ h1 v _ (ix3 a b g) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl)

/-- The index of [a, b, g, c] over (a, b, g) with `k` on the reduced last axis is (a, b, g, k). -/
theorem lift4 (hr : (⟨4, ![n0, n1, n2, n3]⟩ : Shape).Reduces [3] ⟨3, ![n0, n1, n2]⟩) (a : Fin n0) (b : Fin n1) (g : Fin n2)
    (k : Fin n3) : hr.lift (ix3 a b g) k = ix4 a b g k := by
  funext d
  apply Fin.ext
  match d with
  | ⟨0, _⟩ => rfl
  | ⟨1, _⟩ => rfl
  | ⟨2, _⟩ => rfl
  | ⟨3, _⟩ => rfl

variable {F : FTy → Type} [FloatOps F]

/-- The host program: the maximum over axis 3 joined with minus infinity, subtracted, exponentiated, divided by
    the sum over axis 3 (from zero). -/
def hostSoftmax4 (X : FVec F ⟨4, ![n0, n1, n2, n3]⟩ .f32)
    (hred : (⟨4, ![n0, n1, n2, n3]⟩ : Shape).ReducesTo [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4)) :
    FVec F ⟨4, ![n0, n1, n2, n3]⟩ .f32 :=
  Host.divf
    (Host.exp (subf X (broadcastInDim ⟨4, ![n0, n1, n2, n3]⟩ ![0, 1, 2, 3] h2 (broadcastInDim ⟨4, ![n0, n1, n2, 1]⟩ ![0, 1, 2] h1
      (maximumf (broadcastInDim ⟨3, ![n0, n1, n2]⟩ ![] h0 (constant ⟨0, ![]⟩ .f32 0xFF800000#32))
        (Host.reduce FloatOps.maximumf X (constant ⟨0, ![]⟩ .f32 0xFF800000#32) hred hu))))))
    (broadcastInDim ⟨4, ![n0, n1, n2, n3]⟩ ![0, 1, 2, 3] h2 (broadcastInDim ⟨4, ![n0, n1, n2, 1]⟩ ![0, 1, 2] h1
      (Host.reduceAdd
        (Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant ⟨0, ![]⟩ .f32 0xFF800000#32))
            (Host.reduce FloatOps.maximumf X (constant ⟨0, ![]⟩ .f32 0xFF800000#32) hred hu))))))
        (constant ⟨0, ![]⟩ .f32 0x00000000#32) hred hu)))

end Host

/-- Read at (a, b, g, l), the host program is the softmax of row (a, b, g, ·) at `l`. -/
theorem hostSoftmax4_apply {n0 n1 n2 n3 : Nat} (X : FVec Ideal ⟨4, ![n0, n1, n2, n3]⟩ .f32)
    (hred : (⟨4, ![n0, n1, n2, n3]⟩ : Shape).ReducesTo [3] ⟨3, ![n0, n1, n2]⟩)
    (hr : (⟨4, ![n0, n1, n2, n3]⟩ : Shape).Reduces [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    hostSoftmax4 (F := Ideal) X hred hu h0 h1 h2 (ix4 a b g l) = softmaxAt (fun k : Fin n3 => X (ix4 a b g k)) l := by
  -- the maximum at (a, b, g): joining the fold from minus infinity with minus infinity changes nothing
  have hM : maximumf (broadcastInDim ⟨3, ![n0, n1, n2]⟩ ![] h0 (constant (F := Ideal) ⟨0, ![]⟩ .f32 0xFF800000#32))
        (Host.reduce FloatOps.maximumf X (constant (F := Ideal) ⟨0, ![]⟩ .f32 0xFF800000#32) hred hu) (ix3 a b g)
      = (Finset.univ : Finset (Fin n3)).fold max negInf (fun k : Fin n3 => X (ix4 a b g k)) := by
    show max (broadcastInDim ⟨3, ![n0, n1, n2]⟩ ![] h0 (constant (F := Ideal) ⟨0, ![]⟩ .f32 0xFF800000#32) (ix3 a b g))
        (Host.reduce FloatOps.maximumf X (constant (F := Ideal) ⟨0, ![]⟩ .f32 0xFF800000#32) hred hu (ix3 a b g)) = _
    rw [Host.reduce_eq_fold_single FloatOps.maximumf X _ hred hr hu (ix3 a b g),
      broadcastInDim_apply _ h0 _ (ix3 a b g) ix0 (fun d => d.elim0)]
    show max negInf (Finset.univ.fold max negInf (X ∘ hr.lift (ix3 a b g))) = _
    rw [max_eq_right ((Finset.le_fold_max _).2 (Or.inl le_rfl))]
    exact congrArg (fun f : Fin n3 → EReal => (Finset.univ : Finset (Fin n3)).fold max negInf f)
      (funext fun k => congrArg X (lift4 hr a b g k))
  -- the exponentials at (a, b, g, k)
  have hE : ∀ k : Fin n3,
      Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))))) (ix4 a b g k)
      = Ideal.exp (X (ix4 a b g k) - (Finset.univ : Finset (Fin n3)).fold max negInf (fun k : Fin n3 => X (ix4 a b g k))) := by
    intro k
    show Ideal.exp (X (ix4 a b g k) - broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))) (ix4 a b g k)) = _
    rw [keepdims4_apply, hM]
  unfold hostSoftmax4 softmaxAt
  show Ideal.div _ _ = _
  rw [hE l, keepdims4_apply]
  refine congrArg (Ideal.div _) ?_
  show Ideal.hostReduceAdd hred _ (Ideal.ofBits .f32 0x00000000#32) (ix3 a b g) = _
  rw [Ideal.hostReduceAdd_single hred hr, Ideal.ofBits_zero_f32, zero_add]
  exact Finset.sum_congr rfl fun k _ => by rw [lift4 hr a b g k, hE k]

end Idealize.ShloMosaic.LastAxisSoftmax

end
-- ==== Proof.AttnSpec.lean ====
/-
  Single-head attention over the extended reals, as one function of the four argument arrays, and the
  tile-by-tile recurrence that computes one of its entries.

  With the input x : [8, 2048, 1024] and the weights Wq, Wk, Wv : [1024, 1024], a projection of row (b, s) is
  the vector  e ↦ Σ_d x(b,s,d) · W(d,e)  (`proj`). The score of query row q against key row k of batch b is the
  inner product of their query and key projections, scaled by the word 0x3D000000 (which denotes 1/32)
  (`score`). An output entry (b, q, d) is  Σ_k softmax(score(b,q,·))(k) · V(b,k,d)  (`attn`), the softmax
  taken along the key axis from the word of minus infinity upward (`softmaxAt`).

  One entry can also be accumulated over the four tiles of 512 keys each: a state (m, l, a) — running maximum,
  running denominator, running numerator — starts at (-inf, 0, 0) and is advanced once per tile (`fstep`);
  the entry is a / l after the fourth tile (`frun`).
-/
import proofs.«153811_j15212774163203_2_alg».proof.Proof.LibLastAxisSoftmax

noncomputable section

open scoped BigOperators

namespace Cert.Attn

open Idealize.ShloMosaic Idealize.ShloMosaic.ValueIdx Idealize.ShloMosaic.LastAxisSoftmax

/-- The shape of the input and of the result, [8, 2048, 1024]. -/
abbrev SX : Shape := ⟨3, ![8, 2048, 1024]⟩
/-- The shape of a weight matrix, [1024, 1024]. -/
abbrev SW : Shape := ⟨2, ![1024, 1024]⟩

/-- Entry `e` of the projection of input row (b, s) through the weight matrix `w`. -/
def proj (x : SX.Idx → EReal) (w : SW.Idx → EReal) (b : Fin 8) (s : Fin 2048) (e : Fin 1024) : EReal :=
  ∑ d : Fin 1024, x (ix3 b s d) * w (ix2 d e)

/-- The scaled score of query row `q` against key row `k` in batch `b`. -/
def score (x : SX.Idx → EReal) (wq wk : SW.Idx → EReal) (b : Fin 8) (q k : Fin 2048) : EReal :=
  (∑ e : Fin 1024, proj x wq b q e * proj x wk b k e) * Ideal.ofBits .f32 0x3D000000#32

/-- Entry (b, q, d) of the attention output. -/
def attnAt (x : SX.Idx → EReal) (wq wk wv : SW.Idx → EReal) (b : Fin 8) (q : Fin 2048) (d : Fin 1024) : EReal :=
  ∑ k : Fin 2048, softmaxAt (fun k' : Fin 2048 => score x wq wk b q k') k * proj x wv b k d

/-- The attention output as one array. -/
def attn (x : SX.Idx → EReal) (wq wk wv : SW.Idx → EReal) : SX.Idx → EReal := fun i =>
  attnAt x wq wk wv ⟨(i 0).val, (i 0).isLt⟩ ⟨(i 1).val, (i 1).isLt⟩ ⟨(i 2).val, (i 2).isLt⟩

theorem attn_ix3 (x : SX.Idx → EReal) (wq wk wv : SW.Idx → EReal) (b : Fin 8) (q : Fin 2048) (d : Fin 1024) :
    attn x wq wk wv (ix3 b q d) = attnAt x wq wk wv b q d := rfl

/-! ## One entry, tile by tile -/

/-- Tile `j` (keys 512·j … 512·j + 511) of a row over the 2048 keys. -/
def tile (f : Fin 2048 → EReal) (j : Fin 4) (c : Fin 512) : EReal :=
  f ⟨j.val * 512 + c.val, by have := j.isLt; have := c.isLt; omega⟩

/-- The running maximum `m`, denominator `l` and numerator `a` of one output entry. -/
structure FState where
  m : EReal
  l : EReal
  a : EReal

/-- Before the first tile. -/
def finit : FState := ⟨negInf, 0, 0⟩

/-- One tile of scores `s` and values `v`: the maximum is raised, the old sums are rescaled by
    exp (old maximum - new maximum), the tile's terms are added. -/
def fstep (s v : Fin 512 → EReal) (st : FState) : FState :=
  ⟨max st.m ((Finset.univ : Finset (Fin 512)).fold max negInf s),
   Ideal.exp (st.m - max st.m ((Finset.univ : Finset (Fin 512)).fold max negInf s)) * st.l
     + ∑ c : Fin 512, Ideal.exp (s c - max st.m ((Finset.univ : Finset (Fin 512)).fold max negInf s)),
   Ideal.exp (st.m - max st.m ((Finset.univ : Finset (Fin 512)).fold max negInf s)) * st.a
     + ∑ c : Fin 512, Ideal.exp (s c - max st.m ((Finset.univ : Finset (Fin 512)).fold max negInf s)) * v c⟩

/-- The state after tiles 0 … j-1 (all four for j ≥ 4). -/
def fstate (S V : Fin 2048 → EReal) : Nat → FState
  | 0 => finit
  | j + 1 => if h : j < 4 then fstep (tile S ⟨j, h⟩) (tile V ⟨j, h⟩) (fstate S V j) else fstate S V j

/-- The state after all four tiles. -/
def frun (S V : Fin 2048 → EReal) : FState := fstate S V 4

end Cert.Attn

end
-- ==== Proof.PayloadsAt.lean ====
/-
  The kernel bodies' payloads read at an index, at the ideal values (floats are extended reals, a change of
  format is the identity).

  The projection body's payload at (r, j) is the inner product of row r of the input block with column j of the
  weights. For the attention body, on a query block Q : [1, 1024, 1024], a key tile K and a value tile V : [1, 512, 1024],
  the running maximum m and denominator l : [1024, 1] and the running numerator A : [1024, 1024]:
    * the score of query row p against key c of the tile is  s(p, c) = (Σ_e Q(p, e) · K(c, e)) · 2⁻⁵;
    * the new maximum is  m'(p) = max (m(p)) (max_c s(p, c)),  the maximum over the tile folded from minus infinity;
    * the rescaling factor is  α(p) = exp (m(p) − m'(p)),  a tile term is  P(p, c) = exp (s(p, c) − m'(p));
    * the new denominator is  α(p) · l(p) + Σ_c P(p, c),  the new numerator is  α(p) · A(p, d) + Σ_c P(p, c) · V(c, d);
    * the last step divides the numerator by the denominator; the first one resets (m, l, A) to (−∞, 0, 0).
  Row by row and column by column this is one step of the tile recurrence `Cert.Attn.fstep` (`step_row`).

  The layout operations in between are read at an index: a leading unit axis dropped or added, a vector [1024] cast to
  a column [1024, 1], and a column broadcast along the rows of [1024, 512] or [1024, 1024].
-/
import proofs.«153811_j15212774163203_2_alg».proof.Proof.Gen.KernelIdeal.Skeleton
import proofs.«153811_j15212774163203_2_alg».proof.Proof.AttnSpec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.PayAt

open Cert.KernelIdeal Cert.KernelIdeal.Gen Idealize.ShloMosaic Idealize.ShloMosaic.ValueIdx
  Idealize.ShloMosaic.LastAxisSoftmax Cert.Attn

/-! ## The unit column: three layout operations read at an index -/

section Layout
variable {α : Type}

/-- A vector [1024] cast to a column [1024, 1] reads, at (p, 0), the vector at p: both are position p of the
    row-major order. -/
theorem castCol_apply (x : S1024.Idx → α) (h : S1024.ShapeCasts S1024x1) (p : Fin 1024) :
    shapeCast S1024x1 x h (ix2 p (0 : Fin 1)) = x (ix1 p) :=
  shapeCast_apply x h _ _ (by
    rw [Shape.rowMajor_val_two, Shape.rowMajor_val_one]
    show p.val = p.val * 1 + 0
    omega)

/-- A column [1024, 1] broadcast to [1024, 512] reads, at (p, c), the column's entry p. -/
theorem bcastCol512_apply (v : S1024x1.Idx → α) (h : S1024x1.Broadcasts S1024x512) (p : Fin 1024) (c : Fin 512) :
    broadcastTo S1024x512 v h (ix2 p c) = v (ix2 p (0 : Fin 1)) :=
  broadcastTo_apply v h (ix2 p c) (ix2 p (0 : Fin 1)) fun ax => by
    match ax with
    | ⟨0, _⟩ => rfl
    | ⟨1, _⟩ => rfl

/-- A column [1024, 1] broadcast to [1024, 1024] reads, at (p, d), the column's entry p. -/
theorem bcastCol1024_apply (v : S1024x1.Idx → α) (h : S1024x1.Broadcasts S1024x1024) (p : Fin 1024) (d : Fin 1024) :
    broadcastTo S1024x1024 v h (ix2 p d) = v (ix2 p (0 : Fin 1)) :=
  broadcastTo_apply v h (ix2 p d) (ix2 p (0 : Fin 1)) fun ax => by
    match ax with
    | ⟨0, _⟩ => rfl
    | ⟨1, _⟩ => rfl

end Layout

/-! ## A row maximum kept as a column

Stated over arbitrary extents a, b: the row's maximum is a fold over the b lanes of row p, whatever a and b are. -/

/-- The index of [a, b] over row p of [a] with `c` on the reduced lane axis is (p, c). -/
theorem lift_row {a b : ℕ} (hr : (⟨2, ![a, b]⟩ : Shape).Reduces [1] ⟨1, ![a]⟩) (p : Fin a) (c : Fin b) :
    hr.lift (ix1 p) c = ix2 p c := by
  funext ax
  apply Fin.ext
  match ax with
  | ⟨0, _⟩ => rfl
  | ⟨1, _⟩ => rfl

/-- A column m : [a, 1] joined with the lane maximum of X : [a, b] kept as a column reads, at (p, 0), the larger of
    m(p) and the maximum of row p of X folded from minus infinity. -/
theorem rowMax_apply {a b : ℕ} (X : FVec Ideal ⟨2, ![a, b]⟩ .f32) (m : FVec Ideal ⟨2, ![a, 1]⟩ .f32)
    (hr : (⟨2, ![a, b]⟩ : Shape).Reduces [1] ⟨1, ![a]⟩) (hc : (⟨1, ![a]⟩ : Shape).ShapeCasts ⟨2, ![a, 1]⟩)
    (hφ : FKind.Formats .f32) (hacc : (0xFF800000#32 : BitVec 32) = FKind.maximumf.neutral .f32 hφ) (p : Fin a) :
    maximumf m (shapeCast ⟨2, ![a, 1]⟩ (multiReduction .maximumf [1] ⟨1, ![a]⟩ X 0xFF800000#32 hr hφ hacc) hc) (ix2 p (0 : Fin 1))
      = max (m (ix2 p (0 : Fin 1))) ((Finset.univ : Finset (Fin b)).fold max negInf (fun c => X (ix2 p c))) := by
  have hcast : shapeCast ⟨2, ![a, 1]⟩ (multiReduction .maximumf [1] ⟨1, ![a]⟩ X 0xFF800000#32 hr hφ hacc) hc (ix2 p (0 : Fin 1))
      = multiReduction .maximumf [1] ⟨1, ![a]⟩ X 0xFF800000#32 hr hφ hacc (ix1 p) :=
    shapeCast_apply _ hc _ _ (by
      rw [Shape.rowMajor_val_two, Shape.rowMajor_val_one]
      show p.val = p.val * 1 + 0
      omega)
  show max (m (ix2 p (0 : Fin 1))) (shapeCast ⟨2, ![a, 1]⟩ (multiReduction .maximumf [1] ⟨1, ![a]⟩ X 0xFF800000#32 hr hφ hacc) hc (ix2 p (0 : Fin 1))) = _
  rw [hcast, Ideal.multiReduction_maximumf_single]
  exact congrArg (fun f : Fin b → EReal => max (m (ix2 p (0 : Fin 1))) ((Finset.univ : Finset (Fin b)).fold max negInf f))
    (funext fun c => congrArg X (lift_row hr p c))

/-! ## The three matrix products read at an index

Each has one contracting axis; the sum over the contraction index is re-indexed through that axis's coordinate, and
the operands' indices are read off the dimension numbers. -/

theorem lhs0_free (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs0_contr (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem rhs0_free (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl
theorem rhs0_contr (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q

/-- Rows times columns, [512, 1024] × [1024, 3072], into the zero accumulator: entry (a, b) is Σ_k l(a, k) · r(k, b). -/
theorem matmul0_apply (l : FVec Ideal S512x1024 .bf16) (r : FVec Ideal S1024x3072 .bf16) (a : Fin 512) (b : Fin 3072) :
    matmul dot_S512x1024_S1024x3072_S512x3072_1_0_0_1_n_n none l r (constant (F := Ideal) S512x3072 .f32 0x00000000#32) (ix2 a b)
      = ∑ k : Fin 1024, l (ix2 a k) * r (ix2 k b) := by
  show FloatOps.matmul dot_S512x1024_S1024x3072_S512x3072_1_0_0_1_n_n none l r (constant (F := Ideal) S512x3072 .f32 0x00000000#32) (ix2 a b) = _
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 a b) ((contrEquiv1 dot_S512x1024_S1024x3072_S512x3072_1_0_0_1_n_n 1024 rfl rfl).symm k) = ix2 a k := funext fun c => Fin.ext (by
    match c with
    | ⟨0, _⟩ => exact lhs0_free _ _
    | ⟨1, _⟩ => exact (lhs0_contr _ _).trans hk)
  have er : dot_S512x1024_S1024x3072_S512x3072_1_0_0_1_n_n.rhsIdx (ix2 a b) ((contrEquiv1 dot_S512x1024_S1024x3072_S512x3072_1_0_0_1_n_n 1024 rfl rfl).symm k) = ix2 k b := funext fun c => Fin.ext (by
    match c with
    | ⟨0, _⟩ => exact (rhs0_contr _ _).trans hk
    | ⟨1, _⟩ => exact rhs0_free _ _)
  rw [el, er]

theorem lhs8_free (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs8_contr (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhs8_free (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs8_contr (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- Rows times rows, [1024, 1024] × [512, 1024] contracted on the last axes, into the zero accumulator: entry (a, b) is Σ_k l(a, k) · r(b, k). -/
theorem matmul8_apply (l : FVec Ideal S1024x1024 .bf16) (r : FVec Ideal S512x1024 .bf16) (a : Fin 1024) (b : Fin 512) :
    matmul dot_S1024x1024_S512x1024_S1024x512_1_1_0_0_n_n none l r (constant (F := Ideal) S1024x512 .f32 0x00000000#32) (ix2 a b)
      = ∑ k : Fin 1024, l (ix2 a k) * r (ix2 b k) := by
  show FloatOps.matmul dot_S1024x1024_S512x1024_S1024x512_1_1_0_0_n_n none l r (constant (F := Ideal) S1024x512 .f32 0x00000000#32) (ix2 a b) = _
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 a b) ((contrEquiv1 dot_S1024x1024_S512x1024_S1024x512_1_1_0_0_n_n 1024 rfl rfl).symm k) = ix2 a k := funext fun c => Fin.ext (by
    match c with
    | ⟨0, _⟩ => exact lhs8_free _ _
    | ⟨1, _⟩ => exact (lhs8_contr _ _).trans hk)
  have er : dot_S1024x1024_S512x1024_S1024x512_1_1_0_0_n_n.rhsIdx (ix2 a b) ((contrEquiv1 dot_S1024x1024_S512x1024_S1024x512_1_1_0_0_n_n 1024 rfl rfl).symm k) = ix2 b k := funext fun c => Fin.ext (by
    match c with
    | ⟨0, _⟩ => exact rhs8_free _ _
    | ⟨1, _⟩ => exact (rhs8_contr _ _).trans hk)
  rw [el, er]

theorem lhs1_free (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs1_contr (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs1_free (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl
theorem rhs1_contr (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q

/-- Rows times columns, [1024, 512] × [512, 1024], into the zero accumulator: entry (a, b) is Σ_k l(a, k) · r(k, b). -/
theorem matmul1_apply (l : FVec Ideal S1024x512 .bf16) (r : FVec Ideal S512x1024 .bf16) (a : Fin 1024) (b : Fin 1024) :
    matmul dot_S1024x512_S512x1024_S1024x1024_1_0_0_1_n_n none l r (constant (F := Ideal) S1024x1024 .f32 0x00000000#32) (ix2 a b)
      = ∑ k : Fin 512, l (ix2 a k) * r (ix2 k b) := by
  show FloatOps.matmul dot_S1024x512_S512x1024_S1024x1024_1_0_0_1_n_n none l r (constant (F := Ideal) S1024x1024 .f32 0x00000000#32) (ix2 a b) = _
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 a b) ((contrEquiv1 dot_S1024x512_S512x1024_S1024x1024_1_0_0_1_n_n 512 rfl rfl).symm k) = ix2 a k := funext fun c => Fin.ext (by
    match c with
    | ⟨0, _⟩ => exact lhs1_free _ _
    | ⟨1, _⟩ => exact (lhs1_contr _ _).trans hk)
  have er : dot_S1024x512_S512x1024_S1024x1024_1_0_0_1_n_n.rhsIdx (ix2 a b) ((contrEquiv1 dot_S1024x512_S512x1024_S1024x1024_1_0_0_1_n_n 512 rfl rfl).symm k) = ix2 k b := funext fun c => Fin.ext (by
    match c with
    | ⟨0, _⟩ => exact (rhs1_contr _ _).trans hk
    | ⟨1, _⟩ => exact rhs1_free _ _)
  rw [el, er]

/-! ## The projection body -/

/-- The projection payload at (r, j): row r of the input block against column j of the weights. -/
theorem pay0_apply (v0 : Vec Ideal S512x1024 .f32) (w : Vec Ideal S1024x3072 .bf16) (r : Fin 512) (j : Fin 3072) :
    k0_pay1 v0 w (ix2 r j) = ∑ k : Fin 1024, v0 (ix2 r k) * w (ix2 k j) := by
  unfold k0_pay1
  show matmul dot_S512x1024_S1024x3072_S512x3072_1_0_0_1_n_n none
      (truncf .bf16 (shapeCast S512x1024 v0 shapeCasts_S512x1024_S512x1024) bitsLt_bf16_f32)
      (shapeCast S1024x3072 w shapeCasts_S1024x3072_S1024x3072)
      (constant (F := Ideal) S512x3072 .f32 0x00000000#32) (ix2 r j) = _
  rw [matmul0_apply, shapeCast_self, shapeCast_self]
  rfl

/-! ## The attention body: scores, maximum, exponentials -/

/-- The score of query row p against key c of the tile: their inner product, scaled. -/
theorem score_apply (v3 : Vec Ideal S1x1024x1024 .bf16) (v5 : Vec Ideal S1x512x1024 .bf16) (p : Fin 1024) (c : Fin 512) :
    k1_pay8 v3 v5 (ix2 p c)
      = (∑ e : Fin 1024, v3 (ix3 (0 : Fin 1) p e) * v5 (ix3 (0 : Fin 1) c e)) * Ideal.ofBits .f32 0x3D000000#32 := by
  unfold k1_pay8
  show matmul dot_S1024x1024_S512x1024_S1024x512_1_1_0_0_n_n none
      (shapeCast S1024x1024 v3 shapeCasts_S1x1024x1024_S1024x1024) (shapeCast S512x1024 v5 shapeCasts_S1x512x1024_S512x1024)
      (constant (F := Ideal) S1024x512 .f32 0x00000000#32) (ix2 p c) * Ideal.ofBits .f32 0x3D000000#32 = _
  rw [matmul8_apply]
  refine congrArg (· * Ideal.ofBits .f32 0x3D000000#32) (Finset.sum_congr rfl fun e _ => ?_)
  rw [shapeCast_1ab_ab_apply, shapeCast_1ab_ab_apply]

/-- The new running maximum of row p: the old one against the maximum of the tile's scores. -/
theorem max9_apply (v3 : Vec Ideal S1x1024x1024 .bf16) (v5 : Vec Ideal S1x512x1024 .bf16) (v12 : Vec Ideal S1024x1 .f32) (p : Fin 1024) :
    k1_pay9 v3 v5 v12 (ix2 p (0 : Fin 1))
      = max (v12 (ix2 p (0 : Fin 1))) ((Finset.univ : Finset (Fin 512)).fold max negInf (fun c => k1_pay8 v3 v5 (ix2 p c))) := by
  unfold k1_pay9
  exact rowMax_apply (k1_pay8 v3 v5) v12 reduces_S1024x512_S1024 shapeCasts_S1024_S1024x1 (.inl rfl) rfl p

/-- The stored maximum is the new running maximum (a cast to the same shape). -/
theorem max_apply (v3 : Vec Ideal S1x1024x1024 .bf16) (v5 : Vec Ideal S1x512x1024 .bf16) (v12 : Vec Ideal S1024x1 .f32) (p : Fin 1024) :
    k1_pay2 (k1_pay9 v3 v5 v12) (ix2 p (0 : Fin 1))
      = max (v12 (ix2 p (0 : Fin 1))) ((Finset.univ : Finset (Fin 512)).fold max negInf (fun c => k1_pay8 v3 v5 (ix2 p c))) := by
  unfold k1_pay2
  show shapeCast S1024x1 (k1_pay9 v3 v5 v12) shapeCasts_S1024x1_S1024x1 (ix2 p (0 : Fin 1)) = _
  rw [shapeCast_self]
  exact max9_apply v3 v5 v12 p

/-- The rescaling factor of row p. -/
theorem alpha_apply (v3 : Vec Ideal S1x1024x1024 .bf16) (v5 : Vec Ideal S1x512x1024 .bf16) (v12 : Vec Ideal S1024x1 .f32) (v16 : Vec Ideal S1024x1 .f32) (p : Fin 1024) :
    k1_pay10 v3 v5 v12 v16 (ix2 p (0 : Fin 1))
      = Ideal.exp (v16 (ix2 p (0 : Fin 1)) - k1_pay9 v3 v5 v12 (ix2 p (0 : Fin 1))) := by
  unfold k1_pay10
  rfl

/-- The tile term of key c in row p. -/
theorem prob_apply (v3 : Vec Ideal S1x1024x1024 .bf16) (v5 : Vec Ideal S1x512x1024 .bf16) (v12 : Vec Ideal S1024x1 .f32) (p : Fin 1024) (c : Fin 512) :
    k1_pay11 v3 v5 v12 (ix2 p c)
      = Ideal.exp (k1_pay8 v3 v5 (ix2 p c) - k1_pay9 v3 v5 v12 (ix2 p (0 : Fin 1))) := by
  unfold k1_pay11
  show Ideal.exp (k1_pay8 v3 v5 (ix2 p c)
      - broadcastTo S1024x512 (k1_pay9 v3 v5 v12) broadcasts_S1024x1_S1024x512 (ix2 p c)) = _
  rw [bcastCol512_apply]

/-- The tile terms narrowed to bf16 are the tile terms. -/
theorem prob13_apply (v3 : Vec Ideal S1x1024x1024 .bf16) (v5 : Vec Ideal S1x512x1024 .bf16) (v12 : Vec Ideal S1024x1 .f32) (p : Fin 1024) (c : Fin 512) :
    k1_pay13 v3 v5 v12 (ix2 p c) = k1_pay11 v3 v5 v12 (ix2 p c) := by
  unfold k1_pay13
  rfl

/-- The new denominator of row p. -/
theorem denom_apply (v3 : Vec Ideal S1x1024x1024 .bf16) (v5 : Vec Ideal S1x512x1024 .bf16) (v12 : Vec Ideal S1024x1 .f32) (v16 v22 : Vec Ideal S1024x1 .f32) (p : Fin 1024) :
    k1_pay12 v3 v5 v12 v16 v22 (ix2 p (0 : Fin 1))
      = k1_pay10 v3 v5 v12 v16 (ix2 p (0 : Fin 1)) * v22 (ix2 p (0 : Fin 1)) + ∑ c : Fin 512, k1_pay11 v3 v5 v12 (ix2 p c) := by
  unfold k1_pay12
  show shapeCast S1024x1 (addf (mulf (k1_pay10 v3 v5 v12 v16) v22)
      (shapeCast S1024x1 (multiReduction .add [1] S1024 (k1_pay11 v3 v5 v12) 0x00000000#32 reduces_S1024x512_S1024 (.inl rfl) rfl)
        shapeCasts_S1024_S1024x1)) shapeCasts_S1024x1_S1024x1 (ix2 p (0 : Fin 1)) = _
  rw [shapeCast_self]
  show k1_pay10 v3 v5 v12 v16 (ix2 p (0 : Fin 1)) * v22 (ix2 p (0 : Fin 1))
      + shapeCast S1024x1 (multiReduction .add [1] S1024 (k1_pay11 v3 v5 v12) 0x00000000#32 reduces_S1024x512_S1024 (.inl rfl) rfl)
        shapeCasts_S1024_S1024x1 (ix2 p (0 : Fin 1)) = _
  rw [castCol_apply]
  refine congrArg (k1_pay10 v3 v5 v12 v16 (ix2 p (0 : Fin 1)) * v22 (ix2 p (0 : Fin 1)) + ·) ?_
  refine (Ideal.multiReduction_add_single (k1_pay11 v3 v5 v12) 0x00000000#32 reduces_S1024x512_S1024 (.inl rfl) rfl (ix1 p)).trans ?_
  exact Finset.sum_congr rfl fun c _ => congrArg (k1_pay11 v3 v5 v12) (lift_row reduces_S1024x512_S1024 p c)

/-- The new numerator at (p, d), from a value tile, a factor column and a tile of terms. -/
theorem numer_apply (v8 : FVec Ideal S512x1024 .bf16) (v18 : FVec Ideal S1024x1 .f32) (v30 : FVec Ideal S1024x512 .bf16)
    (v32 : Vec Ideal S1024x1024 .f32) (p : Fin 1024) (d : Fin 1024) :
    k1_pay1 v8 v18 v30 (constant (F := Ideal) S1024x1024 .f32 0x00000000#32) v32 (ix2 p d)
      = v18 (ix2 p (0 : Fin 1)) * v32 (ix2 p d) + ∑ c : Fin 512, v30 (ix2 p c) * v8 (ix2 c d) := by
  unfold k1_pay1
  show shapeCast S1024x1024 (addf (mulf (broadcastTo S1024x1024 v18 broadcasts_S1024x1_S1024x1024) v32)
      (matmul dot_S1024x512_S512x1024_S1024x1024_1_0_0_1_n_n none v30 v8 (constant (F := Ideal) S1024x1024 .f32 0x00000000#32)))
      shapeCasts_S1024x1024_S1024x1024 (ix2 p d) = _
  rw [shapeCast_self]
  show broadcastTo S1024x1024 v18 broadcasts_S1024x1_S1024x1024 (ix2 p d) * v32 (ix2 p d)
      + matmul dot_S1024x512_S512x1024_S1024x1024_1_0_0_1_n_n none v30 v8 (constant (F := Ideal) S1024x1024 .f32 0x00000000#32) (ix2 p d) = _
  rw [bcastCol1024_apply, matmul1_apply]

/-- The value tile without its leading unit axis. -/
theorem vblock_apply (v7 : Vec Ideal S1x512x1024 .bf16) (c : Fin 512) (d : Fin 1024) :
    k1_pay7 v7 (ix2 c d) = v7 (ix3 (0 : Fin 1) c d) := by
  unfold k1_pay7
  show shapeCast S512x1024 v7 shapeCasts_S1x512x1024_S512x1024 (ix2 c d) = _
  rw [shapeCast_1ab_ab_apply]

/-- The result block at (0, p, d): the numerator over the denominator of row p. -/
theorem out_apply (v45 : Vec Ideal S1024x1024 .f32) (v46 : Vec Ideal S1024x1 .f32) (p : Fin 1024) (d : Fin 1024) :
    k1_pay3 v45 v46 (ix3 (0 : Fin 1) p d) = Ideal.div (v45 (ix2 p d)) (v46 (ix2 p (0 : Fin 1))) := by
  unfold k1_pay3
  show shapeCast S1x1024x1024 (divf (F := Ideal) (φ := .f32) v45 (broadcastTo S1024x1024 v46 broadcasts_S1024x1_S1024x1024))
      shapeCasts_S1024x1024_S1x1024x1024 (ix3 (0 : Fin 1) p d) = _
  rw [shapeCast_ab_1ab_apply]
  show Ideal.div (v45 (ix2 p d)) (broadcastTo S1024x1024 v46 broadcasts_S1024x1_S1024x1024 (ix2 p d) : EReal) = _
  rw [bcastCol1024_apply]

/-- The first step resets the running maximum to minus infinity … -/
theorem reset_m (p : Fin 1024) : k1_pay4 (F := Ideal) (ix2 p (0 : Fin 1)) = negInf := by
  unfold k1_pay4
  show shapeCast S1024x1 (broadcast S1024x1 (Ideal.ofBits .f32 0xFF800000#32)) shapeCasts_S1024x1_S1024x1 (ix2 p (0 : Fin 1)) = _
  rw [shapeCast_self]
  rfl

/-- … the running denominator to zero … -/
theorem reset_l (p : Fin 1024) : k1_pay5 (F := Ideal) (ix2 p (0 : Fin 1)) = 0 := by
  unfold k1_pay5
  show shapeCast S1024x1 (broadcast S1024x1 (Ideal.ofBits .f32 0x00000000#32)) shapeCasts_S1024x1_S1024x1 (ix2 p (0 : Fin 1)) = _
  rw [shapeCast_self]
  exact Ideal.ofBits_zero_f32

/-- … and the running numerator to zero. -/
theorem reset_a (p : Fin 1024) (d : Fin 1024) : k1_pay6 (F := Ideal) (ix2 p d) = 0 := by
  unfold k1_pay6
  show shapeCast S1024x1024 (broadcast S1024x1024 (Ideal.ofBits .f32 0x00000000#32)) shapeCasts_S1024x1024_S1024x1024 (ix2 p d) = _
  rw [shapeCast_self]
  exact Ideal.ofBits_zero_f32

/-! ## One tile, one row, one column: a step of the recurrence -/

/-- The recurrence's step on a state given by its three components. -/
theorem fstep_mk (s v : Fin 512 → EReal) (m l a : EReal) :
    fstep s v ⟨m, l, a⟩
      = ⟨max m ((Finset.univ : Finset (Fin 512)).fold max negInf s),
         Ideal.exp (m - max m ((Finset.univ : Finset (Fin 512)).fold max negInf s)) * l
           + ∑ c : Fin 512, Ideal.exp (s c - max m ((Finset.univ : Finset (Fin 512)).fold max negInf s)),
         Ideal.exp (m - max m ((Finset.univ : Finset (Fin 512)).fold max negInf s)) * a
           + ∑ c : Fin 512, Ideal.exp (s c - max m ((Finset.univ : Finset (Fin 512)).fold max negInf s)) * v c⟩ := rfl

/-- What the body stores for row p (and column d of the numerator), from the state (m, l, A) it loaded, is the
    recurrence's step on (m(p), l(p), A(p, d)) with the tile's scores of row p and column d of the value tile. -/
theorem step_row (v3 : Vec Ideal S1x1024x1024 .bf16) (v5 : Vec Ideal S1x512x1024 .bf16) (v7 : Vec Ideal S1x512x1024 .bf16) (v12 v22 : Vec Ideal S1024x1 .f32)
    (v32 : Vec Ideal S1024x1024 .f32) (p : Fin 1024) (d : Fin 1024) :
    (⟨k1_pay2 (k1_pay9 v3 v5 v12) (ix2 p (0 : Fin 1)), k1_pay12 v3 v5 v12 v12 v22 (ix2 p (0 : Fin 1)),
      k1_pay1 (k1_pay7 v7) (k1_pay10 v3 v5 v12 v12) (k1_pay13 v3 v5 v12)
        (constant (F := Ideal) S1024x1024 .f32 0x00000000#32) v32 (ix2 p d)⟩ : FState)
      = fstep (fun c : Fin 512 => k1_pay8 v3 v5 (ix2 p c)) (fun c : Fin 512 => v7 (ix3 (0 : Fin 1) c d))
          ⟨v12 (ix2 p (0 : Fin 1)), v22 (ix2 p (0 : Fin 1)), v32 (ix2 p d)⟩ := by
  have hM := max9_apply v3 v5 v12 p
  have hα : k1_pay10 v3 v5 v12 v12 (ix2 p (0 : Fin 1))
      = Ideal.exp (v12 (ix2 p (0 : Fin 1)) - max (v12 (ix2 p (0 : Fin 1))) ((Finset.univ : Finset (Fin 512)).fold max negInf (fun c => k1_pay8 v3 v5 (ix2 p c)))) := by
    rw [alpha_apply, hM]
  have hP : ∀ c : Fin 512, k1_pay11 v3 v5 v12 (ix2 p c)
      = Ideal.exp (k1_pay8 v3 v5 (ix2 p c) - max (v12 (ix2 p (0 : Fin 1))) ((Finset.univ : Finset (Fin 512)).fold max negInf (fun c => k1_pay8 v3 v5 (ix2 p c)))) := fun c => by
    rw [prob_apply, hM]
  have h1 := max_apply v3 v5 v12 p
  have h2 : k1_pay12 v3 v5 v12 v12 v22 (ix2 p (0 : Fin 1))
      = Ideal.exp (v12 (ix2 p (0 : Fin 1)) - max (v12 (ix2 p (0 : Fin 1))) ((Finset.univ : Finset (Fin 512)).fold max negInf (fun c => k1_pay8 v3 v5 (ix2 p c)))) * v22 (ix2 p (0 : Fin 1))
        + ∑ c : Fin 512, Ideal.exp (k1_pay8 v3 v5 (ix2 p c) - max (v12 (ix2 p (0 : Fin 1))) ((Finset.univ : Finset (Fin 512)).fold max negInf (fun c => k1_pay8 v3 v5 (ix2 p c)))) := by
    rw [denom_apply, hα]
    exact congrArg (_ + ·) (Finset.sum_congr rfl fun c _ => hP c)
  have h3 : k1_pay1 (k1_pay7 v7) (k1_pay10 v3 v5 v12 v12) (k1_pay13 v3 v5 v12)
        (constant (F := Ideal) S1024x1024 .f32 0x00000000#32) v32 (ix2 p d)
      = Ideal.exp (v12 (ix2 p (0 : Fin 1)) - max (v12 (ix2 p (0 : Fin 1))) ((Finset.univ : Finset (Fin 512)).fold max negInf (fun c => k1_pay8 v3 v5 (ix2 p c)))) * v32 (ix2 p d)
        + ∑ c : Fin 512, Ideal.exp (k1_pay8 v3 v5 (ix2 p c) - max (v12 (ix2 p (0 : Fin 1))) ((Finset.univ : Finset (Fin 512)).fold max negInf (fun c => k1_pay8 v3 v5 (ix2 p c)))) * v7 (ix3 (0 : Fin 1) c d) := by
    rw [numer_apply, hα]
    exact congrArg (_ + ·) (Finset.sum_congr rfl fun c _ => by rw [prob13_apply, hP c, vblock_apply])
  rw [h1, h2, h3]
  exact (fstep_mk _ _ _ _ _).symm

end Cert.KernelIdeal.PayAt

end
-- ==== Proof.OnlineSoftmax.lean ====
/-
  The online-softmax identity for one attention entry.

  A row of 2048 real scores s and 2048 real values v is consumed in four tiles of 512 keys. The state
  (m, l, a) holds a reference point m and the sums  l = Σ exp (s k - m),  a = Σ exp (s k - m) · v k  over the
  keys seen so far. When a tile raises the reference point from m to m', both sums are multiplied by
  exp (m - m'), which turns every exp (s k - m) into exp (s k - m'), and the tile's own terms are added.
  The quotient a / l does not depend on the reference point, since a common factor exp (m' - m) cancels;
  so after the last tile it is  Σ_k softmax(s)(k) · v k,  the softmax being the same quotient taken at the
  row's maximum (flash_eq).

  The sums are kept over initial segments {0, …, n-1} of the natural numbers, so that a tile appends a
  block of 512 consecutive indices.
-/
import proofs.«153811_j15212774163203_2_alg».proof.Proof.AttnSpec

noncomputable section

open scoped BigOperators

namespace Cert.Attn

open Idealize.ShloMosaic Idealize.ShloMosaic.LastAxisSoftmax

/-- The word of minus infinity denotes the bottom element. -/
theorem negInf_eq_bot : negInf = (⊥ : EReal) := by
  simp [negInf, Ideal.ofBits, Ideal.ieee]

/-- The embedding of the reals commutes with finite sums. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum of a nonempty row of reals, folded from the bottom element, is a real. -/
theorem fold_max_real {n : Nat} (hn : 0 < n) (f : Fin n → ℝ) :
    ∃ M : ℝ, (Finset.univ : Finset (Fin n)).fold max (⊥ : EReal) (fun c => (f c : EReal)) = (M : EReal) := by
  refine ⟨((Finset.univ : Finset (Fin n)).fold max (⊥ : EReal) (fun c => (f c : EReal))).toReal,
    (EReal.coe_toReal ?_ ?_).symm⟩
  · exact ne_of_lt ((Finset.fold_max_lt _).2 ⟨bot_lt_top, fun x _ => EReal.coe_lt_top _⟩)
  · exact ne_of_gt ((Finset.lt_fold_max _).2 (Or.inr ⟨⟨0, hn⟩, Finset.mem_univ _, EReal.bot_lt_coe _⟩))

/-! ## Moving the reference point -/

/-- Over the reals: moving the reference point from M to M' multiplies every term by exp (M - M'). -/
theorem shift_sum (s w : Nat → ℝ) (n : Nat) (M M' : ℝ) :
    Real.exp (M - M') * ∑ k ∈ Finset.range n, Real.exp (s k - M) * w k
      = ∑ k ∈ Finset.range n, Real.exp (s k - M') * w k := by
  rw [Finset.mul_sum]
  refine Finset.sum_congr rfl fun k _ => ?_
  rw [← mul_assoc, ← Real.exp_add]
  congr 2
  ring

/-- The rescaling of a weighted sum by exp (old reference - new reference). Before the first tile the old
    reference is the bottom element, the factor is 0 and the sum is empty. -/
theorem rescale (s w : Nat → ℝ) (n : Nat) (m : EReal) (M M' : ℝ)
    (hm : m = (M : EReal) ∨ (m = ⊥ ∧ n = 0)) :
    Ideal.exp (m - (M' : EReal)) * ((∑ k ∈ Finset.range n, Real.exp (s k - M) * w k : ℝ) : EReal)
      = ((∑ k ∈ Finset.range n, Real.exp (s k - M') * w k : ℝ) : EReal) := by
  rcases hm with rfl | ⟨rfl, rfl⟩
  · rw [← EReal.coe_sub, Ideal.exp_coe, ← EReal.coe_mul, shift_sum]
  · simp

/-- The same for the unweighted sum. -/
theorem rescale_one (s : Nat → ℝ) (n : Nat) (m : EReal) (M M' : ℝ)
    (hm : m = (M : EReal) ∨ (m = ⊥ ∧ n = 0)) :
    Ideal.exp (m - (M' : EReal)) * ((∑ k ∈ Finset.range n, Real.exp (s k - M) : ℝ) : EReal)
      = ((∑ k ∈ Finset.range n, Real.exp (s k - M') : ℝ) : EReal) := by
  have h := rescale s (fun _ => 1) n m M M' hm
  simpa only [mul_one] using h

/-! ## One tile's own terms -/

/-- The weighted terms of a tile that holds keys n, …, n + 511. -/
theorem tile_sum (s w : Nat → ℝ) (n : Nat) (M' : ℝ) (ts tw : Fin 512 → EReal)
    (hts : ∀ c : Fin 512, ts c = (s (n + c.val) : EReal))
    (htw : ∀ c : Fin 512, tw c = (w (n + c.val) : EReal)) :
    ∑ c : Fin 512, Ideal.exp (ts c - (M' : EReal)) * tw c
      = ((∑ i ∈ Finset.range 512, Real.exp (s (n + i) - M') * w (n + i) : ℝ) : EReal) := by
  rw [coe_sum, ← Fin.sum_univ_eq_sum_range
    (fun i => ((Real.exp (s (n + i) - M') * w (n + i) : ℝ) : EReal)) 512]
  refine Finset.sum_congr rfl fun c _ => ?_
  rw [hts, htw, ← EReal.coe_sub, Ideal.exp_coe, ← EReal.coe_mul]

/-- The unweighted terms of a tile that holds keys n, …, n + 511. -/
theorem tile_sum_one (s : Nat → ℝ) (n : Nat) (M' : ℝ) (ts : Fin 512 → EReal)
    (hts : ∀ c : Fin 512, ts c = (s (n + c.val) : EReal)) :
    ∑ c : Fin 512, Ideal.exp (ts c - (M' : EReal))
      = ((∑ i ∈ Finset.range 512, Real.exp (s (n + i) - M') : ℝ) : EReal) := by
  rw [coe_sum, ← Fin.sum_univ_eq_sum_range
    (fun i => ((Real.exp (s (n + i) - M') : ℝ) : EReal)) 512]
  refine Finset.sum_congr rfl fun c _ => ?_
  rw [hts, ← EReal.coe_sub, Ideal.exp_coe]

/-! ## The invariant -/

/-- The state holds the two sums over keys 0, …, n-1 relative to a real reference point M; the stored
    reference is M itself, or the bottom element while no key has been seen. -/
def Partial (s v : Nat → ℝ) (n : Nat) (st : FState) : Prop :=
  ∃ M : ℝ, (st.m = (M : EReal) ∨ (st.m = ⊥ ∧ n = 0)) ∧
    st.l = ((∑ k ∈ Finset.range n, Real.exp (s k - M) : ℝ) : EReal) ∧
    st.a = ((∑ k ∈ Finset.range n, Real.exp (s k - M) * v k : ℝ) : EReal)

/-- Before the first tile the invariant holds with no key seen. -/
theorem finit_partial (s v : Nat → ℝ) : Partial s v 0 finit :=
  ⟨0, Or.inr ⟨negInf_eq_bot, rfl⟩, by simp [finit], by simp [finit]⟩

/-- A tile of 512 real scores and values extends the invariant from n keys to n + 512 keys. -/
theorem fstep_partial (s v : Nat → ℝ) (n : Nat) (ts tv : Fin 512 → EReal)
    (hts : ∀ c : Fin 512, ts c = (s (n + c.val) : EReal))
    (htv : ∀ c : Fin 512, tv c = (v (n + c.val) : EReal))
    (st : FState) (h : Partial s v n st) : Partial s v (n + 512) (fstep ts tv st) := by
  obtain ⟨M, hm, hl, ha⟩ := h
  obtain ⟨T, hT⟩ : ∃ T : ℝ, (Finset.univ : Finset (Fin 512)).fold max negInf ts = (T : EReal) := by
    rw [negInf_eq_bot, show ts = fun c : Fin 512 => ((s (n + c.val) : ℝ) : EReal) from funext hts]
    exact fold_max_real (by norm_num) _
  obtain ⟨M', hM'⟩ : ∃ M' : ℝ, max st.m (T : EReal) = (M' : EReal) := by
    rcases hm with h | ⟨h, _⟩
    · rw [h]
      rcases le_total (M : EReal) (T : EReal) with hle | hle
      · exact ⟨T, max_eq_right hle⟩
      · exact ⟨M, max_eq_left hle⟩
    · exact ⟨T, by rw [h]; exact max_eq_right bot_le⟩
  refine ⟨M', Or.inl ?_, ?_, ?_⟩
  · show max st.m _ = _
    rw [hT, hM']
  · show Ideal.exp (st.m - max st.m _) * st.l + ∑ c : Fin 512, Ideal.exp (ts c - max st.m _) = _
    rw [hT, hM', hl, Finset.sum_range_add, EReal.coe_add, rescale_one s n st.m M M' hm,
      tile_sum_one s n M' ts hts]
  · show Ideal.exp (st.m - max st.m _) * st.a + ∑ c : Fin 512, Ideal.exp (ts c - max st.m _) * tv c = _
    rw [hT, hM', ha, Finset.sum_range_add, EReal.coe_add, rescale s v n st.m M M' hm,
      tile_sum s v n M' ts tv hts htv]

/-- After j ≤ 4 tiles the invariant holds for the first 512·j keys. -/
theorem fstate_partial (S V : Fin 2048 → EReal) (s v : Nat → ℝ)
    (hs : ∀ k : Fin 2048, S k = (s k.val : EReal)) (hv : ∀ k : Fin 2048, V k = (v k.val : EReal)) :
    ∀ j : Nat, j ≤ 4 → Partial s v (j * 512) (fstate S V j) := by
  intro j
  induction j with
  | zero => intro _; rw [Nat.zero_mul]; exact finit_partial s v
  | succ j ih =>
    intro hj
    have h : j < 4 := hj
    have e : fstate S V (j + 1) = fstep (tile S ⟨j, h⟩) (tile V ⟨j, h⟩) (fstate S V j) := by
      simp only [fstate, dif_pos h]
    rw [e, Nat.succ_mul]
    exact fstep_partial s v (j * 512) _ _ (fun c => hs _) (fun c => hv _) _ (ih (Nat.le_of_lt h))

/-! ## The quotient does not depend on the reference point -/

/-- Over the reals: the quotient of the two sums at reference M is the softmax-weighted sum written at any
    other reference M'. -/
theorem quotient_shift (s v : Nat → ℝ) (n : Nat) (M M' : ℝ) :
    (∑ k ∈ Finset.range n, Real.exp (s k - M) * v k) / (∑ k ∈ Finset.range n, Real.exp (s k - M))
      = ∑ k ∈ Finset.range n,
          Real.exp (s k - M') / (∑ j ∈ Finset.range n, Real.exp (s j - M')) * v k := by
  have hA := shift_sum s v n M' M
  have hL := shift_sum s (fun _ => 1) n M' M
  simp only [mul_one] at hL
  rw [← hA, ← hL, mul_div_mul_left _ _ (Real.exp_pos _).ne', Finset.sum_div]
  refine Finset.sum_congr rfl fun k _ => ?_
  ring

/-- The softmax of a row of 2048 reals at key k, as a real quotient at the row's maximum. -/
theorem softmaxAt_real (S : Fin 2048 → EReal) (s : Nat → ℝ)
    (hs : ∀ k : Fin 2048, S k = (s k.val : EReal)) :
    ∃ Mx : ℝ, ∀ k : Fin 2048, softmaxAt S k
      = ((Real.exp (s k.val - Mx) / (∑ j ∈ Finset.range 2048, Real.exp (s j - Mx)) : ℝ) : EReal) := by
  obtain ⟨Mx, hMx⟩ : ∃ Mx : ℝ, (Finset.univ : Finset (Fin 2048)).fold max negInf S = (Mx : EReal) := by
    rw [negInf_eq_bot, show S = fun c : Fin 2048 => ((s c.val : ℝ) : EReal) from funext hs]
    exact fold_max_real (by norm_num) _
  refine ⟨Mx, fun k => ?_⟩
  have hD : (∑ j : Fin 2048, Ideal.exp (S j - (Mx : EReal)))
      = ((∑ j ∈ Finset.range 2048, Real.exp (s j - Mx) : ℝ) : EReal) := by
    rw [coe_sum, ← Fin.sum_univ_eq_sum_range (fun i => ((Real.exp (s i - Mx) : ℝ) : EReal)) 2048]
    refine Finset.sum_congr rfl fun c _ => ?_
    rw [hs, ← EReal.coe_sub, Ideal.exp_coe]
  have hpos : (0 : ℝ) < ∑ j ∈ Finset.range 2048, Real.exp (s j - Mx) :=
    Finset.sum_pos (fun _ _ => Real.exp_pos _) ⟨0, by simp⟩
  unfold softmaxAt
  rw [hMx, hD, Ideal.div_coe hpos.ne', hs, ← EReal.coe_sub, Ideal.exp_coe, ← EReal.coe_mul,
    one_div, div_eq_mul_inv]

/-! ## The identity -/

/-- Four tiles of online accumulation, then one division, give the softmax-weighted sum of the values. -/
theorem flash_eq (S V : Fin 2048 → EReal) (hS : ∀ k, ∃ r : ℝ, S k = (r : EReal))
    (hV : ∀ k, ∃ r : ℝ, V k = (r : EReal)) :
    Ideal.div (frun S V).a (frun S V).l = ∑ k : Fin 2048, softmaxAt S k * V k := by
  choose s0 hs0 using hS
  choose v0 hv0 using hV
  let s : Nat → ℝ := fun n => if h : n < 2048 then s0 ⟨n, h⟩ else 0
  let v : Nat → ℝ := fun n => if h : n < 2048 then v0 ⟨n, h⟩ else 0
  have hs : ∀ k : Fin 2048, S k = (s k.val : EReal) := fun k => by
    rw [hs0 k]; simp only [s, dif_pos k.isLt]
  have hv : ∀ k : Fin 2048, V k = (v k.val : EReal) := fun k => by
    rw [hv0 k]; simp only [v, dif_pos k.isLt]
  obtain ⟨M, _, hl, ha⟩ := fstate_partial S V s v hs hv 4 le_rfl
  obtain ⟨Mx, hsm⟩ := softmaxAt_real S s hs
  have hpos : (0 : ℝ) < ∑ k ∈ Finset.range (4 * 512), Real.exp (s k - M) :=
    Finset.sum_pos (fun _ _ => Real.exp_pos _) ⟨0, by simp⟩
  show Ideal.div (fstate S V 4).a (fstate S V 4).l = _
  rw [hl, ha, Ideal.div_coe hpos.ne', ← EReal.coe_mul, one_div, ← div_eq_mul_inv,
    quotient_shift s v (4 * 512) M Mx, coe_sum,
    ← Fin.sum_univ_eq_sum_range (fun i => ((Real.exp (s i - Mx)
      / (∑ j ∈ Finset.range (4 * 512), Real.exp (s j - Mx)) * v i : ℝ) : EReal)) (4 * 512)]
  refine Finset.sum_congr rfl fun k _ => ?_
  rw [hsm k, hv k, ← EReal.coe_mul]

end Cert.Attn

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«153811_j15212774163203_2_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.LibHostSoftmax3.lean ====
/-
  Softmax along the last axis of a rank-3 array as a host program writes it, read at an index, on the
  extended reals.

  On an array [a, b, c] the host program takes the maximum over axis 2 from the word of minus infinity,
  joins it once more with minus infinity (which changes nothing), spreads it back through [a, b, 1] to
  [a, b, c], subtracts, exponentiates, sums over axis 2 from zero, spreads the sum back the same way and
  divides (`hostSoftmax3`). Read at (p, g, l) it is `softmaxAt` of the row (p, g, ·) at `l`
  (`hostSoftmax3_apply`). The only laws used are max b (fold max b f) = fold max b f and 0 + s = s.
-/
import proofs.«153811_j15212774163203_2_alg».proof.Proof.LibLastAxisSoftmax

noncomputable section

open scoped BigOperators

namespace Idealize.ShloMosaic.LastAxisSoftmax

open Idealize.ShloMosaic Idealize.ShloMosaic.ValueIdx

section Host3
variable {n0 n1 n2 : Nat}

/-- A reduced array [a, b], broadcast to [a, b, 1] and then along the unit axis to [a, b, c], reads at
    (p, g, l) what it held at (p, g). -/
theorem keepdims3_host_apply {α : Type} (v : (⟨2, ![n0, n1]⟩ : Shape).Idx → α)
    (h1 : (⟨2, ![n0, n1]⟩ : Shape).BroadcastsInDim ⟨3, ![n0, n1, 1]⟩ (![0, 1] : Fin 2 → Fin 3))
    (h2 : (⟨3, ![n0, n1, 1]⟩ : Shape).BroadcastsInDim ⟨3, ![n0, n1, n2]⟩ (![0, 1, 2] : Fin 3 → Fin 3))
    (p : Fin n0) (g : Fin n1) (l : Fin n2) :
    broadcastInDim ⟨3, ![n0, n1, n2]⟩ ![0, 1, 2] h2 (broadcastInDim ⟨3, ![n0, n1, 1]⟩ ![0, 1] h1 v) (ix3 p g l)
      = v (ix2 p g) := by
  rw [broadcastInDim_apply _ h2 _ (ix3 p g l) (ix3 p g (⟨0, Nat.one_pos⟩ : Fin 1)) (fun d => by
    match d with
    | ⟨0, _⟩ =>
      show p.val = if n0 = 1 then 0 else p.val
      split
      · have := p.isLt; omega
      · rfl
    | ⟨1, _⟩ =>
      show g.val = if n1 = 1 then 0 else g.val
      split
      · have := g.isLt; omega
      · rfl
    | ⟨2, _⟩ =>
      show 0 = if (1 : Nat) = 1 then 0 else l.val
      rw [if_pos rfl])]
  exact broadcastInDim_apply _ h1 v _ (ix2 p g) (fun d => by
    match d with
    | ⟨0, _⟩ =>
      show p.val = if n0 = 1 then 0 else p.val
      split
      · have := p.isLt; omega
      · rfl
    | ⟨1, _⟩ =>
      show g.val = if n1 = 1 then 0 else g.val
      split
      · have := g.isLt; omega
      · rfl)

variable {F : FTy → Type} [FloatOps F]

/-- The host program: the maximum over axis 2 joined with minus infinity, subtracted, exponentiated, divided by
    the sum over axis 2 (from zero). -/
def hostSoftmax3 (X : FVec F ⟨3, ![n0, n1, n2]⟩ .f32)
    (hred : (⟨3, ![n0, n1, n2]⟩ : Shape).ReducesTo [2] ⟨2, ![n0, n1]⟩)
    (hu : 0 < (⟨0, ![]⟩ : Shape).numel)
    (h0 : (⟨0, ![]⟩ : Shape).BroadcastsInDim ⟨2, ![n0, n1]⟩ (![] : Fin 0 → Fin 2))
    (h1 : (⟨2, ![n0, n1]⟩ : Shape).BroadcastsInDim ⟨3, ![n0, n1, 1]⟩ (![0, 1] : Fin 2 → Fin 3))
    (h2 : (⟨3, ![n0, n1, 1]⟩ : Shape).BroadcastsInDim ⟨3, ![n0, n1, n2]⟩ (![0, 1, 2] : Fin 3 → Fin 3)) :
    FVec F ⟨3, ![n0, n1, n2]⟩ .f32 :=
  Host.divf
    (Host.exp (subf X (broadcastInDim ⟨3, ![n0, n1, n2]⟩ ![0, 1, 2] h2 (broadcastInDim ⟨3, ![n0, n1, 1]⟩ ![0, 1] h1
      (maximumf (broadcastInDim ⟨2, ![n0, n1]⟩ ![] h0 (constant ⟨0, ![]⟩ .f32 0xFF800000#32))
        (Host.reduce FloatOps.maximumf X (constant ⟨0, ![]⟩ .f32 0xFF800000#32) hred hu))))))
    (broadcastInDim ⟨3, ![n0, n1, n2]⟩ ![0, 1, 2] h2 (broadcastInDim ⟨3, ![n0, n1, 1]⟩ ![0, 1] h1
      (Host.reduceAdd
        (Host.exp (subf X (broadcastInDim ⟨3, ![n0, n1, n2]⟩ ![0, 1, 2] h2 (broadcastInDim ⟨3, ![n0, n1, 1]⟩ ![0, 1] h1
          (maximumf (broadcastInDim ⟨2, ![n0, n1]⟩ ![] h0 (constant ⟨0, ![]⟩ .f32 0xFF800000#32))
            (Host.reduce FloatOps.maximumf X (constant ⟨0, ![]⟩ .f32 0xFF800000#32) hred hu))))))
        (constant ⟨0, ![]⟩ .f32 0x00000000#32) hred hu)))

end Host3

/-- Read at (p, g, l), the host program is the softmax of row (p, g, ·) at `l`. -/
theorem hostSoftmax3_apply {n0 n1 n2 : Nat} (X : FVec Ideal ⟨3, ![n0, n1, n2]⟩ .f32)
    (hred : (⟨3, ![n0, n1, n2]⟩ : Shape).ReducesTo [2] ⟨2, ![n0, n1]⟩)
    (hr : (⟨3, ![n0, n1, n2]⟩ : Shape).Reduces [2] ⟨2, ![n0, n1]⟩)
    (hu : 0 < (⟨0, ![]⟩ : Shape).numel)
    (h0 : (⟨0, ![]⟩ : Shape).BroadcastsInDim ⟨2, ![n0, n1]⟩ (![] : Fin 0 → Fin 2))
    (h1 : (⟨2, ![n0, n1]⟩ : Shape).BroadcastsInDim ⟨3, ![n0, n1, 1]⟩ (![0, 1] : Fin 2 → Fin 3))
    (h2 : (⟨3, ![n0, n1, 1]⟩ : Shape).BroadcastsInDim ⟨3, ![n0, n1, n2]⟩ (![0, 1, 2] : Fin 3 → Fin 3))
    (p : Fin n0) (g : Fin n1) (l : Fin n2) :
    hostSoftmax3 (F := Ideal) X hred hu h0 h1 h2 (ix3 p g l) = softmaxAt (fun k : Fin n2 => X (ix3 p g k)) l := by
  -- the maximum at (p, g): joining the fold from minus infinity with minus infinity changes nothing
  have hM : maximumf (broadcastInDim ⟨2, ![n0, n1]⟩ ![] h0 (constant (F := Ideal) ⟨0, ![]⟩ .f32 0xFF800000#32))
        (Host.reduce FloatOps.maximumf X (constant (F := Ideal) ⟨0, ![]⟩ .f32 0xFF800000#32) hred hu) (ix2 p g)
      = (Finset.univ : Finset (Fin n2)).fold max negInf (fun k : Fin n2 => X (ix3 p g k)) := by
    show max (broadcastInDim ⟨2, ![n0, n1]⟩ ![] h0 (constant (F := Ideal) ⟨0, ![]⟩ .f32 0xFF800000#32) (ix2 p g))
        (Host.reduce FloatOps.maximumf X (constant (F := Ideal) ⟨0, ![]⟩ .f32 0xFF800000#32) hred hu (ix2 p g)) = _
    rw [Host.reduce_eq_fold_single FloatOps.maximumf X _ hred hr hu (ix2 p g),
      broadcastInDim_apply _ h0 _ (ix2 p g) ix0 (fun d => d.elim0)]
    show max negInf (Finset.univ.fold max negInf (X ∘ hr.lift (ix2 p g))) = _
    rw [max_eq_right ((Finset.le_fold_max _).2 (Or.inl le_rfl))]
    exact congrArg (fun f : Fin n2 → EReal => (Finset.univ : Finset (Fin n2)).fold max negInf f)
      (funext fun k => congrArg X (lift3 hr p g k))
  -- the exponentials at (p, g, k)
  have hE : ∀ k : Fin n2,
      Host.exp (subf X (broadcastInDim ⟨3, ![n0, n1, n2]⟩ ![0, 1, 2] h2 (broadcastInDim ⟨3, ![n0, n1, 1]⟩ ![0, 1] h1
          (maximumf (broadcastInDim ⟨2, ![n0, n1]⟩ ![] h0 (constant (F := Ideal) ⟨0, ![]⟩ .f32 0xFF800000#32))
            (Host.reduce FloatOps.maximumf X (constant (F := Ideal) ⟨0, ![]⟩ .f32 0xFF800000#32) hred hu))))) (ix3 p g k)
      = Ideal.exp (X (ix3 p g k) - (Finset.univ : Finset (Fin n2)).fold max negInf (fun k : Fin n2 => X (ix3 p g k))) := by
    intro k
    show Ideal.exp (X (ix3 p g k) - broadcastInDim ⟨3, ![n0, n1, n2]⟩ ![0, 1, 2] h2 (broadcastInDim ⟨3, ![n0, n1, 1]⟩ ![0, 1] h1
          (maximumf (broadcastInDim ⟨2, ![n0, n1]⟩ ![] h0 (constant (F := Ideal) ⟨0, ![]⟩ .f32 0xFF800000#32))
            (Host.reduce FloatOps.maximumf X (constant (F := Ideal) ⟨0, ![]⟩ .f32 0xFF800000#32) hred hu))) (ix3 p g k)) = _
    rw [keepdims3_host_apply, hM]
  unfold hostSoftmax3 softmaxAt
  show Ideal.div _ _ = _
  rw [hE l, keepdims3_host_apply]
  refine congrArg (Ideal.div _) ?_
  show Ideal.hostReduceAdd hred _ (Ideal.ofBits .f32 0x00000000#32) (ix2 p g) = _
  rw [Ideal.hostReduceAdd_single hred hr, Ideal.ofBits_zero_f32, zero_add]
  exact Finset.sum_congr rfl fun k _ => by rw [lift3 hr p g k, hE k]

end Idealize.ShloMosaic.LastAxisSoftmax

end
-- ==== Proof.RefIsAttn.lean ====
/-
  The reference program computes single-head attention.

  The reference program forms the three projections x·Wq, x·Wk, x·Wv, the batched inner products of query and
  key rows, divides them by the square root of the word 0x44800000 (which denotes 1024, so the divisor is 32),
  takes the softmax along the key axis and multiplies by the value projections. Read index by index over the
  extended reals, its result is the specification `Cert.Attn.attn`.

  Dividing by 32 and multiplying by the word 0x3D000000 (which denotes 1/32) agree for EVERY extended real,
  the infinities included, so no finiteness of the inputs is used anywhere here.
-/
import proofs.«153811_j15212774163203_2_alg».proof.Proof.AttnSpec
import proofs.«153811_j15212774163203_2_alg».proof.Proof.LibHostSoftmax3
import proofs.«153811_j15212774163203_2_alg».proof.Proof.Gen.ReferenceIdeal.Read

noncomputable section

open scoped BigOperators

namespace Cert.ReferenceIdeal.RefValue

open Cert.ReferenceIdeal Cert.ReferenceIdeal.Gen Idealize.ShloMosaic Idealize.ShloMosaic.ValueIdx
  Idealize.ShloMosaic.LastAxisSoftmax Cert.Attn

/-! ## The two float words -/

/-- The word 0x44800000 denotes 1024. -/
theorem k1024_word : Ideal.ofBits .f32 0x44800000#32 = ((1024 : ℝ) : EReal) := by
  simp [Ideal.ofBits, Ideal.ieee, -EReal.coe_mul]; norm_num

/-- The word 0x3D000000 denotes 1/32. -/
theorem scale_word : Ideal.ofBits .f32 0x3D000000#32 = ((1 / 32 : ℝ) : EReal) := by
  simp [Ideal.ofBits, Ideal.ieee, -EReal.coe_mul]; norm_num

/-- The square root of 1024 is 32. -/
theorem sqrt_1024 : Real.sqrt 1024 = 32 := by
  rw [show (1024 : ℝ) = 32 ^ 2 by norm_num, Real.sqrt_sq (by norm_num)]

/-- Dividing by the square root of the word of 1024 is multiplying by the word of 1/32, for every extended real. -/
theorem div_sqrt_k1024 (x : EReal) :
    Ideal.div x (Ideal.sqrt (Ideal.ofBits .f32 0x44800000#32)) = x * Ideal.ofBits .f32 0x3D000000#32 := by
  rw [k1024_word, scale_word, Ideal.sqrt_coe, if_neg (by norm_num), sqrt_1024,
    Ideal.div_coe (by norm_num : (32 : ℝ) ≠ 0)]

/-! ## The three projections -/

/-- The query projection x·Wq at (b, s, e). -/
theorem v0_eq_proj (x0 : (⟨S8x2048x1024, .f32⟩ : BufTy).Contents (Elt Ideal))
    (w : (⟨S1024x1024, .f32⟩ : BufTy).Contents (Elt Ideal)) (b : Fin 8) (s : Fin 2048) (e : Fin 1024) :
    Read.val_main_v0 (F := Ideal) x0 w (ix3 b s e) = proj x0 w b s e := by
  rw [Read.val_main_v0_apply]
  unfold proj
  refine Finset.sum_congr rfl fun k _ => ?_
  rw [show Read.lidx_main_v0 (ix3 b s e) k = ix3 b s k from
      funext fun a => Fin.ext (by match a with | ⟨0, _⟩ => rfl | ⟨1, _⟩ => rfl | ⟨2, _⟩ => rfl),
    show Read.ridx_main_v0 (ix3 b s e) k = ix2 k e from
      funext fun a => Fin.ext (by match a with | ⟨0, _⟩ => rfl | ⟨1, _⟩ => rfl)]

/-- The key projection x·Wk at (b, s, e). -/
theorem v1_eq_proj (x0 : (⟨S8x2048x1024, .f32⟩ : BufTy).Contents (Elt Ideal))
    (w : (⟨S1024x1024, .f32⟩ : BufTy).Contents (Elt Ideal)) (b : Fin 8) (s : Fin 2048) (e : Fin 1024) :
    Read.val_main_v1 (F := Ideal) x0 w (ix3 b s e) = proj x0 w b s e := by
  rw [Read.val_main_v1_apply]
  unfold proj
  refine Finset.sum_congr rfl fun k _ => ?_
  rw [show Read.lidx_main_v1 (ix3 b s e) k = ix3 b s k from
      funext fun a => Fin.ext (by match a with | ⟨0, _⟩ => rfl | ⟨1, _⟩ => rfl | ⟨2, _⟩ => rfl),
    show Read.ridx_main_v1 (ix3 b s e) k = ix2 k e from
      funext fun a => Fin.ext (by match a with | ⟨0, _⟩ => rfl | ⟨1, _⟩ => rfl)]

/-- The value projection x·Wv at (b, s, e). -/
theorem v2_eq_proj (x0 : (⟨S8x2048x1024, .f32⟩ : BufTy).Contents (Elt Ideal))
    (w : (⟨S1024x1024, .f32⟩ : BufTy).Contents (Elt Ideal)) (b : Fin 8) (s : Fin 2048) (e : Fin 1024) :
    Read.val_main_v2 (F := Ideal) x0 w (ix3 b s e) = proj x0 w b s e := by
  rw [Read.val_main_v2_apply]
  unfold proj
  refine Finset.sum_congr rfl fun k _ => ?_
  rw [show Read.lidx_main_v2 (ix3 b s e) k = ix3 b s k from
      funext fun a => Fin.ext (by match a with | ⟨0, _⟩ => rfl | ⟨1, _⟩ => rfl | ⟨2, _⟩ => rfl),
    show Read.ridx_main_v2 (ix3 b s e) k = ix2 k e from
      funext fun a => Fin.ext (by match a with | ⟨0, _⟩ => rfl | ⟨1, _⟩ => rfl)]

/-! ## The scores -/

/-- The batched inner product of query row q and key row k of batch b. -/
theorem v3_eq_dot (x0 : (⟨S8x2048x1024, .f32⟩ : BufTy).Contents (Elt Ideal))
    (x1 x2 : (⟨S1024x1024, .f32⟩ : BufTy).Contents (Elt Ideal)) (b : Fin 8) (q k : Fin 2048) :
    Read.val_main_v3 (F := Ideal) x0 x1 x2 (ix3 b q k) = ∑ e : Fin 1024, proj x0 x1 b q e * proj x0 x2 b k e := by
  rw [Read.val_main_v3_apply]
  refine Finset.sum_congr rfl fun e _ => ?_
  rw [show Read.lidx_main_v3 (ix3 b q k) e = ix3 b q e from
      funext fun a => Fin.ext (by match a with | ⟨0, _⟩ => rfl | ⟨1, _⟩ => rfl | ⟨2, _⟩ => rfl),
    show Read.ridx_main_v3 (ix3 b q k) e = ix3 b k e from
      funext fun a => Fin.ext (by match a with | ⟨0, _⟩ => rfl | ⟨1, _⟩ => rfl | ⟨2, _⟩ => rfl),
    v0_eq_proj, v1_eq_proj]

/-- The divisor, spread over the score array: the square root of the word of 1024 at every index. -/
theorem v5_eq_sqrt (i : S8x2048x2048.Idx) :
    Read.val_main_v5 (F := Ideal) i = Ideal.sqrt (Ideal.ofBits .f32 0x44800000#32) := by
  rw [Read.val_main_v5_apply, Read.val_main_v4_apply, Read.val_main_cst_apply]
  rfl

/-- The scaled score at (b, q, k). -/
theorem v6_eq_score (x0 : (⟨S8x2048x1024, .f32⟩ : BufTy).Contents (Elt Ideal))
    (x1 x2 : (⟨S1024x1024, .f32⟩ : BufTy).Contents (Elt Ideal)) (b : Fin 8) (q k : Fin 2048) :
    Read.val_main_v6 (F := Ideal) x0 x1 x2 (ix3 b q k) = score x0 x1 x2 b q k := by
  rw [Read.val_main_v6_apply, v5_eq_sqrt, v3_eq_dot]
  show Ideal.div _ _ = _
  rw [div_sqrt_k1024]
  rfl

/-! ## The softmax -/

/-- The ten operations from the maximum to the quotient are the host softmax of the score array. -/
theorem v17_eq_hostSoftmax3 (x0 : (⟨S8x2048x1024, .f32⟩ : BufTy).Contents (Elt Ideal))
    (x1 x2 : (⟨S1024x1024, .f32⟩ : BufTy).Contents (Elt Ideal)) :
    Read.val_main_v17 (F := Ideal) x0 x1 x2
      = hostSoftmax3 (F := Ideal) (n0 := 8) (n1 := 2048) (n2 := 2048) (Read.val_main_v6 (F := Ideal) x0 x1 x2)
          reducesTo_S8x2048x2048_S8x2048_d2 h_S_ bcast_S_S8x2048 bcast_S8x2048_S8x2048x1_0_1
          bcast_S8x2048x1_S8x2048x2048_0_1_2 := rfl

/-- The softmax weight of key k for query row (b, q). -/
theorem v17_eq_softmaxAt (x0 : (⟨S8x2048x1024, .f32⟩ : BufTy).Contents (Elt Ideal))
    (x1 x2 : (⟨S1024x1024, .f32⟩ : BufTy).Contents (Elt Ideal)) (b : Fin 8) (q k : Fin 2048) :
    Read.val_main_v17 (F := Ideal) x0 x1 x2 (ix3 b q k)
      = softmaxAt (fun k' : Fin 2048 => score x0 x1 x2 b q k') k := by
  rw [v17_eq_hostSoftmax3, hostSoftmax3_apply _ _ (by decide)]
  exact congrArg (fun f : Fin 2048 → EReal => softmaxAt f k) (funext fun k' => v6_eq_score x0 x1 x2 b q k')

/-! ## The result -/

/-- The reference program's result is the attention output. -/
theorem ref_eq_attn (x0 : (⟨S8x2048x1024, .f32⟩ : BufTy).Contents (Elt Ideal))
    (x1 x2 x3 : (⟨S1024x1024, .f32⟩ : BufTy).Contents (Elt Ideal)) :
    Cert.ReferenceIdeal.Read.val_main_v18 (F := Ideal) x0 x1 x2 x3 = Cert.Attn.attn x0 x1 x2 x3 := by
  funext i
  obtain ⟨b, q, d, rfl⟩ : ∃ (b : Fin 8) (q : Fin 2048) (d : Fin 1024), i = ix3 b q d :=
    ⟨i 0, i 1, i 2, eq_ix3 i⟩
  rw [Read.val_main_v18_apply, attn_ix3]
  unfold attnAt
  refine Finset.sum_congr rfl fun k _ => ?_
  rw [show Read.lidx_main_v18 (ix3 b q d) k = ix3 b q k from
      funext fun a => Fin.ext (by match a with | ⟨0, _⟩ => rfl | ⟨1, _⟩ => rfl | ⟨2, _⟩ => rfl),
    show Read.ridx_main_v18 (ix3 b q d) k = ix3 b k d from
      funext fun a => Fin.ext (by match a with | ⟨0, _⟩ => rfl | ⟨1, _⟩ => rfl | ⟨2, _⟩ => rfl),
    v17_eq_softmaxAt, v2_eq_proj]

end Cert.ReferenceIdeal.RefValue

end
-- ==== Proof.RealInputs.lean ====
/-
  The inputs are real-valued, and so are the projections and the scores.

  The precondition of the certificate is the conjunction of four tests, one per argument array: the absolute
  value of every entry is below plus infinity. Over the extended reals |x| = max x (-x), the word 0x7F800000
  denotes the top element, and max x (-x) < top holds of the real numbers only (for the bottom element the
  maximum is the top element too). So a precondition that came out true says that each of the four arrays is
  real-valued (real_of_pre).

  A projection entry is a finite sum of products of entries, and a score is a finite sum of products of
  projection entries times the word 0x3D000000, which denotes 1/32: both are real when the arrays are
  (proj_real, score_real).
-/
import proofs.«153811_j15212774163203_2_alg».proof.Proof.LibFiniteTest
import proofs.«153811_j15212774163203_2_alg».proof.Proof.RefIsAttn
import proofs.«153811_j15212774163203_2_alg».proof.Proof.Gen.Pre_finite_inputs
import proofs.«153811_j15212774163203_2_alg».proof.KernelIdeal

noncomputable section

open scoped BigOperators

namespace Cert.KernelIdeal.RealIn

open Idealize.ShloMosaic Cert.Lib.RealValued Cert.Lib.FiniteTest

/-- There is one index of rank 0. -/
instance subsingleton_S_ : Subsingleton Cert.Pre_finite_inputs.S_.Idx :=
  ⟨fun _ _ => funext fun d => d.elim0⟩

/-- The precondition, true, makes each of the four argument arrays real-valued: its value at the one index
    of rank 0 is the conjunction of the four tests, and each test that holds makes its array real-valued. -/
theorem real_of_pre [Cert.Pre_finite_inputs.Facts]
    (x0 : (⟨Cert.KernelIdeal.S8x2048x1024, .f32⟩ : BufTy).Contents (Elt Ideal))
    (x1 x2 x3 : (⟨Cert.KernelIdeal.S1024x1024, .f32⟩ : BufTy).Contents (Elt Ideal))
    (h : Cert.Pre_finite_inputs.fn (F := Ideal) x0 x1 x2 x3 = (fun _ => 1#1)) :
    (∀ i, ∃ r : ℝ, x0 i = (r : EReal)) ∧ (∀ i, ∃ r : ℝ, x1 i = (r : EReal)) ∧
      (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1, andi] at h0
  rw [IntOp.andi_eq_one, IntOp.andi_eq_one, IntOp.andi_eq_one] at h0
  obtain ⟨⟨⟨e0, e1⟩, e2⟩, e3⟩ := h0
  exact ⟨allReal_of_all x0 _ _ _ _ _ _ e0, allReal_of_all x1 _ _ _ _ _ _ e1,
    allReal_of_all x2 _ _ _ _ _ _ e2, allReal_of_all x3 _ _ _ _ _ _ e3⟩

end Cert.KernelIdeal.RealIn

namespace Cert.Attn

open Idealize.ShloMosaic Cert.Lib.RealValued

/-- A projection entry of real-valued arrays is a real: a finite sum of products. -/
theorem proj_real (x : SX.Idx → EReal) (w : SW.Idx → EReal)
    (hx : ∀ i, ∃ r : ℝ, x i = (r : EReal)) (hw : ∀ i, ∃ r : ℝ, w i = (r : EReal))
    (b : Fin 8) (s : Fin 2048) (e : Fin 1024) : ∃ r : ℝ, proj x w b s e = (r : EReal) := by
  unfold proj
  exact IsReal.sum _ _ fun d _ => IsReal.mul (hx _) (hw _)

/-- A score of real-valued arrays is a real: a finite sum of products of projection entries, times 1/32. -/
theorem score_real (x : SX.Idx → EReal) (wq wk : SW.Idx → EReal)
    (hx : ∀ i, ∃ r : ℝ, x i = (r : EReal)) (hq : ∀ i, ∃ r : ℝ, wq i = (r : EReal))
    (hk : ∀ i, ∃ r : ℝ, wk i = (r : EReal)) (b : Fin 8) (q k : Fin 2048) :
    ∃ r : ℝ, score x wq wk b q k = (r : EReal) := by
  unfold score
  rw [Cert.ReferenceIdeal.RefValue.scale_word]
  exact IsReal.mul
    (IsReal.sum _ _ fun e _ => IsReal.mul (proj_real x wq hx hq b q e) (proj_real x wk hx hk b k e))
    (IsReal.coe _)

end Cert.Attn

end
-- ==== Proof.Bridge.lean ====
/-
  Three facts that join the kernel's two stages to the specification.

  (1) The first stage leaves one array Y : [8, 2048, 3072], a reshaping of the product of the activations
  a : [16384, 1024] (the input x : [8, 2048, 1024] with its two leading axes merged, row b·2048 + s being row (b, s))
  and the panel w : [1024, 3072] (the three weight matrices side by side). Its columns 0 … 1023 are the query
  projection, 1024 … 2047 the key projection, 2048 … 3071 the value projection (`qkv_q`, `qkv_k`, `qkv_v`).

  (2) For real-valued inputs, four tiles of online accumulation over the scores of a query row and a column of the
  value projection, followed by one division, give the attention output at that entry (`flash_attn`).

  (3) A sequence of states indexed by grid position, which restarts from the initial state at every position
  divisible by 4 and otherwise advances the previous position's state by tile (position mod 4), the rows it accumulates
  over not changing inside a group of four, is the tile recurrence: at position n it is the state after tiles
  0 … n mod 4 (`fstate_of_steps`), and at the last position of a group it is the state after all four (`frun_of_steps`).
-/
import proofs.«153811_j15212774163203_2_alg».proof.Proof.OnlineSoftmax
import proofs.«153811_j15212774163203_2_alg».proof.Proof.RealInputs
import proofs.«153811_j15212774163203_2_alg».proof.Proof.Region0Value

noncomputable section

open scoped BigOperators

namespace Cert.Attn

open Idealize.ShloMosaic Idealize.ShloMosaic.ValueIdx Idealize.ShloMosaic.LastAxisSoftmax Cert.KernelIdeal

/-! ## The fused projection array as the three projections -/

/-- Entry (b, s, j) of the fused array is row (b, s) of the input against column j of the panel. -/
theorem fused_col (Y3 : S8x2048x3072.Idx → EReal) (Y2 : S16384x3072.Idx → EReal) (a : S16384x1024.Idx → EReal)
    (w : S1024x3072.Idx → EReal) (x : SX.Idx → EReal)
    (h4 : ∀ (b : Fin 8) (s : Fin 2048) (j : Fin 3072),
      Y3 (ix3 b s j) = Y2 (ix2 (⟨b.val * 2048 + s.val, by have := b.isLt; have := s.isLt; omega⟩ : Fin 16384) j))
    (h3 : Y2 = Cert.KernelIdeal.R0Value.prod0 a w)
    (h0 : ∀ (r : Fin 16384) (k : Fin 1024), a (ix2 r k)
      = x (ix3 (⟨r.val / 2048, by have := r.isLt; omega⟩ : Fin 8) (⟨r.val % 2048, Nat.mod_lt _ (by norm_num)⟩ : Fin 2048) k))
    (b : Fin 8) (s : Fin 2048) (j : Fin 3072) :
    Y3 (ix3 b s j) = ∑ k : Fin 1024, x (ix3 b s k) * w (ix2 k j) := by
  rw [h4, h3, Cert.KernelIdeal.R0Value.prod0_ix2]
  refine Finset.sum_congr rfl fun k _ => ?_
  rw [h0]
  have hs := s.isLt
  refine congrArg₂ (fun (p : Fin 8) (q : Fin 2048) => x (ix3 p q k) * w (ix2 k j)) (Fin.ext ?_) (Fin.ext ?_)
  · show (b.val * 2048 + s.val) / 2048 = b.val
    omega
  · show (b.val * 2048 + s.val) % 2048 = s.val
    omega

/-- Columns 0 … 1023 of the fused array are the query projection. -/
theorem qkv_q (Y3 : S8x2048x3072.Idx → EReal) (Y2 : S16384x3072.Idx → EReal) (a : S16384x1024.Idx → EReal)
    (w : S1024x3072.Idx → EReal) (x : SX.Idx → EReal) (wq : SW.Idx → EReal)
    (h4 : ∀ (b : Fin 8) (s : Fin 2048) (j : Fin 3072),
      Y3 (ix3 b s j) = Y2 (ix2 (⟨b.val * 2048 + s.val, by have := b.isLt; have := s.isLt; omega⟩ : Fin 16384) j))
    (h3 : Y2 = Cert.KernelIdeal.R0Value.prod0 a w)
    (h0 : ∀ (r : Fin 16384) (k : Fin 1024), a (ix2 r k)
      = x (ix3 (⟨r.val / 2048, by have := r.isLt; omega⟩ : Fin 8) (⟨r.val % 2048, Nat.mod_lt _ (by norm_num)⟩ : Fin 2048) k))
    (hq : ∀ k e : Fin 1024, w (ix2 k (⟨e.val, by have := e.isLt; omega⟩ : Fin 3072)) = wq (ix2 k e))
    (b : Fin 8) (s : Fin 2048) (e : Fin 1024) :
    Y3 (ix3 b s (⟨e.val, by have := e.isLt; omega⟩ : Fin 3072)) = proj x wq b s e := by
  rw [fused_col Y3 Y2 a w x h4 h3 h0]
  unfold proj
  exact Finset.sum_congr rfl fun k _ => by rw [hq]

/-- Columns 1024 … 2047 of the fused array are the key projection. -/
theorem qkv_k (Y3 : S8x2048x3072.Idx → EReal) (Y2 : S16384x3072.Idx → EReal) (a : S16384x1024.Idx → EReal)
    (w : S1024x3072.Idx → EReal) (x : SX.Idx → EReal) (wk : SW.Idx → EReal)
    (h4 : ∀ (b : Fin 8) (s : Fin 2048) (j : Fin 3072),
      Y3 (ix3 b s j) = Y2 (ix2 (⟨b.val * 2048 + s.val, by have := b.isLt; have := s.isLt; omega⟩ : Fin 16384) j))
    (h3 : Y2 = Cert.KernelIdeal.R0Value.prod0 a w)
    (h0 : ∀ (r : Fin 16384) (k : Fin 1024), a (ix2 r k)
      = x (ix3 (⟨r.val / 2048, by have := r.isLt; omega⟩ : Fin 8) (⟨r.val % 2048, Nat.mod_lt _ (by norm_num)⟩ : Fin 2048) k))
    (hk : ∀ k e : Fin 1024, w (ix2 k (⟨1024 + e.val, by have := e.isLt; omega⟩ : Fin 3072)) = wk (ix2 k e))
    (b : Fin 8) (s : Fin 2048) (e : Fin 1024) :
    Y3 (ix3 b s (⟨1024 + e.val, by have := e.isLt; omega⟩ : Fin 3072)) = proj x wk b s e := by
  rw [fused_col Y3 Y2 a w x h4 h3 h0]
  unfold proj
  exact Finset.sum_congr rfl fun k _ => by rw [hk]

/-- Columns 2048 … 3071 of the fused array are the value projection. -/
theorem qkv_v (Y3 : S8x2048x3072.Idx → EReal) (Y2 : S16384x3072.Idx → EReal) (a : S16384x1024.Idx → EReal)
    (w : S1024x3072.Idx → EReal) (x : SX.Idx → EReal) (wv : SW.Idx → EReal)
    (h4 : ∀ (b : Fin 8) (s : Fin 2048) (j : Fin 3072),
      Y3 (ix3 b s j) = Y2 (ix2 (⟨b.val * 2048 + s.val, by have := b.isLt; have := s.isLt; omega⟩ : Fin 16384) j))
    (h3 : Y2 = Cert.KernelIdeal.R0Value.prod0 a w)
    (h0 : ∀ (r : Fin 16384) (k : Fin 1024), a (ix2 r k)
      = x (ix3 (⟨r.val / 2048, by have := r.isLt; omega⟩ : Fin 8) (⟨r.val % 2048, Nat.mod_lt _ (by norm_num)⟩ : Fin 2048) k))
    (hv : ∀ k e : Fin 1024, w (ix2 k (⟨2048 + e.val, by have := e.isLt; omega⟩ : Fin 3072)) = wv (ix2 k e))
    (b : Fin 8) (s : Fin 2048) (e : Fin 1024) :
    Y3 (ix3 b s (⟨2048 + e.val, by have := e.isLt; omega⟩ : Fin 3072)) = proj x wv b s e := by
  rw [fused_col Y3 Y2 a w x h4 h3 h0]
  unfold proj
  exact Finset.sum_congr rfl fun k _ => by rw [hv]

/-! ## Online accumulation gives the attention output -/

/-- For real-valued inputs, the running numerator over the running denominator after the four tiles of scores of query
    row (b, q) and of column d of the value projection is the attention output at (b, q, d). -/
theorem flash_attn (x : SX.Idx → EReal) (wq wk wv : SW.Idx → EReal)
    (hx : ∀ i, ∃ r : ℝ, x i = (r : EReal)) (hq : ∀ i, ∃ r : ℝ, wq i = (r : EReal))
    (hk : ∀ i, ∃ r : ℝ, wk i = (r : EReal)) (hv : ∀ i, ∃ r : ℝ, wv i = (r : EReal))
    (b : Fin 8) (q : Fin 2048) (d : Fin 1024) :
    Ideal.div (frun (fun k => score x wq wk b q k) (fun k => proj x wv b k d)).a
        (frun (fun k => score x wq wk b q k) (fun k => proj x wv b k d)).l
      = attnAt x wq wk wv b q d := by
  rw [flash_eq _ _ (fun k => score_real x wq wk hx hq hk b q k) (fun k => proj_real x wv hx hv b k d)]
  rfl

/-! ## A sequence of steps over the grid is the tile recurrence -/

/-- One more tile. -/
theorem fstate_succ (S V : Fin 2048 → EReal) (j : Nat) (h : j < 4) :
    fstate S V (j + 1) = fstep (tile S ⟨j, h⟩) (tile V ⟨j, h⟩) (fstate S V j) := by
  rw [fstate, dif_pos h]

/-- The same with the tile's number given as an element of Fin 4. -/
theorem fstep_fstate (S V : Fin 2048 → EReal) (j : Nat) (h : j < 4) (j' : Fin 4) (hj : j'.val = j) :
    fstep (tile S j') (tile V j') (fstate S V j) = fstate S V (j + 1) := by
  obtain rfl : j' = ⟨j, h⟩ := Fin.ext hj
  exact (fstate_succ S V j h).symm

/-- States that restart at every position divisible by 4 and otherwise advance the previous position's state by tile
    (position mod 4), over rows that do not change inside a group of four: at position n, the state after tiles
    0 … n mod 4 of position n's rows. -/
theorem fstate_of_steps (st : ℕ → FState) (S Vc : ℕ → Fin 2048 → EReal)
    (hfirst : ∀ n, n % 4 = 0 → st n = fstep (tile (S n) ⟨0, by norm_num⟩) (tile (Vc n) ⟨0, by norm_num⟩) finit)
    (hnext : ∀ n (h : n % 4 ≠ 0), st n = fstep (tile (S n) ⟨n % 4, Nat.mod_lt _ (by norm_num)⟩)
      (tile (Vc n) ⟨n % 4, Nat.mod_lt _ (by norm_num)⟩) (st (n - 1)))
    (hS : ∀ n, n % 4 ≠ 0 → S (n - 1) = S n) (hV : ∀ n, n % 4 ≠ 0 → Vc (n - 1) = Vc n) :
    ∀ n, st n = fstate (S n) (Vc n) (n % 4 + 1) := by
  have first : ∀ n, n % 4 = 0 → st n = fstate (S n) (Vc n) (n % 4 + 1) := fun n h => by
    rw [hfirst n h]
    exact (fstep_fstate (S n) (Vc n) 0 (by norm_num) ⟨0, by norm_num⟩ rfl).trans
      (congrArg (fstate (S n) (Vc n)) (by omega))
  intro n
  induction n with
  | zero => exact first 0 rfl
  | succ m ih =>
    by_cases h : (m + 1) % 4 = 0
    · exact first (m + 1) h
    · have hm : (m + 1) % 4 = m % 4 + 1 := by omega
      rw [hnext (m + 1) h, Nat.add_sub_cancel, ih]
      have eS : S m = S (m + 1) := hS (m + 1) h
      have eV : Vc m = Vc (m + 1) := hV (m + 1) h
      rw [eS, eV]
      exact (fstep_fstate (S (m + 1)) (Vc (m + 1)) (m % 4 + 1) (by omega) ⟨(m + 1) % 4, Nat.mod_lt _ (by norm_num)⟩ hm).trans
        (congrArg (fstate (S (m + 1)) (Vc (m + 1))) (by omega))

/-- At the last position of a group of four, the state after all four tiles. -/
theorem frun_of_steps (st : ℕ → FState) (S Vc : ℕ → Fin 2048 → EReal)
    (hfirst : ∀ n, n % 4 = 0 → st n = fstep (tile (S n) ⟨0, by norm_num⟩) (tile (Vc n) ⟨0, by norm_num⟩) finit)
    (hnext : ∀ n (h : n % 4 ≠ 0), st n = fstep (tile (S n) ⟨n % 4, Nat.mod_lt _ (by norm_num)⟩)
      (tile (Vc n) ⟨n % 4, Nat.mod_lt _ (by norm_num)⟩) (st (n - 1)))
    (hS : ∀ n, n % 4 ≠ 0 → S (n - 1) = S n) (hV : ∀ n, n % 4 ≠ 0 → Vc (n - 1) = Vc n)
    (n : ℕ) (hn : n % 4 = 3) : st n = frun (S n) (Vc n) :=
  (fstate_of_steps st S Vc hfirst hnext hS hV n).trans (congrArg (fstate (S n) (Vc n)) (by omega))

end Cert.Attn

end
-- ==== Proof.Region1Value.lean ====
/-
  What the attention kernel leaves in its output array, at the ideal instance, as one function of the fused projection
  array Y = [queries | keys | values] : [8, 2048, 3072] the region finds.

  Fix a batch b, a query row q and a feature column d. The scores of that row against the 2048 keys are
  Srow Y b q k = (Σ_e Y(b,q,e) · Y(b,k,1024+e)) · (1/32), the values of the column are Vcol Y b d k = Y(b,k,2048+d).
  The grid point t = (b·2 + q/1024)·4 + j handles key tile j. Row p = q mod 1024 of the scratch buffers holds, after
  point t, the state of the tile-by-tile recurrence after tiles 0 … j (`state_at`, by induction on the point: at key
  tile 0 one step from the reset values, later one step from the point before). At key tile 3 the output block's entry
  (p, d) is numerator / denominator of the state after all four tiles (`out_at`), and the blocks written back at the
  points with j = 3 tile the output array (`final1`).
-/
import proofs.«153811_j15212774163203_2_alg».proof.Proof.Region1State
import proofs.«153811_j15212774163203_2_alg».proof.Proof.Region1Blocks
import proofs.«153811_j15212774163203_2_alg».proof.Proof.PayloadsAt
import proofs.«153811_j15212774163203_2_alg».proof.Proof.Bridge

noncomputable section

open scoped BigOperators

namespace Cert.KernelIdeal.R1Value

open Cert.KernelIdeal Cert.KernelIdeal.Gen Idealize.ShloMosaic Idealize.ShloMosaic.TcCoe Idealize.SL.Sem Idealize.ShloMosaic.ValueIdx
  Idealize.ShloMosaic.LastAxisSoftmax Cert.Attn Cert.KernelIdeal.PayAt Cert.KernelIdeal.R1Blocks

/-- The scores of query row (b, q) against every key, read off the fused array. -/
def Srow (Y : S8x2048x3072.Idx → EReal) (b : Fin 8) (q : Fin 2048) : Fin 2048 → EReal := fun k =>
  (∑ e : Fin 1024, Y (ix3 b q (⟨e.val, by have := e.isLt; omega⟩ : Fin 3072)) * Y (ix3 b k (⟨1024 + e.val, by have := e.isLt; omega⟩ : Fin 3072)))
    * Ideal.ofBits .f32 0x3D000000#32

/-- Column d of the values of batch b, read off the fused array. -/
def Vcol (Y : S8x2048x3072.Idx → EReal) (b : Fin 8) (d : Fin 1024) : Fin 2048 → EReal := fun k =>
  Y (ix3 b k (⟨2048 + d.val, by have := d.isLt; omega⟩ : Fin 3072))

/-- Entry (b, q, d) of the output: numerator over denominator after the four key tiles. -/
def gAt (Y : S8x2048x3072.Idx → EReal) (b : Fin 8) (q : Fin 2048) (d : Fin 1024) : EReal :=
  Ideal.div (frun (Srow Y b q) (Vcol Y b d)).a (frun (Srow Y b q) (Vcol Y b d)).l

/-- The output array as one function of the fused array. -/
def G (Y : S8x2048x3072.Idx → EReal) : S8x2048x1024.Idx → EReal := fun i =>
  gAt Y ⟨(i 0).val, (i 0).isLt⟩ ⟨(i 1).val, (i 1).isLt⟩ ⟨(i 2).val, (i 2).isLt⟩

theorem gAt_congr (Y : S8x2048x3072.Idx → EReal) {b b' : Fin 8} {q q' : Fin 2048} {d d' : Fin 1024}
    (hb : b.val = b'.val) (hq : q.val = q'.val) (hd : d.val = d'.val) : gAt Y b q d = gAt Y b' q' d' := by
  obtain rfl := Fin.ext hb; obtain rfl := Fin.ext hq; obtain rfl := Fin.ext hd; rfl

/-- The batch of grid point n, and the query row that row p of its query tile is. -/
def bOf (n : ℕ) (h : n < 64) : Fin 8 := ⟨n / 8, by omega⟩
def qOf (n : ℕ) (p : Fin 1024) : Fin 2048 := ⟨n / 4 % 2 * 1024 + p.val, by have := p.isLt; omega⟩

theorem bOf_succ (n : ℕ) (h : n + 1 < 64) (h' : n < 64) (h0 : ¬(n + 1) % 4 = 0) : bOf (n + 1) h = bOf n h' := by
  unfold bOf; apply Fin.ext; show (n + 1) / 8 = n / 8; omega
theorem qOf_succ (n : ℕ) (p : Fin 1024) (h0 : ¬(n + 1) % 4 = 0) : qOf (n + 1) p = qOf n p := by
  unfold qOf; apply Fin.ext; show (n + 1) / 4 % 2 * 1024 + p.val = n / 4 % 2 * 1024 + p.val; omega

section
variable (V : (c : Dev nD) → (b : Ref sig .tc) → Buf (Elt Ideal) ((c : Thread nD τ).loc b)) (c : Dev nD)

/-- The fused projection array as the region finds it. -/
def Yof : S8x2048x3072.Idx → EReal := V c main_v4

/-- One grid point advances row p of the scratch buffers by one step of the recurrence, on the point's key tile. -/
theorem step_at (t : Fin cfg1.N) (ht : t.val < 64) (p d : Fin 1024) (m l : Vec Ideal S1024x1 .f32) (a : Vec Ideal S1024x1024 .f32) :
    (⟨stepM (iblk1 V c 0 t) (iblk1 V c 1 t) m (ix2 p (0 : Fin 1)), stepL (iblk1 V c 0 t) (iblk1 V c 1 t) m l (ix2 p (0 : Fin 1)),
      stepA (iblk1 V c 0 t) (iblk1 V c 1 t) (iblk1 V c 2 t) m a (ix2 p d)⟩ : FState)
    = fstep (tile (Srow (Yof V c) (bOf t.val ht) (qOf t.val p)) ⟨t.val % 4, Nat.mod_lt _ (by norm_num)⟩)
        (tile (Vcol (Yof V c) (bOf t.val ht) d) ⟨t.val % 4, Nat.mod_lt _ (by norm_num)⟩)
        ⟨m (ix2 p (0 : Fin 1)), l (ix2 p (0 : Fin 1)), a (ix2 p d)⟩ := by
  unfold stepM stepL stepA
  refine (step_row (iblk1 V c 0 t) (iblk1 V c 1 t) (iblk1 V c 2 t) m l a p d).trans ?_
  congr 1
  · funext cc
    rw [score_apply (iblk1 V c 0 t) (iblk1 V c 1 t) p cc]
    unfold tile Srow
    congr 1
    refine Finset.sum_congr rfl fun e _ => ?_
    congr 1
    · exact qblk_apply V c t p e _ rfl rfl rfl
    · exact kblk_apply V c t cc e _ rfl rfl rfl
  · funext cc
    unfold tile Vcol
    exact vblk_apply V c t cc d _ rfl rfl rfl

/-- Row p of the scratch buffers after grid point n: the recurrence after key tiles 0 … n mod 4 of the row's scores. -/
theorem state_at (n : ℕ) (hn : n < cfg1.N) (h64 : n < 64) (p d : Fin 1024) :
    (⟨(outsAt1 V c n hn).2.1 (ix2 p (0 : Fin 1)), (outsAt1 V c n hn).2.2.1 (ix2 p (0 : Fin 1)), (outsAt1 V c n hn).2.2.2 (ix2 p d)⟩ : FState)
    = fstate (Srow (Yof V c) (bOf n h64) (qOf n p)) (Vcol (Yof V c) (bOf n h64) d) (n % 4 + 1) := by
  induction n with
  | zero =>
    obtain ⟨e0, e1, e2⟩ := outsAt1_first V c ⟨0, hn⟩ rfl
    rw [e0, e1, e2]
    refine (step_at V c ⟨0, hn⟩ h64 p d _ _ _).trans ?_
    rw [reset_m, reset_l, reset_a]
    exact fstep_fstate _ _ 0 (by norm_num) _ rfl
  | succ n ih =>
    have hn' : n < cfg1.N := Nat.lt_of_succ_lt hn
    have h64' : n < 64 := Nat.lt_of_succ_lt h64
    by_cases h0 : (n + 1) % 4 = 0
    · obtain ⟨e0, e1, e2⟩ := outsAt1_first V c ⟨n + 1, hn⟩ h0
      rw [e0, e1, e2]
      refine (step_at V c ⟨n + 1, hn⟩ h64 p d _ _ _).trans ?_
      rw [reset_m, reset_l, reset_a]
      have hj : (n + 1) % 4 + 1 = 0 + 1 := by omega
      rw [hj]
      exact fstep_fstate _ _ 0 (by norm_num) _ (by show (n + 1) % 4 = 0; exact h0)
    · obtain ⟨e0, e1, e2⟩ := outsAt1_next V c ⟨n + 1, hn⟩ h0
      rw [e0, e1, e2]
      refine (step_at V c ⟨n + 1, hn⟩ h64 p d _ _ _).trans ?_
      have ih' := ih hn' h64'
      rw [show (⟨(outsAt1 V c ((⟨n + 1, hn⟩ : Fin cfg1.N).val - 1) (Nat.lt_of_le_of_lt (Nat.sub_le _ _) (⟨n + 1, hn⟩ : Fin cfg1.N).isLt)).2.1 (ix2 p (0 : Fin 1)),
            (outsAt1 V c ((⟨n + 1, hn⟩ : Fin cfg1.N).val - 1) (Nat.lt_of_le_of_lt (Nat.sub_le _ _) (⟨n + 1, hn⟩ : Fin cfg1.N).isLt)).2.2.1 (ix2 p (0 : Fin 1)),
            (outsAt1 V c ((⟨n + 1, hn⟩ : Fin cfg1.N).val - 1) (Nat.lt_of_le_of_lt (Nat.sub_le _ _) (⟨n + 1, hn⟩ : Fin cfg1.N).isLt)).2.2.2 (ix2 p d)⟩ : FState)
          = fstate (Srow (Yof V c) (bOf n h64') (qOf n p)) (Vcol (Yof V c) (bOf n h64') d) (n % 4 + 1) from ih']
      rw [bOf_succ n h64 h64' h0, qOf_succ n p h0]
      have hj : (n + 1) % 4 + 1 = (n % 4 + 1) + 1 := by omega
      rw [hj]
      exact fstep_fstate _ _ (n % 4 + 1) (by omega) _ (by show (n + 1) % 4 = n % 4 + 1; omega)

/-- At key tile 3 the output block's entry (p, d) is the output function at the block's place in the array. -/
theorem out_at (t : Fin cfg1.N) (h3 : t.val % 4 = 3) (ht : t.val < 64) (p d : Fin 1024) :
    (show Vec Ideal S1x1024x1024 .f32 from (dat1 (F := Ideal) V c).after 3 t) (ix3 (0 : Fin 1) p d)
      = gAt (Yof V c) (bOf t.val ht) (qOf t.val p) d := by
  rw [after1_3, outsAt1_out V c t h3]
  refine (out_apply _ _ p d).trans ?_
  have hs := state_at V c t.val t.isLt ht p d
  have hj : t.val % 4 + 1 = 4 := by omega
  rw [hj] at hs
  unfold gAt frun
  rw [← hs]

/-- The output array after the region: the output function of the fused array. -/
theorem final1 : (dat1 (F := Ideal) V c).arrAt 3 cfg1.N = G (Yof V c) := by
  refine final1_of V c (G (Yof V c)) fun t h3 j => ?_
  have ht : t.val < 64 := lt_of_lt_of_eq t.isLt N_1
  obtain ⟨z, p, d, rfl⟩ : ∃ (z : Fin 1) (p d : Fin 1024), j = ix3 z p d := ⟨j 0, j 1, j 2, eq_ix3 j⟩
  obtain rfl : z = 0 := Subsingleton.elim _ _
  refine (out_at V c t h3 ht p d).trans ?_
  obtain ⟨e0, e1, e2⟩ := emb3_val t (ix3 (0 : Fin 1) p d)
  exact gAt_congr (Yof V c) e0.symm e1.symm e2.symm

end

end Cert.KernelIdeal.R1Value

end
-- ==== Proof.HostStretches.lean ====
/-
  The two stretches of host operations of the kernel program, read at an index over the extended reals.

  Before the first region the program reshapes the input [8, 2048, 1024] to [16384, 1024] (row r of the
  result is row r mod 2048 of batch r / 2048), lays the three weight matrices [1024, 1024] side by side
  along axis 1 into one matrix [1024, 3072] (columns 0 … 1023 are the first matrix, 1024 … 2047 the second,
  2048 … 3071 the third), and narrows that matrix to a shorter float format, which over the extended reals
  changes nothing. Between the two regions it reshapes the projected rows [16384, 3072] back to
  [8, 2048, 3072] (row s of batch b is row 2048·b + s).

  A reshape keeps the row-major position of every entry, so the statements about the two reshapes are the
  arithmetic of those positions; the statement about the concatenation names the piece whose span of columns
  holds the column read.
-/
import proofs.«153811_j15212774163203_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostAt

open Cert.KernelIdeal Cert.KernelIdeal.Gen Idealize.ShloMosaic Idealize.ShloMosaic.ValueIdx
open Idealize.ShloMosaic.StableHlo

/-! ## The first stretch: the reshaped input -/

/-- After the first stretch the array main_v0 is the input, reshaped. -/
theorem v0_eq (W : Valuation τ sig (Elt Ideal)) :
    (StableHlo.after (hostOps0 (F := Ideal)) W (Proc.devRef .tc main_v0) : S16384x1024.Idx → EReal)
      = shapeCast S16384x1024 (W (Proc.devRef .tc main_arg0) : S8x2048x1024.Idx → EReal)
          shapeCasts_S8x2048x1024_S16384x1024 := by
  after_results
  rfl

/-- Row r of main_v0 is row r mod 2048 of batch r / 2048 of the input. -/
theorem v0_at (W : Valuation τ sig (Elt Ideal)) (r : Fin 16384) (k : Fin 1024) :
    (StableHlo.after (hostOps0 (F := Ideal)) W (Proc.devRef .tc main_v0) : S16384x1024.Idx → EReal) (ix2 r k)
      = (W (Proc.devRef .tc main_arg0) : S8x2048x1024.Idx → EReal)
          (ix3 (⟨r.val / 2048, by have := r.isLt; omega⟩ : Fin 8)
            (⟨r.val % 2048, by omega⟩ : Fin 2048) k) := by
  rw [v0_eq]
  refine shapeCast_apply (s := S8x2048x1024) (t := S16384x1024) _ _ _ _ ?_
  rw [Shape.rowMajor_val_three, Shape.rowMajor_val_two]
  show (r.val / 2048 * 2048 + r.val % 2048) * 1024 + k.val = r.val * 1024 + k.val
  omega

/-! ## The first stretch: the three weight matrices side by side -/

/-- After the first stretch the array main_v2 is the concatenation of the three weight matrices along
    axis 1: the narrowing of the float format is the identity over the extended reals. -/
theorem v2_eq (W : Valuation τ sig (Elt Ideal)) :
    (StableHlo.after (hostOps0 (F := Ideal)) W (Proc.devRef .tc main_v2) : S1024x3072.Idx → EReal)
      = concatenate S1024x3072 1
          [⟨S1024x1024, (W (Proc.devRef .tc main_arg1) : S1024x1024.Idx → EReal)⟩,
           ⟨S1024x1024, (W (Proc.devRef .tc main_arg2) : S1024x1024.Idx → EReal)⟩,
           ⟨S1024x1024, (W (Proc.devRef .tc main_arg3) : S1024x1024.Idx → EReal)⟩]
          concatenates_S1024x1024_S1024x1024_S1024x1024_S1024x3072_d1 := by
  after_results
  dsimp only [Matrix.cons_val]
  repeat (rw [reshape_result_ne]; rotate_left; decide)
  rfl

/-- The off-axis coordinate of a column read: the row is kept. -/
private theorem row_kept (k : Fin 1024) (j : Fin 3072) (e : Fin 1024) :
    ∀ b : Fin S1024x1024.rank, b.cast (rfl : S1024x1024.rank = S1024x3072.rank) ≠ (1 : Fin S1024x3072.rank) →
      ((ix2 k e : S1024x1024.Idx) b).val = ((ix2 k j : S1024x3072.Idx) (b.cast rfl)).val
  | ⟨0, _⟩, _ => rfl
  | ⟨1, _⟩, hb => absurd rfl hb

/-- A column of main_v2 in the first span is that column of the first weight matrix. -/
theorem v2_piece1 (W : Valuation τ sig (Elt Ideal)) (k : Fin 1024) (j : Fin 3072) (e : Fin 1024)
    (h : 0 + e.val = j.val) :
    (StableHlo.after (hostOps0 (F := Ideal)) W (Proc.devRef .tc main_v2) : S1024x3072.Idx → EReal) (ix2 k j)
      = (W (Proc.devRef .tc main_arg1) : S1024x1024.Idx → EReal) (ix2 k e) := by
  rw [v2_eq]
  exact concatenate_apply_piece 1 _ _ (ix2 k j) 0 (by show (0 : Nat) < 3; omega) S1024x1024 _ rfl rfl 0 rfl (ix2 k e)
    (row_kept k j e) h

/-- A column of main_v2 in the second span is that column less 1024 of the second weight matrix. -/
theorem v2_piece2 (W : Valuation τ sig (Elt Ideal)) (k : Fin 1024) (j : Fin 3072) (e : Fin 1024)
    (h : 1024 + e.val = j.val) :
    (StableHlo.after (hostOps0 (F := Ideal)) W (Proc.devRef .tc main_v2) : S1024x3072.Idx → EReal) (ix2 k j)
      = (W (Proc.devRef .tc main_arg2) : S1024x1024.Idx → EReal) (ix2 k e) := by
  rw [v2_eq]
  exact concatenate_apply_piece 1 _ _ (ix2 k j) 1 (by show (1 : Nat) < 3; omega) S1024x1024 _ rfl rfl 1024 rfl (ix2 k e)
    (row_kept k j e) h

/-- A column of main_v2 in the third span is that column less 2048 of the third weight matrix. -/
theorem v2_piece3 (W : Valuation τ sig (Elt Ideal)) (k : Fin 1024) (j : Fin 3072) (e : Fin 1024)
    (h : 2048 + e.val = j.val) :
    (StableHlo.after (hostOps0 (F := Ideal)) W (Proc.devRef .tc main_v2) : S1024x3072.Idx → EReal) (ix2 k j)
      = (W (Proc.devRef .tc main_arg3) : S1024x1024.Idx → EReal) (ix2 k e) := by
  rw [v2_eq]
  exact concatenate_apply_piece 1 _ _ (ix2 k j) 2 (by show (2 : Nat) < 3; omega) S1024x1024 _ rfl rfl 2048 rfl (ix2 k e)
    (row_kept k j e) h

/-- Entry (k, j) of main_v2, by the span that holds column j. -/
theorem v2_at (W : Valuation τ sig (Elt Ideal)) (k : Fin 1024) (j : Fin 3072) :
    (StableHlo.after (hostOps0 (F := Ideal)) W (Proc.devRef .tc main_v2) : S1024x3072.Idx → EReal) (ix2 k j)
      = if h1 : j.val < 1024 then
          (W (Proc.devRef .tc main_arg1) : S1024x1024.Idx → EReal) (ix2 k ⟨j.val, h1⟩)
        else if h2 : j.val < 2048 then
          (W (Proc.devRef .tc main_arg2) : S1024x1024.Idx → EReal) (ix2 k ⟨j.val - 1024, by omega⟩)
        else
          (W (Proc.devRef .tc main_arg3) : S1024x1024.Idx → EReal)
            (ix2 k ⟨j.val - 2048, by have := j.isLt; omega⟩) := by
  have hj := j.isLt
  split_ifs with h1 h2
  · exact v2_piece1 W k j ⟨j.val, h1⟩ (Nat.zero_add _)
  · exact v2_piece2 W k j ⟨j.val - 1024, by omega⟩ (by show 1024 + (j.val - 1024) = j.val; omega)
  · exact v2_piece3 W k j ⟨j.val - 2048, by omega⟩ (by show 2048 + (j.val - 2048) = j.val; omega)

/-- Column e of main_v2 is column e of the first weight matrix. -/
theorem v2_q (W : Valuation τ sig (Elt Ideal)) (k e : Fin 1024) :
    (StableHlo.after (hostOps0 (F := Ideal)) W (Proc.devRef .tc main_v2) : S1024x3072.Idx → EReal)
        (ix2 k (⟨e.val, by have := e.isLt; omega⟩ : Fin 3072))
      = (W (Proc.devRef .tc main_arg1) : S1024x1024.Idx → EReal) (ix2 k e) :=
  v2_piece1 W k _ e (Nat.zero_add _)

/-- Column 1024 + e of main_v2 is column e of the second weight matrix. -/
theorem v2_k (W : Valuation τ sig (Elt Ideal)) (k e : Fin 1024) :
    (StableHlo.after (hostOps0 (F := Ideal)) W (Proc.devRef .tc main_v2) : S1024x3072.Idx → EReal)
        (ix2 k (⟨1024 + e.val, by have := e.isLt; omega⟩ : Fin 3072))
      = (W (Proc.devRef .tc main_arg2) : S1024x1024.Idx → EReal) (ix2 k e) :=
  v2_piece2 W k _ e rfl

/-- Column 2048 + e of main_v2 is column e of the third weight matrix. -/
theorem v2_v (W : Valuation τ sig (Elt Ideal)) (k e : Fin 1024) :
    (StableHlo.after (hostOps0 (F := Ideal)) W (Proc.devRef .tc main_v2) : S1024x3072.Idx → EReal)
        (ix2 k (⟨2048 + e.val, by have := e.isLt; omega⟩ : Fin 3072))
      = (W (Proc.devRef .tc main_arg3) : S1024x1024.Idx → EReal) (ix2 k e) :=
  v2_piece3 W k _ e rfl

/-! ## The second stretch: the projected rows by batch -/

/-- After the second stretch the array main_v4 is the array main_v3, reshaped. -/
theorem v4_eq (W : Valuation τ sig (Elt Ideal)) :
    (StableHlo.after (hostOps1 (F := Ideal)) W (Proc.devRef .tc main_v4) : S8x2048x3072.Idx → EReal)
      = shapeCast S8x2048x3072 (W (Proc.devRef .tc main_v3) : S16384x3072.Idx → EReal)
          shapeCasts_S16384x3072_S8x2048x3072 := by
  after_results
  rfl

/-- Row s of batch b of main_v4 is row 2048·b + s of main_v3. -/
theorem v4_at (W : Valuation τ sig (Elt Ideal)) (b : Fin 8) (s : Fin 2048) (j : Fin 3072) :
    (StableHlo.after (hostOps1 (F := Ideal)) W (Proc.devRef .tc main_v4) : S8x2048x3072.Idx → EReal) (ix3 b s j)
      = (W (Proc.devRef .tc main_v3) : S16384x3072.Idx → EReal)
          (ix2 (⟨b.val * 2048 + s.val, by have := b.isLt; have := s.isLt; omega⟩ : Fin 16384) j) := by
  rw [v4_eq]
  refine shapeCast_apply (s := S16384x3072) (t := S8x2048x3072) _ _ _ _ ?_
  rw [Shape.rowMajor_val_two, Shape.rowMajor_val_three]
  rfl

end Cert.KernelIdeal.HostAt

end
-- ==== Proof.KernelIsAttn.lean ====
/-
  The idealized kernel's result is the attention function of its four arguments.

  Region 0 leaves in its output array the product of the reshaped activations with the three weight matrices packed
  side by side; reshaped back to [8, 2048, 3072] its three column panels are the query, key and value projections of
  the input rows. Read through those, the scores and the value columns the attention region works from are the
  specification's `score` and `proj`, and — the inputs being finite — the tile-by-tile quotient it stores is the
  softmax-weighted sum `attnAt` (the online-softmax identity).
-/
import proofs.«153811_j15212774163203_2_alg».proof.Proof.RunAll
import proofs.«153811_j15212774163203_2_alg».proof.Proof.Region0Value
import proofs.«153811_j15212774163203_2_alg».proof.Proof.Region1Value
import proofs.«153811_j15212774163203_2_alg».proof.Proof.HostStretches
import proofs.«153811_j15212774163203_2_alg».proof.Proof.Bridge
import proofs.«153811_j15212774163203_2_alg».proof.Proof.RealInputs

noncomputable section

open scoped BigOperators

namespace Cert.KernelIdeal.KValue

open Cert.KernelIdeal Cert.KernelIdeal.Gen Idealize.ShloMosaic Idealize.ShloMosaic.TcCoe Idealize.SL.Sem Idealize.ShloMosaic.ValueIdx
  Cert.Attn Cert.KernelIdeal.R0Value Cert.KernelIdeal.R1Value Cert.KernelIdeal.HostAt

variable (m : (ℓ : Loc nD τ sig) → Buf (Elt Ideal) ℓ) (ρ : Dev nD → PrngReg) (c : Dev nD)

/-- The four arguments as launched, as arrays of extended reals. -/
def xOf : SX.Idx → EReal := m ((c.tc : Thread nD τ).loc main_arg0)
def wqOf : SW.Idx → EReal := m ((c.tc : Thread nD τ).loc main_arg1)
def wkOf : SW.Idx → EReal := m ((c.tc : Thread nD τ).loc main_arg2)
def wvOf : SW.Idx → EReal := m ((c.tc : Thread nD τ).loc main_arg3)

/-- The reshaped activations and the packed weights region 0 reads, and what it leaves. -/
def aOf : S16384x1024.Idx → EReal := V1 m ρ c main_v0
def wOf : S1024x3072.Idx → EReal := V1 m ρ c main_v2
def y2Of : S16384x3072.Idx → EReal := W2 m ρ c (Proc.devRef .tc main_v3)

theorem y2_eq : y2Of m ρ c = prod0 (aOf m ρ c) (wOf m ρ c) :=
  (W2_arr m ρ c 2).trans (final0 (V1 m ρ) c)

theorem y3_at (b : Fin 8) (s : Fin 2048) (j : Fin 3072) :
    Yof (V3 m ρ) c (ix3 b s j) = y2Of m ρ c (ix2 (⟨b.val * 2048 + s.val, by have := b.isLt; have := s.isLt; omega⟩ : Fin 16384) j) :=
  v4_at (W2 m ρ c) b s j

theorem a_at (r : Fin 16384) (k : Fin 1024) :
    aOf m ρ c (ix2 r k) = xOf m c (ix3 (⟨r.val / 2048, by have := r.isLt; omega⟩ : Fin 8) (⟨r.val % 2048, Nat.mod_lt _ (by norm_num)⟩ : Fin 2048) k) :=
  v0_at (W0 m ρ c) r k

theorem w_q (k e : Fin 1024) : wOf m ρ c (ix2 k (⟨e.val, by have := e.isLt; omega⟩ : Fin 3072)) = wqOf m c (ix2 k e) := v2_q (W0 m ρ c) k e
theorem w_k (k e : Fin 1024) : wOf m ρ c (ix2 k (⟨1024 + e.val, by have := e.isLt; omega⟩ : Fin 3072)) = wkOf m c (ix2 k e) := v2_k (W0 m ρ c) k e
theorem w_v (k e : Fin 1024) : wOf m ρ c (ix2 k (⟨2048 + e.val, by have := e.isLt; omega⟩ : Fin 3072)) = wvOf m c (ix2 k e) := v2_v (W0 m ρ c) k e

/-- The three column panels of the fused array are the three projections. -/
theorem Y_q (b : Fin 8) (s : Fin 2048) (e : Fin 1024) :
    Yof (V3 m ρ) c (ix3 b s (⟨e.val, by have := e.isLt; omega⟩ : Fin 3072)) = proj (xOf m c) (wqOf m c) b s e :=
  qkv_q _ _ _ _ _ _ (y3_at m ρ c) (y2_eq m ρ c) (a_at m ρ c) (w_q m ρ c) b s e
theorem Y_k (b : Fin 8) (s : Fin 2048) (e : Fin 1024) :
    Yof (V3 m ρ) c (ix3 b s (⟨1024 + e.val, by have := e.isLt; omega⟩ : Fin 3072)) = proj (xOf m c) (wkOf m c) b s e :=
  qkv_k _ _ _ _ _ _ (y3_at m ρ c) (y2_eq m ρ c) (a_at m ρ c) (w_k m ρ c) b s e
theorem Y_v (b : Fin 8) (s : Fin 2048) (e : Fin 1024) :
    Yof (V3 m ρ) c (ix3 b s (⟨2048 + e.val, by have := e.isLt; omega⟩ : Fin 3072)) = proj (xOf m c) (wvOf m c) b s e :=
  qkv_v _ _ _ _ _ _ (y3_at m ρ c) (y2_eq m ρ c) (a_at m ρ c) (w_v m ρ c) b s e

theorem Srow_eq (b : Fin 8) (q : Fin 2048) :
    Srow (Yof (V3 m ρ) c) b q = fun k => score (xOf m c) (wqOf m c) (wkOf m c) b q k := by
  funext k
  unfold Srow score
  congr 1
  exact Finset.sum_congr rfl fun e _ => by rw [Y_q, Y_k]

theorem Vcol_eq (b : Fin 8) (d : Fin 1024) :
    Vcol (Yof (V3 m ρ) c) b d = fun k => proj (xOf m c) (wvOf m c) b k d := by
  funext k
  unfold Vcol
  exact Y_v m ρ c b k d

/-- THE KERNEL'S VALUE: for finite inputs the output array after the run is the attention function of the arguments. -/
theorem kernel_value (hx : ∀ i, ∃ r : ℝ, xOf m c i = (r : EReal)) (hq : ∀ i, ∃ r : ℝ, wqOf m c i = (r : EReal))
    (hk : ∀ i, ∃ r : ℝ, wkOf m c i = (r : EReal)) (hv : ∀ i, ∃ r : ℝ, wvOf m c i = (r : EReal)) :
    (dat1 (F := Ideal) (V3 m ρ) c).arrAt 3 cfg1.N = attn (xOf m c) (wqOf m c) (wkOf m c) (wvOf m c) := by
  rw [final1]
  funext i
  unfold G gAt attn
  rw [Srow_eq, Vcol_eq]
  exact flash_attn _ _ _ _ hx hq hk hv _ _ _

end Cert.KernelIdeal.KValue

end
-- ==== Proof.lean ====
/-
  The certificate of the fused-projection + flash-attention kernel against plain softmax attention.

  The kernel program is two pipelined regions among host operations: region 0 multiplies each block of 512 input rows
  by the three weight matrices packed side by side; region 1 accumulates, for each batch and each tile of 1024 query
  rows, the softmax-weighted sum of the value rows over four tiles of 512 keys, carrying a running maximum, a running
  denominator and a running numerator in scratch buffers and dividing at the last tile. The reference computes the
  three projections, the scores divided by sqrt 1024, a softmax along the key axis and the weighted sum of the values.

  * The three frames: every execution ends, nothing faults, the four argument arrays end as launched — the run of the
    program's four segments (Proof/RunAll.lean for the idealized program, Proof/RunAllB.lean for the program at the
    word level, over the bodies' runs in Proof/Region0*.lean and Proof/Region1*.lean) and the reference's run.
  * preserves: the idealization rewrote nothing.
  * algebraic: on the extended reals the kernel's output array is the attention function of the arguments
    (Proof/KernelIsAttn.lean: 1/32 is exact, a change of float format is the identity, and for finite inputs the
    tile-by-tile quotient is the softmax-weighted sum: Proof/OnlineSoftmax.lean), and so is the reference's
    (Proof/RefIsAttn.lean: dividing by sqrt 1024 is multiplying by 1/32).
-/
import proofs.«153811_j15212774163203_2_alg».proof.Defs
import proofs.«153811_j15212774163203_2_alg».proof.Proof.Gen.Kernel
import proofs.«153811_j15212774163203_2_alg».proof.Proof.Gen.KernelIdeal
import proofs.«153811_j15212774163203_2_alg».proof.Proof.Gen.ReferenceIdeal
import proofs.«153811_j15212774163203_2_alg».proof.Proof.Gen.Pre_finite_inputs
import proofs.«153811_j15212774163203_2_alg».proof.Proof.Gen.ReferenceIdeal.Run
import proofs.«153811_j15212774163203_2_alg».proof.Proof.Gen.ReferenceIdeal.Read
import proofs.«153811_j15212774163203_2_alg».proof.Proof.RunAllB
import proofs.«153811_j15212774163203_2_alg».proof.Proof.KernelIsAttn
import proofs.«153811_j15212774163203_2_alg».proof.Proof.RefIsAttn
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Gen.frame (F := Bits) m ρ

/-- So does the idealized program. -/
theorem frame_ki : Cert.frame_KernelIdeal := fun m ρ _ => Cert.KernelIdeal.Gen.frame (F := Ideal) m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the attention function of the (agreeing, finite) arguments in their result. -/
theorem algebraic : Cert.algebraic_KernelIdeal_ReferenceIdeal := by
  intro m ρ m' ρ' hpre hagree
  refine ⟨fun c => Cert.Attn.attn (Cert.KernelIdeal.KValue.xOf m c) (Cert.KernelIdeal.KValue.wqOf m c)
      (Cert.KernelIdeal.KValue.wkOf m c) (Cert.KernelIdeal.KValue.wvOf m c), ?_, ?_⟩
  · refine (θ_run Cert.KernelIdeal.defs _ _).mono (fun _ h c => ⟨(h c).1.trans ?_, (h c).2⟩)
      (Cert.KernelIdeal.Gen.run_all (F := Ideal) m ρ)
    obtain ⟨hx, hq, hk, hv⟩ := Cert.KernelIdeal.RealIn.real_of_pre _ _ _ _ (hpre c)
    exact Cert.KernelIdeal.KValue.kernel_value m ρ c hx hq hk hv
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v18_eq _ _ _ _).trans (Cert.ReferenceIdeal.RefValue.ref_eq_attn _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
